-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S9800x128 : Shape := ⟨2, ![9800, 128]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S128x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S128x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v10 : BitVec 32 := Scalar.muli arg0 c200_i32
  let v11 : Index := Scalar.indexCast v10
  let c0_6 : Index := 0#32
  ![v11.toNat, 0]
def k0_cond3 (i : grid0.Coords) : BitVec 1 :=
  let arg0 : BitVec 32 := BitVec.ofNat 32 (i 0).val
  let c49_i32 : BitVec 32 := 49#32
  let v25 : BitVec 1 := Scalar.cmpi .eq arg0 c49_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  h_S200x128 : 0 < S200x128.numel
  shapeCasts_S200x128_S200x128 : S200x128.ShapeCasts S200x128
  reduces_S200x128_S128 : S200x128.Reduces [0] S128
  inb_S10000x128_S9800x128_0_0 : ∀ a, (![0, 0] : Fin 2 → Nat) a + S9800x128.size a ≤ S10000x128.size a
  h_S9800x128 : 0 < S9800x128.numel
  broadcasts_S1x128_S9800x128 : S1x128.Broadcasts S9800x128
  reduces_S9800x128_S128 : S9800x128.Reduces [0] S128
  shapeCasts_S128x128_S128x128 : S128x128.ShapeCasts S128x128
  inb_S10000x128_S200x128_9800_0 : ∀ a, (![9800, 0] : Fin 2 → Nat) a + S200x128.size a ≤ S10000x128.size a
  transposes_S1x128_p1_0_S128x1 : S1x128.Transposes [1, 0] S128x1
  broadcasts_S128x1_S128x128 : S128x1.Broadcasts S128x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S9800x128_S9800x128_S128x128_0_0_1_1_n_n_wf : DotDims.WF S9800x128 S9800x128 S128x128 [0] [0] [1] [1] [] []
  dot_S200x128_S200x128_S128x128_0_0_1_1_n_n_wf : DotDims.WF S200x128 S200x128 S128x128 [0] [0] [1] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S9800x128_S9800x128_S128x128_0_0_1_1_n_n : DotDims S9800x128 S9800x128 S128x128 where
  lhsContracting := [0]
  rhsContracting := [0]
  lhsNonContracting := [1]
  rhsNonContracting := [1]
  lhsBatch := []
  rhsBatch := []
  wf := dot_S9800x128_S9800x128_S128x128_0_0_1_1_n_n_wf
def dot_S200x128_S200x128_S128x128_0_0_1_1_n_n : DotDims S200x128 S200x128 S128x128 where
  lhsContracting := [0]
  rhsContracting := [0]
  lhsNonContracting := [1]
  rhsNonContracting := [1]
  lhsBatch := []
  rhsBatch := []
  wf := dot_S200x128_S200x128_S128x128_0_0_1_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S128x10000 : Shape := ⟨2, ![128, 10000]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S128x10000, .f32⟩
  | .hbm, ⟨24, _⟩ => ⟨S128x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  transposes_S10000x128_S128x10000_1_0 : S10000x128.Transposes [1, 0] S128x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S128x10000_S10000x128_S128x128_1_0_0_1_n_n_wf : DotDims.WF S128x10000 S10000x128 S128x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf

class Facts : Prop extends Facts₀ where

variable [Facts]
-- ==== Proof.KbRuns.lean ====
/-
  What the four kinds of grid point have in common: the three conditions of the body's branches in closed form over the
  grid (the first point; point 48, where all rows but the last block are flushed; point 49, the last), where the output
  window is idle, the staging memrefs the body is called with, and the scratch buffers as whole memrefs.
-/
import proofs.«179192_g15607911154264_cont_week2b_145_13_alg».proof.Proof.Gen.Kernel.Frame
import proofs.«179192_g15607911154264_cont_week2b_145_13_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition: the point's coordinate is 0. -/
abbrev cond0 (i : grid0.Coords) : Prop := (Scalar.cmpi .ne (Scalar.extui (Scalar.cmpi .eq (BitVec.ofNat 32 (i 0).val) 0#32)) 0#32) = 1#1
/-- The second branch's condition: the point's coordinate is 48. -/
abbrev cond48 (i : grid0.Coords) : Prop := (Scalar.cmpi .ne (Scalar.extui (Scalar.cmpi .eq (BitVec.ofNat 32 (i 0).val) 48#32)) 0#32) = 1#1
/-- The third branch's condition: the point's coordinate is 49. -/
abbrev cond49 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond48 : ∀ t : Fin cfg0.N, cond48 (grid0.coords t) ↔ t.val = 48 :=
  (by decide +kernel : ∀ t : Fin grid0.N, cond48 (grid0.coords t) ↔ t.val = 48)
theorem hcond49 : ∀ t : Fin cfg0.N, cond49 (grid0.coords t) ↔ t.val = 49 :=
  (by decide +kernel : ∀ t : Fin grid0.N, cond49 (grid0.coords t) ↔ t.val = 49)

/-- The input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The output window is idle, and not written back, everywhere but at the last point. -/
theorem idleAt4 : ∀ t : Fin cfg0.N, ¬cond49 (grid0.coords t) → cfg0.idle 4 (grid0.coords t) = true := by decide +kernel
theorem noFlush4 : ∀ t : Fin cfg0.N, ¬cond49 (grid0.coords t) → (cfg0.win 4).flush t = false := by decide +kernel
theorem liveAt4 : ∀ t : Fin cfg0.N, cond49 (grid0.coords t) → cfg0.idle 4 (grid0.coords t) = false := by decide +kernel

/-- Each window's current staging memref at point `t`, as the body is called with it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
/-- The six scratch buffers as whole memrefs: support, the gcn rows, the running maximum, its snapshot, the partial
    sum of exponentials, the partial pooled product. -/
abbrev sc6 : Memref sig .tc .vmem S10000x128 .f32 := Memref.whole cc0_scratch0
abbrev sc7 : Memref sig .tc .vmem S10000x128 .f32 := Memref.whole cc0_scratch1
abbrev sc8 : Memref sig .tc .vmem S1x128 .f32 := Memref.whole cc0_scratch2
abbrev sc9 : Memref sig .tc .vmem S1x128 .f32 := Memref.whole cc0_scratch3
abbrev sc10 : Memref sig .tc .vmem S1x128 .f32 := Memref.whole cc0_scratch4
abbrev sc11 : Memref sig .tc .vmem S128x128 .f32 := Memref.whole cc0_scratch5
theorem hsc6 : sc6.IsWhole := Memref.isWhole_whole _
theorem hsc7 : sc7.IsWhole := Memref.isWhole_whole _
theorem hsc8 : sc8.IsWhole := Memref.isWhole_whole _
theorem hsc9 : sc9.IsWhole := Memref.isWhole_whole _
theorem hsc10 : sc10.IsWhole := Memref.isWhole_whole _
theorem hsc11 : sc11.IsWhole := Memref.isWhole_whole _

/-- What the region hands the body before the first point: every scratch buffer at some contents, and the generator
    register at some state. -/
theorem PhiA0_eq (c : Dev nD) :
    (Pipeline.ΦA spec0 c : sProp 𝕄)
      = iprop(iprop((∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc6, sc7, sc8, sc9, sc10, sc11, owns_whole]; try rfl

end Cert.Kernel.Body

end
-- ==== Proof.KbRunA.lean ====
/-
  The body's run at the first point (support and the running maximum are initialised, then block 0 is processed): on whole memrefs holding the given contents the body runs to
  its end, leaving what it only reads as it was and each buffer it stores into at its old contents overwritten by
  the stores' pieces (newest first), which the run finds.
-/
import proofs.«179192_g15607911154264_cont_week2b_145_13_alg».proof.Proof.KbRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunA (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : cond0 i) (hc1 : ¬cond48 i) (hc2 : ¬cond49 i)
    (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) :
    Σ' (L6 : List (View.Piece (Elt F) S10000x128 .f32)) (L7 : List (View.Piece (Elt F) S10000x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s6 ∗ owns (c : Thread nD τ) arg7 fullShare s7 ∗ owns (c : Thread nD τ) arg8 fullShare s8
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg6.view.loc (c : Thread nD τ) ↦[arg6.view.set]{fullShare} arg6.view.writes (Elt F) (harg6.unread s6) L6) ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__decoder_kernel_eq_skeleton]; unfold cc0__decoder_kernel_skel
    unfold owns
    iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]; · iexact H6
    isplitl [H7]; · iexact H7
    iexact H8

end Cert.Kernel.Body

end
-- ==== Proof.KbRunB.lean ====
/-
  The body's run at a point strictly between the first and point 48 (one block of gcn rows is processed): on whole memrefs holding the given contents the body runs to
  its end, leaving what it only reads as it was and each buffer it stores into at its old contents overwritten by
  the stores' pieces (newest first), which the run finds.
-/
import proofs.«179192_g15607911154264_cont_week2b_145_13_alg».proof.Proof.KbRunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : ¬cond0 i) (hc1 : ¬cond48 i) (hc2 : ¬cond49 i)
    (x2 : Vec F S1x128 .f32) (x3 : Vec F S200x10000 .f32) (s6 : Vec F S10000x128 .f32) (s7 : Vec F S10000x128 .f32) (s8 : Vec F S1x128 .f32) :
    Σ' (L7 : List (View.Piece (Elt F) S10000x128 .f32)), { L8 : List (View.Piece (Elt F) S1x128 .f32) //
      ∀ (E : Set ℕ) (K : PUnit → sProp 𝕄),
        iprop(owns (c : Thread nD τ) arg3 fullShare x2 ∗ owns (c : Thread nD τ) arg4 fullShare x3 ∗ owns (c : Thread nD τ) arg6 fullShare s6 ∗ owns (c : Thread nD τ) arg7 fullShare s7 ∗ owns (c : Thread nD τ) arg8 fullShare s8
            ∗ (iprop(owns (c : Thread nD τ) arg3 fullShare x2 ∗ owns (c : Thread nD τ) arg4 fullShare x3 ∗ owns (c : Thread nD τ) arg6 fullShare s6 ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__decoder_kernel_eq_skeleton]; unfold cc0__decoder_kernel_skel
    unfold owns
    iintro ⟨⟨%f3, %hf3, H3⟩, ⟨%f4, %hf4, H4⟩, ⟨%f6, %hf6, H6⟩, ⟨%f7, %hf7, H7⟩, ⟨%f8, %hf8, H8⟩, Hk⟩
    obtain rfl := harg3.eq_unread hf3; obtain rfl := harg4.eq_unread hf4; obtain rfl := harg6.eq_unread hf6; obtain rfl := harg7.eq_unread hf7; obtain rfl := harg8.eq_unread hf8
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]; · iexact H7
    iexact H8

end Cert.Kernel.Body

end
-- ==== Proof.KbRunC.lean ====
/-
  The body's run at point 48 (block 48 is processed, then the rows below 9800 are flushed against the running maximum): on whole memrefs holding the given contents the body runs to
  its end, leaving what it only reads as it was and each buffer it stores into at its old contents overwritten by
  the stores' pieces (newest first), which the run finds.
-/
import proofs.«179192_g15607911154264_cont_week2b_145_13_alg».proof.Proof.KbRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunC (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : ¬cond0 i) (hc1 : cond48 i) (hc2 : ¬cond49 i)
    (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) :
    Σ' (L7 : List (View.Piece (Elt F) S10000x128 .f32)) (L8 : List (View.Piece (Elt F) S1x128 .f32)) (L9 : List (View.Piece (Elt F) S1x128 .f32)) (L10 : List (View.Piece (Elt F) S1x128 .f32)), { L11 : List (View.Piece (Elt F) S128x128 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg6 fullShare s6 ∗ owns (c : Thread nD τ) arg7 fullShare s7 ∗ owns (c : Thread nD τ) arg8 fullShare s8 ∗ owns (c : Thread nD τ) arg9 fullShare s9 ∗ owns (c : Thread nD τ) arg10 fullShare s10 ∗ owns (c : Thread nD τ) arg11 fullShare s11
            ∗ (iprop(owns (c : Thread nD τ) arg1 fullShare x0 ∗ owns (c : Thread nD τ) arg3 fullShare x2 ∗ owns (c : Thread nD τ) arg4 fullShare x3 ∗ owns (c : Thread nD τ) arg6 fullShare s6 ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8) ∗ (arg9.view.loc (c : Thread nD τ) ↦[arg9.view.set]{fullShare} arg9.view.writes (Elt F) (harg9.unread s9) L9) ∗ (arg10.view.loc (c : Thread nD τ) ↦[arg10.view.set]{fullShare} arg10.view.writes (Elt F) (harg10.unread s10) L10) ∗ (arg11.view.loc (c : Thread nD τ) ↦[arg11.view.set]{fullShare} arg11.view.writes (Elt F) (harg11.unread s11) L11)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__decoder_kernel_eq_skeleton]; unfold cc0__decoder_kernel_skel
    unfold owns
    iintro ⟨⟨%f1, %hf1, H1⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf1; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]; · iexact H7
    isplitl [H8]; · iexact H8
    isplitl [H9]; · iexact H9
    isplitl [H10]; · iexact H10
    iexact H11

end Cert.Kernel.Body

end
-- ==== Proof.KbRunD.lean ====
/-
  The body's run at the last point (the last block is processed, the partial sums rescaled and the result stored): on whole memrefs holding the given contents the body runs to
  its end, leaving what it only reads as it was and each buffer it stores into at its old contents overwritten by
  the stores' pieces (newest first), which the run finds.
-/
import proofs.«179192_g15607911154264_cont_week2b_145_13_alg».proof.Proof.KbRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunD (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : ¬cond0 i) (hc1 : ¬cond48 i) (hc2 : cond49 i)
    (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) :
    Σ' (L5 : List (View.Piece (Elt F) S128x128 .f32)) (L7 : List (View.Piece (Elt F) S10000x128 .f32)), { L8 : List (View.Piece (Elt F) S1x128 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare s6 ∗ owns (c : Thread nD τ) arg7 fullShare s7 ∗ owns (c : Thread nD τ) arg8 fullShare s8 ∗ owns (c : Thread nD τ) arg9 fullShare s9 ∗ owns (c : Thread nD τ) arg10 fullShare s10 ∗ owns (c : Thread nD τ) arg11 fullShare s11
            ∗ (iprop(owns (c : Thread nD τ) arg1 fullShare x0 ∗ owns (c : Thread nD τ) arg3 fullShare x2 ∗ owns (c : Thread nD τ) arg4 fullShare x3 ∗ (arg5.view.loc (c : Thread nD τ) ↦[arg5.view.set]{fullShare} arg5.view.writes (Elt F) (harg5.unread x4) L5) ∗ owns (c : Thread nD τ) arg6 fullShare s6 ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8) ∗ owns (c : Thread nD τ) arg9 fullShare s9 ∗ owns (c : Thread nD τ) arg10 fullShare s10 ∗ owns (c : Thread nD τ) arg11 fullShare s11) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__decoder_kernel_eq_skeleton]; unfold cc0__decoder_kernel_skel
    unfold owns
    iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexact H5
    isplitl [H6]
    · iexists _; isplitr; · ipureintro; exact harg6.read_unread _
      iexact H6
    isplitl [H7]; · iexact H7
    isplitl [H8]; · iexact H8
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

end Cert.Kernel.Body

end
-- ==== Proof.KbTerms.lean ====
/-
  The values the body keeps between grid points, as terms over the argument blocks: support = X·W; all gcn rows,
  row r taken from adjacency block r / 200; the running column maximum after each point; and the snapshot, partial
  sum and partial product flushed at point 48, with the result stored at point 49. `Inv n` says what the six scratch
  buffers hold after point n.
-/
import Idealize.ShloMosaic.Lib.Pipeline.Value
import Idealize.ShloMosaic.Lib.Pipeline.FrameBody
import Idealize.ShloMosaic.Lib.ValueIdx
import proofs.«179192_g15607911154264_cont_week2b_145_13_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The rows below 9800 of a 10000-row buffer, and its last 200 rows. -/
abbrev rect9800 : Rect S10000x128 := Rect.unit (s := S10000x128) ![0, 0] S9800x128.size inb_S10000x128_S9800x128_0_0
abbrev rect200 : Rect S10000x128 := Rect.unit (s := S10000x128) ![9800, 0] S200x128.size inb_S10000x128_S200x128_9800_0

open Idealize.ShloMosaic.ValueIdx

/-- The six scratch values: support, gcn rows, running maximum, its snapshot, the partial sum, the partial product. -/
abbrev St (F : FTy → Type) [FloatOps F] : Type :=
  Vec F S10000x128 .f32 × Vec F S10000x128 .f32 × Vec F S1x128 .f32 × Vec F S1x128 .f32 × Vec F S1x128 .f32 × Vec F S128x128 .f32

section Terms

variable (Xv : Vec F S10000x128 .f32) (Wv : Vec F S128x128 .f32) (Bv : Vec F S1x128 .f32) (Ab : ℕ → Vec F S200x10000 .f32)

/-- support = X·W, as the first point stores it. -/
def SUP : Vec F S10000x128 .f32 := k0_pay1 Xv Wv

/-- The running column maximum after point n: from −∞, the maximum with each block's column maxima in turn. -/
def MX : ℕ → Vec F S1x128 .f32
  | 0 => k0_pay5 (Ab 0) (SUP Xv Wv) Bv k0_pay2
  | n + 1 => k0_pay5 (Ab (n + 1)) (SUP Xv Wv) Bv (MX n)

/-- Row r of the whole buffer is row r mod 200 of block r / 200. -/
def rowIn (y : S10000x128.Idx) : S200x128.Idx :=
  ix2 (⟨(y 0).val % 200, Nat.mod_lt _ (by norm_num)⟩ : Fin 200) (⟨(y 1).val, (y 1).isLt⟩ : Fin 128)

/-- All gcn rows: row r comes from adjacency block r / 200. -/
def GALL (y : S10000x128.Idx) : Elt F .f32 := k0_pay4 (Ab ((y 0).val / 200)) (SUP Xv Wv) Bv (rowIn y)

/-- The rows below 9800, and the last 200 rows, of gcn and of X. -/
def G9800 : Vec F S9800x128 .f32 := View.ld (Val := Elt F) (GALL Xv Wv Bv Ab) rect9800
def X9800 : Vec F S9800x128 .f32 := View.ld (Val := Elt F) Xv rect9800
def G200 : Vec F S200x128 .f32 := View.ld (Val := Elt F) (GALL Xv Wv Bv Ab) rect200
def X200 : Vec F S200x128 .f32 := View.ld (Val := Elt F) Xv rect200

/-- The three values flushed at point 48, and the result stored at point 49. -/
def MOLD : Vec F S1x128 .f32 := k0_pay6 (MX Xv Wv Bv Ab 48)
def ZZ : Vec F S1x128 .f32 := k0_pay8 (G9800 Xv Wv Bv Ab) (MX Xv Wv Bv Ab 48)
def ACC : Vec F S128x128 .f32 := k0_pay9 (G9800 Xv Wv Bv Ab) (MX Xv Wv Bv Ab 48) (X9800 Xv)
def OUT : Vec F S128x128 .f32 :=
  k0_pay10 (G200 Xv Wv Bv Ab) (MX Xv Wv Bv Ab 49) (X200 Xv) (MOLD Xv Wv Bv Ab) (ZZ Xv Wv Bv Ab) (ACC Xv Wv Bv Ab)

/-- What the scratch buffers hold after point n. -/
def Inv (n : ℕ) (s : St F) : Prop :=
  s.1 = SUP Xv Wv
  ∧ (∀ y : S10000x128.Idx, (y 0).val < 200 * (n + 1) → s.2.1 y = GALL Xv Wv Bv Ab y)
  ∧ s.2.2.1 = MX Xv Wv Bv Ab n
  ∧ (48 ≤ n → s.2.2.2.1 = MOLD Xv Wv Bv Ab ∧ s.2.2.2.2.1 = ZZ Xv Wv Bv Ab ∧ s.2.2.2.2.2 = ACC Xv Wv Bv Ab)

end Terms

end Cert.Kernel.Body

end
-- ==== Proof.KbSteps.lean ====
/-
  The pieces each kind of point leaves, spelled over the contents the body found: every whole load reads the
  buffer's contents, a load after a whole store reads the stored value, and a load of rows of the gcn buffer
  reads it as the point's own store left it.
-/
import Idealize.ShloMosaic.Lib.Pipeline.Value
import Idealize.ShloMosaic.Lib.WritesUnit
import proofs.«179192_g15607911154264_cont_week2b_145_13_alg».proof.Proof.KbRunD
import proofs.«179192_g15607911154264_cont_week2b_145_13_alg».proof.Proof.KbTerms

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first point -/
theorem A_L6 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : cond0 i) (hc1 : ¬cond48 i) (hc2 : ¬cond49 i) (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) : (kernelRunA c i arg1 harg1 arg2 harg2 arg3 harg3 arg4 harg4 arg5 harg5 arg6 harg6 arg7 harg7 arg8 harg8 arg9 harg9 arg10 harg10 arg11 harg11 hc0 hc1 hc2 x0 x1 x2 x3 s6 s7 s8).1 = [(⟨Rect.unit (s := S10000x128) ![0, 0] S10000x128.size inb_S10000x128_S10000x128_0_0, k0_pay1 x0 x1⟩ : View.Piece (Elt F) S10000x128 .f32)] := by
  unfold kernelRunA; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem A_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : cond0 i) (hc1 : ¬cond48 i) (hc2 : ¬cond49 i) (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) : (kernelRunA c i arg1 harg1 arg2 harg2 arg3 harg3 arg4 harg4 arg5 harg5 arg6 harg6 arg7 harg7 arg8 harg8 arg9 harg9 arg10 harg10 arg11 harg11 hc0 hc1 hc2 x0 x1 x2 x3 s6 s7 s8).2.1 = [(⟨Rect.unit (s := S10000x128) (k0_off1 i) S200x128.size (k0_off1_inb i), k0_pay4 x3 (k0_pay1 x0 x1) x2⟩ : View.Piece (Elt F) S10000x128 .f32)] := by
  unfold kernelRunA; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem A_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : cond0 i) (hc1 : ¬cond48 i) (hc2 : ¬cond49 i) (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) : (kernelRunA c i arg1 harg1 arg2 harg2 arg3 harg3 arg4 harg4 arg5 harg5 arg6 harg6 arg7 harg7 arg8 harg8 arg9 harg9 arg10 harg10 arg11 harg11 hc0 hc1 hc2 x0 x1 x2 x3 s6 s7 s8).2.2.1 = [(⟨Rect.unit (s := S1x128) ![0, 0] S1x128.size inb_S1x128_S1x128_0_0, k0_pay5 x3 (k0_pay1 x0 x1) x2 k0_pay2⟩ : View.Piece (Elt F) S1x128 .f32), (⟨Rect.unit (s := S1x128) ![0, 0] S1x128.size inb_S1x128_S1x128_0_0, k0_pay2⟩ : View.Piece (Elt F) S1x128 .f32)] := by
  unfold kernelRunA; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

/-! ## A point between the first and point 48 -/
theorem B_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : ¬cond49 i) (x2 : Vec F S1x128 .f32) (x3 : Vec F S200x10000 .f32) (s6 : Vec F S10000x128 .f32) (s7 : Vec F S10000x128 .f32) (s8 : Vec F S1x128 .f32) : (kernelRunB c i arg1 harg1 arg2 harg2 arg3 harg3 arg4 harg4 arg5 harg5 arg6 harg6 arg7 harg7 arg8 harg8 arg9 harg9 arg10 harg10 arg11 harg11 hc0 hc1 hc2 x2 x3 s6 s7 s8).1 = [(⟨Rect.unit (s := S10000x128) (k0_off1 i) S200x128.size (k0_off1_inb i), k0_pay4 x3 s6 x2⟩ : View.Piece (Elt F) S10000x128 .f32)] := by
  unfold kernelRunB; dsimp only
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem B_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : ¬cond49 i) (x2 : Vec F S1x128 .f32) (x3 : Vec F S200x10000 .f32) (s6 : Vec F S10000x128 .f32) (s7 : Vec F S10000x128 .f32) (s8 : Vec F S1x128 .f32) : (kernelRunB c i arg1 harg1 arg2 harg2 arg3 harg3 arg4 harg4 arg5 harg5 arg6 harg6 arg7 harg7 arg8 harg8 arg9 harg9 arg10 harg10 arg11 harg11 hc0 hc1 hc2 x2 x3 s6 s7 s8).2.1 = [(⟨Rect.unit (s := S1x128) ![0, 0] S1x128.size inb_S1x128_S1x128_0_0, k0_pay5 x3 s6 x2 s8⟩ : View.Piece (Elt F) S1x128 .f32)] := by
  unfold kernelRunB; dsimp only
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

/-! ## Point 48 -/
theorem C_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).1 = [(⟨Rect.unit (s := S10000x128) (k0_off1 i) S200x128.size (k0_off1_inb i), k0_pay4 x3 s6 x2⟩ : View.Piece (Elt F) S10000x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.1 = [(⟨Rect.unit (s := S1x128) ![0, 0] S1x128.size inb_S1x128_S1x128_0_0, k0_pay5 x3 s6 x2 s8⟩ : View.Piece (Elt F) S1x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L9 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.2.1 = [(⟨Rect.unit (s := S1x128) ![0, 0] S1x128.size inb_S1x128_S1x128_0_0, k0_pay6 (k0_pay5 x3 s6 x2 s8)⟩ : View.Piece (Elt F) S1x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L10 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.2.2.1 = [(⟨Rect.unit (s := S1x128) ![0, 0] S1x128.size inb_S1x128_S1x128_0_0, k0_pay8 (View.ld (arg7.view.read (Elt F) (arg7.view.writes (Elt F) (harg7.unread s7) [(⟨Rect.unit (s := S10000x128) (k0_off1 i) S200x128.size (k0_off1_inb i), k0_pay4 x3 s6 x2⟩ : View.Piece (Elt F) S10000x128 .f32)])) rect9800) (k0_pay5 x3 s6 x2 s8)⟩ : View.Piece (Elt F) S1x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L11 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.2.2.2.1 = [(⟨Rect.unit (s := S128x128) ![0, 0] S128x128.size inb_S128x128_S128x128_0_0, k0_pay9 (View.ld (arg7.view.read (Elt F) (arg7.view.writes (Elt F) (harg7.unread s7) [(⟨Rect.unit (s := S10000x128) (k0_off1 i) S200x128.size (k0_off1_inb i), k0_pay4 x3 s6 x2⟩ : View.Piece (Elt F) S10000x128 .f32)])) rect9800) (k0_pay5 x3 s6 x2 s8) (View.ld x0 rect9800)⟩ : View.Piece (Elt F) S128x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

/-! ## The last point -/
theorem D_L5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : cond49 i) (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) : (kernelRunD c i arg1 harg1 arg2 harg2 arg3 harg3 arg4 harg4 arg5 harg5 arg6 harg6 arg7 harg7 arg8 harg8 arg9 harg9 arg10 harg10 arg11 harg11 hc0 hc1 hc2 x0 x2 x3 x4 s6 s7 s8 s9 s10 s11).1 = [(⟨Rect.unit (s := S128x128) ![0, 0] S128x128.size inb_S128x128_S128x128_0_0, k0_pay10 (View.ld (arg7.view.read (Elt F) (arg7.view.writes (Elt F) (harg7.unread s7) [(⟨Rect.unit (s := S10000x128) (k0_off1 i) S200x128.size (k0_off1_inb i), k0_pay4 x3 s6 x2⟩ : View.Piece (Elt F) S10000x128 .f32)])) rect200) (k0_pay5 x3 s6 x2 s8) (View.ld x0 rect200) s9 s10 s11⟩ : View.Piece (Elt F) S128x128 .f32)] := by
  unfold kernelRunD; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem D_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : cond49 i) (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) : (kernelRunD c i arg1 harg1 arg2 harg2 arg3 harg3 arg4 harg4 arg5 harg5 arg6 harg6 arg7 harg7 arg8 harg8 arg9 harg9 arg10 harg10 arg11 harg11 hc0 hc1 hc2 x0 x2 x3 x4 s6 s7 s8 s9 s10 s11).2.1 = [(⟨Rect.unit (s := S10000x128) (k0_off1 i) S200x128.size (k0_off1_inb i), k0_pay4 x3 s6 x2⟩ : View.Piece (Elt F) S10000x128 .f32)] := by
  unfold kernelRunD; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem D_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : cond49 i) (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) : (kernelRunD c i arg1 harg1 arg2 harg2 arg3 harg3 arg4 harg4 arg5 harg5 arg6 harg6 arg7 harg7 arg8 harg8 arg9 harg9 arg10 harg10 arg11 harg11 hc0 hc1 hc2 x0 x2 x3 x4 s6 s7 s8 s9 s10 s11).2.2.1 = [(⟨Rect.unit (s := S1x128) ![0, 0] S1x128.size inb_S1x128_S1x128_0_0, k0_pay5 x3 s6 x2 s8⟩ : View.Piece (Elt F) S1x128 .f32)] := by
  unfold kernelRunD; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

end Cert.Kernel.Body

end
-- ==== Proof.KbInv.lean ====
/-
  What the scratch buffers hold after each grid point, and why. The body keeps six values between points:
  support = X·W; the gcn rows computed so far; the running column maximum; its snapshot at point 48; the column
  sums of exp (gcn − snapshot) over the rows below 9800; and those exponentials' product with X. After point n
  the rows below 200·(n+1) of the gcn buffer are the blocks' values, the running maximum is the fold of the
  block maxima up to n, and from point 48 on the three flushed values are fixed. Each kind of point preserves this.
  Everything here is about which store a load sees; no arithmetic on the values is opened.
-/
import Idealize.ShloMosaic.Lib.Pipeline.Value
import Idealize.ShloMosaic.Lib.WritesUnit
import Idealize.ShloMosaic.Lib.ValueIdx
import proofs.«179192_g15607911154264_cont_week2b_145_13_alg».proof.Proof.KbSteps

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-! ## Which store a load sees -/

/-- A whole-buffer store, newest, is what the buffer reads. -/
theorem read_whole {S : Shape} (v : View sig .tc .vmem S .f32) (f : v.ty.Contents (Elt F)) {off : Fin S.rank → ℕ} (h : off = fun _ => 0)
    (inb : ∀ a, off a + S.size a ≤ S.size a) (w : (Rect.unit (s := S) off S.size inb).shape.Idx → Elt F .f32)
    (L : List (View.Piece (Elt F) S .f32)) :
    v.read (Elt F) (v.writes (Elt F) f ((⟨Rect.unit (s := S) off S.size inb, w⟩ : View.Piece (Elt F) S .f32) :: L)) = w := by
  subst h
  exact funext fun y => View.read_writes_cons_unit_of_mem v f inb w L y y rfl (fun a => (Nat.zero_add _).symm)

/-- After the store of block n (rows 200·n … 200·n+199) over a buffer whose rows below 200·n already agree with G,
    every row below 200·(n+1) agrees with G, provided the stored block does. -/
theorem gcn_step (arg7 : Memref sig .tc .vmem S10000x128 .f32) (harg7 : arg7.IsWhole) (s7 : Vec F S10000x128 .f32)
    (off : Fin 2 → ℕ) (inb : ∀ a : Fin 2, off a + S200x128.size a ≤ S10000x128.size a) (w : Vec F S200x128 .f32) (n : ℕ)
    (hoff : off = ![200 * n, 0]) (G : S10000x128.Idx → Elt F .f32)
    (hprev : ∀ y : S10000x128.Idx, (y 0).val < 200 * n → s7 y = G y)
    (hw : ∀ y : S10000x128.Idx, 200 * n ≤ (y 0).val → (y 0).val < 200 * n + 200 → w (rowIn y) = G y)
    (y : S10000x128.Idx) (hy : (y 0).val < 200 * (n + 1)) :
    arg7.view.read (Elt F) (arg7.view.writes (Elt F) (harg7.unread s7)
      [(⟨Rect.unit (s := S10000x128) off S200x128.size inb, w⟩ : View.Piece (Elt F) S10000x128 .f32)]) y = G y := by
  by_cases h : 200 * n ≤ (y 0).val
  · refine (View.read_writes_cons_rows_of_mem arg7.view _ inb w [] y (rowIn y) hoff ?_ rfl).trans (hw y h (by omega))
    show (y 0).val = 200 * n + (y 0).val % 200
    omega
  · refine (View.read_writes_cons_rows_of_not_mem arg7.view _ inb w [] y hoff rfl (Or.inl (by omega))).trans ?_
    show arg7.view.read (Elt F) (harg7.unread s7) y = G y
    rw [harg7.read_unread]
    exact hprev y (by omega)

/-- A load of rows of a buffer that agrees with G on those rows reads G's rows. -/
theorem ld_congr {S : Shape} (X Y : S.Idx → Elt F .f32) (r : Rect S) (h : ∀ x : r.shape.Idx, X (r.idx x) = Y (r.idx x)) :
    View.ld (Val := Elt F) X r = View.ld (Val := Elt F) Y r := funext h

theorem rect9800_row (x : rect9800.shape.Idx) : ((rect9800.idx x) 0).val < 9800 := by
  show 0 + 1 * (x 0).val < 9800
  have : (x 0).val < 9800 := (x 0).isLt
  omega
theorem rect200_row (x : rect200.shape.Idx) : ((rect200.idx x) 0).val < 10000 := ((rect200.idx x) 0).isLt

section Steps

variable (Xv : Vec F S10000x128 .f32) (Wv : Vec F S128x128 .f32) (Bv : Vec F S1x128 .f32) (Ab : ℕ → Vec F S200x10000 .f32)

/-- The stored block n agrees with GALL on its rows. -/
theorem block_agrees (n : ℕ) (y : S10000x128.Idx) (h1 : 200 * n ≤ (y 0).val) (h2 : (y 0).val < 200 * n + 200) :
    k0_pay4 (Ab n) (SUP Xv Wv) Bv (rowIn y) = GALL Xv Wv Bv Ab y := by
  unfold GALL
  rw [show (y 0).val / 200 = n from by omega]

/-- The first point: whatever the scratch held, afterwards the invariant holds at 0. -/
theorem Inv_A (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (x0 : Vec F S10000x128 .f32) (x1 : Vec F S128x128 .f32) (x2 : Vec F S1x128 .f32) (x3 : Vec F S200x10000 .f32)
    (h0 : x0 = Xv) (h1 : x1 = Wv) (h2 : x2 = Bv) (h3 : x3 = Ab 0) (s6 s7 : Vec F S10000x128 .f32) (s8 s9 s10 : Vec F S1x128 .f32) (s11 : Vec F S128x128 .f32)
    (off : Fin 2 → ℕ) (inb7 : ∀ a : Fin 2, off a + S200x128.size a ≤ S10000x128.size a) (hoff : off = ![200 * 0, 0])
    (L6 L7 : List (View.Piece (Elt F) S10000x128 .f32)) (L8 : List (View.Piece (Elt F) S1x128 .f32))
    (hL6 : L6 = [(⟨Rect.unit (s := S10000x128) ![0, 0] S10000x128.size inb_S10000x128_S10000x128_0_0, k0_pay1 x0 x1⟩ : View.Piece (Elt F) S10000x128 .f32)])
    (hL7 : L7 = [(⟨Rect.unit (s := S10000x128) off S200x128.size inb7, k0_pay4 x3 (k0_pay1 x0 x1) x2⟩ : View.Piece (Elt F) S10000x128 .f32)])
    (hL8 : L8 = [(⟨Rect.unit (s := S1x128) ![0, 0] S1x128.size inb_S1x128_S1x128_0_0, k0_pay5 x3 (k0_pay1 x0 x1) x2 k0_pay2⟩ : View.Piece (Elt F) S1x128 .f32), (⟨Rect.unit (s := S1x128) ![0, 0] S1x128.size inb_S1x128_S1x128_0_0, k0_pay2⟩ : View.Piece (Elt F) S1x128 .f32)]) :
    Inv Xv Wv Bv Ab 0
      (arg6.view.read (Elt F) (arg6.view.writes (Elt F) (harg6.unread s6) L6),
       arg7.view.read (Elt F) (arg7.view.writes (Elt F) (harg7.unread s7) L7),
       arg8.view.read (Elt F) (arg8.view.writes (Elt F) (harg8.unread s8) L8), s9, s10, s11) := by
  subst x0 x1 x2 x3
  subst hL6 hL7 hL8
  have e6 : arg6.view.read (Elt F) (arg6.view.writes (Elt F) (harg6.unread s6) [(⟨Rect.unit (s := S10000x128) ![0, 0] S10000x128.size inb_S10000x128_S10000x128_0_0, k0_pay1 Xv Wv⟩ : View.Piece (Elt F) S10000x128 .f32)]) = SUP Xv Wv :=
    read_whole arg6.view _ hz _ _ _
  have e8 : arg8.view.read (Elt F) (arg8.view.writes (Elt F) (harg8.unread s8) [(⟨Rect.unit (s := S1x128) ![0, 0] S1x128.size inb_S1x128_S1x128_0_0, k0_pay5 (Ab 0) (k0_pay1 Xv Wv) Bv k0_pay2⟩ : View.Piece (Elt F) S1x128 .f32), (⟨Rect.unit (s := S1x128) ![0, 0] S1x128.size inb_S1x128_S1x128_0_0, k0_pay2⟩ : View.Piece (Elt F) S1x128 .f32)]) = MX Xv Wv Bv Ab 0 :=
    read_whole arg8.view _ hz _ _ _
  exact ⟨e6, fun y hy => gcn_step arg7 harg7 s7 _ _ _ 0 hoff _ (fun y hy => absurd hy (by omega))
    (fun y a b => block_agrees Xv Wv Bv Ab 0 y a b) y hy, e8, fun h => absurd h (by omega)⟩

/-- A point n strictly between the first and point 48, and likewise the last point (n = 49): from the invariant at
    n − 1 to the invariant at n. -/
theorem Inv_core (arg7 : Memref sig .tc .vmem S10000x128 .f32) (harg7 : arg7.IsWhole) (arg8 : Memref sig .tc .vmem S1x128 .f32) (harg8 : arg8.IsWhole)
    (x2 : Vec F S1x128 .f32) (x3 : Vec F S200x10000 .f32)
    (s : St F) (n : ℕ) (h2 : x2 = Bv) (h3 : x3 = Ab n) (hn : 0 < n) (hne : n ≠ 48) (off : Fin 2 → ℕ) (inb7 : ∀ a : Fin 2, off a + S200x128.size a ≤ S10000x128.size a)
    (hoff : off = ![200 * n, 0]) (L7 : List (View.Piece (Elt F) S10000x128 .f32)) (L8 : List (View.Piece (Elt F) S1x128 .f32))
    (hL7 : L7 = [(⟨Rect.unit (s := S10000x128) off S200x128.size inb7, k0_pay4 x3 s.1 x2⟩ : View.Piece (Elt F) S10000x128 .f32)])
    (hL8 : L8 = [(⟨Rect.unit (s := S1x128) ![0, 0] S1x128.size inb_S1x128_S1x128_0_0, k0_pay5 x3 s.1 x2 s.2.2.1⟩ : View.Piece (Elt F) S1x128 .f32)])
    (h : Inv Xv Wv Bv Ab (n - 1) s) :
    Inv Xv Wv Bv Ab n
      (s.1, arg7.view.read (Elt F) (arg7.view.writes (Elt F) (harg7.unread s.2.1) L7),
       arg8.view.read (Elt F) (arg8.view.writes (Elt F) (harg8.unread s.2.2.1) L8), s.2.2.2.1, s.2.2.2.2.1, s.2.2.2.2.2) := by
  subst x2 x3
  subst hL7 hL8
  obtain ⟨hs, hg, hm, hl⟩ := h
  refine ⟨hs, fun y hy => ?_, ?_, fun h48 => hl (by omega)⟩
  · rw [hs]
    exact gcn_step arg7 harg7 s.2.1 _ _ _ n hoff _ (fun y hy => hg y (by rw [Nat.sub_add_cancel hn]; exact hy))
      (fun y a b => block_agrees Xv Wv Bv Ab n y a b) y hy
  · refine (read_whole arg8.view _ hz _ _ _).trans ?_
    rw [hs, hm]
    obtain ⟨k, rfl⟩ : ∃ k, n = k + 1 := ⟨n - 1, by omega⟩
    rfl

/-- Point 48: block 48 is stored, then the snapshot, the partial sum and the partial product are flushed from the rows
    below 9800, all of which are in place. -/
theorem Inv_C (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (x0 : Vec F S10000x128 .f32) (x2 : Vec F S1x128 .f32) (x3 : Vec F S200x10000 .f32)
    (h0 : x0 = Xv) (h2 : x2 = Bv) (h3 : x3 = Ab 48) (s : St F)
    (off : Fin 2 → ℕ) (inb7 : ∀ a : Fin 2, off a + S200x128.size a ≤ S10000x128.size a) (hoff : off = ![200 * 48, 0])
    (L7 : List (View.Piece (Elt F) S10000x128 .f32)) (L8 L9 L10 : List (View.Piece (Elt F) S1x128 .f32)) (L11 : List (View.Piece (Elt F) S128x128 .f32))
    (hL7 : L7 = [(⟨Rect.unit (s := S10000x128) off S200x128.size inb7, k0_pay4 x3 s.1 x2⟩ : View.Piece (Elt F) S10000x128 .f32)])
    (hL8 : L8 = [(⟨Rect.unit (s := S1x128) ![0, 0] S1x128.size inb_S1x128_S1x128_0_0, k0_pay5 x3 s.1 x2 s.2.2.1⟩ : View.Piece (Elt F) S1x128 .f32)])
    (hL9 : L9 = [(⟨Rect.unit (s := S1x128) ![0, 0] S1x128.size inb_S1x128_S1x128_0_0, k0_pay6 (k0_pay5 x3 s.1 x2 s.2.2.1)⟩ : View.Piece (Elt F) S1x128 .f32)])
    (hL10 : L10 = [(⟨Rect.unit (s := S1x128) ![0, 0] S1x128.size inb_S1x128_S1x128_0_0, k0_pay8 (View.ld (arg7.view.read (Elt F) (arg7.view.writes (Elt F) (harg7.unread s.2.1) [(⟨Rect.unit (s := S10000x128) off S200x128.size inb7, k0_pay4 x3 s.1 x2⟩ : View.Piece (Elt F) S10000x128 .f32)])) rect9800) (k0_pay5 x3 s.1 x2 s.2.2.1)⟩ : View.Piece (Elt F) S1x128 .f32)])
    (hL11 : L11 = [(⟨Rect.unit (s := S128x128) ![0, 0] S128x128.size inb_S128x128_S128x128_0_0, k0_pay9 (View.ld (arg7.view.read (Elt F) (arg7.view.writes (Elt F) (harg7.unread s.2.1) [(⟨Rect.unit (s := S10000x128) off S200x128.size inb7, k0_pay4 x3 s.1 x2⟩ : View.Piece (Elt F) S10000x128 .f32)])) rect9800) (k0_pay5 x3 s.1 x2 s.2.2.1) (View.ld x0 rect9800)⟩ : View.Piece (Elt F) S128x128 .f32)])
    (h : Inv Xv Wv Bv Ab 47 s) :
    Inv Xv Wv Bv Ab 48
      (s.1, arg7.view.read (Elt F) (arg7.view.writes (Elt F) (harg7.unread s.2.1) L7),
       arg8.view.read (Elt F) (arg8.view.writes (Elt F) (harg8.unread s.2.2.1) L8),
       arg9.view.read (Elt F) (arg9.view.writes (Elt F) (harg9.unread s.2.2.2.1) L9),
       arg10.view.read (Elt F) (arg10.view.writes (Elt F) (harg10.unread s.2.2.2.2.1) L10),
       arg11.view.read (Elt F) (arg11.view.writes (Elt F) (harg11.unread s.2.2.2.2.2) L11)) := by
  subst x0 x2 x3
  subst hL7 hL8 hL9 hL10 hL11
  obtain ⟨hs, hg, hm, -⟩ := h
  have hgcn : ∀ y : S10000x128.Idx, (y 0).val < 200 * (48 + 1) →
      arg7.view.read (Elt F) (arg7.view.writes (Elt F) (harg7.unread s.2.1) [(⟨Rect.unit (s := S10000x128) off S200x128.size inb7, k0_pay4 (Ab 48) s.1 Bv⟩ : View.Piece (Elt F) S10000x128 .f32)]) y
        = GALL Xv Wv Bv Ab y := by
    intro y hy
    rw [hs]
    exact gcn_step arg7 harg7 s.2.1 _ _ _ 48 hoff _ (fun y hy => hg y hy) (fun y a b => block_agrees Xv Wv Bv Ab 48 y a b) y hy
  have hld : View.ld (Val := Elt F) (arg7.view.read (Elt F) (arg7.view.writes (Elt F) (harg7.unread s.2.1) [(⟨Rect.unit (s := S10000x128) off S200x128.size inb7, k0_pay4 (Ab 48) s.1 Bv⟩ : View.Piece (Elt F) S10000x128 .f32)])) rect9800
      = G9800 Xv Wv Bv Ab :=
    ld_congr _ _ _ fun x => hgcn _ (by have := rect9800_row x; omega)
  have hmx : k0_pay5 (Ab 48) s.1 Bv s.2.2.1 = MX Xv Wv Bv Ab 48 := by rw [hs, hm]; rfl
  refine ⟨hs, hgcn, (read_whole arg8.view _ hz _ _ _).trans hmx, fun _ => ⟨?_, ?_, ?_⟩⟩
  · refine (read_whole arg9.view _ hz _ _ _).trans ?_
    rw [hmx]; rfl
  · refine (read_whole arg10.view _ hz _ _ _).trans ?_
    rw [hld, hmx]; rfl
  · refine (read_whole arg11.view _ hz _ _ _).trans ?_
    rw [hld, hmx]; rfl

/-- The last point: block 49 is stored and the result is the rescaled quotient of the flushed values and the last rows. -/
theorem Out_D (arg5 : Memref sig .tc .vmem S128x128 .f32) (harg5 : arg5.IsWhole) (arg7 : Memref sig .tc .vmem S10000x128 .f32) (harg7 : arg7.IsWhole) (arg8 : Memref sig .tc .vmem S1x128 .f32) (harg8 : arg8.IsWhole) (x0 : Vec F S10000x128 .f32) (x2 : Vec F S1x128 .f32) (x3 : Vec F S200x10000 .f32)
    (h0 : x0 = Xv) (h2 : x2 = Bv) (h3 : x3 = Ab 49) (s : St F) (x4 : Vec F S128x128 .f32)
    (off : Fin 2 → ℕ) (inb7 : ∀ a : Fin 2, off a + S200x128.size a ≤ S10000x128.size a) (hoff : off = ![200 * 49, 0])
    (L5 : List (View.Piece (Elt F) S128x128 .f32)) (L7 : List (View.Piece (Elt F) S10000x128 .f32)) (L8 : List (View.Piece (Elt F) S1x128 .f32))
    (hL5 : L5 = [(⟨Rect.unit (s := S128x128) ![0, 0] S128x128.size inb_S128x128_S128x128_0_0, k0_pay10 (View.ld (arg7.view.read (Elt F) (arg7.view.writes (Elt F) (harg7.unread s.2.1) [(⟨Rect.unit (s := S10000x128) off S200x128.size inb7, k0_pay4 x3 s.1 x2⟩ : View.Piece (Elt F) S10000x128 .f32)])) rect200) (k0_pay5 x3 s.1 x2 s.2.2.1) (View.ld x0 rect200) s.2.2.2.1 s.2.2.2.2.1 s.2.2.2.2.2⟩ : View.Piece (Elt F) S128x128 .f32)])
    (hL7 : L7 = [(⟨Rect.unit (s := S10000x128) off S200x128.size inb7, k0_pay4 x3 s.1 x2⟩ : View.Piece (Elt F) S10000x128 .f32)])
    (hL8 : L8 = [(⟨Rect.unit (s := S1x128) ![0, 0] S1x128.size inb_S1x128_S1x128_0_0, k0_pay5 x3 s.1 x2 s.2.2.1⟩ : View.Piece (Elt F) S1x128 .f32)])
    (h : Inv Xv Wv Bv Ab 48 s) :
    arg5.view.read (Elt F) (arg5.view.writes (Elt F) (harg5.unread x4) L5) = OUT Xv Wv Bv Ab
    ∧ Inv Xv Wv Bv Ab 49
      (s.1, arg7.view.read (Elt F) (arg7.view.writes (Elt F) (harg7.unread s.2.1) L7),
       arg8.view.read (Elt F) (arg8.view.writes (Elt F) (harg8.unread s.2.2.1) L8), s.2.2.2.1, s.2.2.2.2.1, s.2.2.2.2.2) := by
  have hI := Inv_core Xv Wv Bv Ab arg7 harg7 arg8 harg8 x2 x3 s 49 h2 h3 (by omega) (by omega) off inb7 hoff L7 L8 hL7 hL8 h
  subst x0 x2 x3
  subst hL5 hL7 hL8
  refine ⟨(read_whole arg5.view _ hz _ _ _).trans ?_, hI⟩
  obtain ⟨hs, hg, hm, hl⟩ := h
  obtain ⟨h9, h10, h11⟩ := hl le_rfl
  have hld : View.ld (Val := Elt F) (arg7.view.read (Elt F) (arg7.view.writes (Elt F) (harg7.unread s.2.1) [(⟨Rect.unit (s := S10000x128) off S200x128.size inb7, k0_pay4 (Ab 49) s.1 Bv⟩ : View.Piece (Elt F) S10000x128 .f32)])) rect200
      = G200 Xv Wv Bv Ab :=
    ld_congr _ _ _ fun x => hI.2.1 _ (by have := rect200_row x; omega)
  have hmx : k0_pay5 (Ab 49) s.1 Bv s.2.2.1 = MX Xv Wv Bv Ab 49 := by rw [hs, hm]; rfl
  rw [hld, hmx, h9, h10, h11]; rfl

end Steps

end Cert.Kernel.Body

end
-- ==== Proof.KbBlocks.lean ====
/-
  The kernel's input blocks read entry by entry. The pipeline hands the kernel, at grid point t of 50: the whole
  10000 × 128 feature array, the whole 128 × 128 weight array, the bias as one 1 × 128 row (the host reshapes the
  128-vector to that row before the kernel starts), and rows 200·t … 200·t + 199 of the 10000 × 10000 adjacency array.
  The result window's one block is the whole 128 × 128 result array.
-/
import proofs.«179192_g15607911154264_cont_week2b_145_13_alg».proof.Proof.Gen.Kernel.Frame
import Idealize.ShloMosaic.Lib.Pipeline.Value
import Idealize.ShloMosaic.Lib.ValueIdx

set_option maxRecDepth 16384

noncomputable section

namespace Cert.Kernel.Blocks

open Cert.Kernel Cert.Kernel.Gen Idealize.ShloMosaic Idealize.ShloMosaic.TcCoe Idealize.ShloMosaic.ValueIdx
open Idealize.SL Idealize.SL.Sem
open Idealize.ShloMosaic.Rounds
open Idealize.ShloMosaic.Pipeline (Dat)

variable {F : FTy → Type} [FloatOps F]
variable (m : (ℓ : Loc nD τ sig) → Buf (Elt F) ℓ) (c : Dev nD) (t : Fin cfg0.N)

/-- The block index of each input window at each grid point: the first three windows stay at block (0, 0); the
    adjacency window is at block (t, 0). -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 50 points. -/
theorem t_lt (t : Fin cfg0.N) : t.val < 50 := t.isLt

/-- The feature window's block is the whole feature array, at every grid point. -/
theorem iblk0_apply (n : Fin 10000) (j : Fin 128) :
    (iblk m c 0 t : Vec F S10000x128 .f32) (ix2 n j) = m ((c : Thread nD τ).loc main_arg0) (ix2 n j) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t 0 * 10000 + 1 * n.val = n.val; rw [e0]; omega
  | ⟨1, _⟩ => show win0_0.index t 1 * 128 + 1 * j.val = j.val; rw [e1]; omega

/-- The weight window's block is the whole weight array, at every grid point. -/
theorem iblk1_apply (i j : Fin 128) :
    (iblk m c 1 t : Vec F S128x128 .f32) (ix2 i j) = m ((c : Thread nD τ).loc main_arg2) (ix2 i j) := by
  obtain ⟨-, -, e0, e1, -⟩ := index_facts t
  unfold iblk
  rw [View.read_apply]
  show V m c main_arg2 _ = _
  rw [V_main_arg2]
  congr 1
  funext a
  apply Fin.ext
  match a with
  | ⟨0, _⟩ => show win0_1.index t 0 * 128 + 1 * i.val = i.val; rw [e0]; omega
  | ⟨1, _⟩ => show win0_1.index t 1 * 128 + 1 * j.val = j.val; rw [e1]; omega

/-- The adjacency window's block at point t is rows 200·t … 200·t + 199 of the adjacency array, all columns. -/
theorem iblk3_apply (r : Fin 200) (k : Fin 10000) :
    (iblk m c 3 t : Vec F S200x10000 .f32) (ix2 r k)
      = m ((c : Thread nD τ).loc main_arg1)
          (ix2 (⟨200 * t.val + r.val, by have := t_lt t; have := r.isLt; omega⟩ : Fin 10000) k) := by
  obtain ⟨-, -, -, -, -, -, e0, e1⟩ := index_facts t
  unfold iblk
  rw [View.read_apply]
  show V m c main_arg1 _ = _
  rw [V_main_arg1]
  congr 1
  funext a
  apply Fin.ext
  match a with
  | ⟨0, _⟩ => show win0_3.index t 0 * 200 + 1 * r.val = 200 * t.val + r.val; rw [e0]; omega
  | ⟨1, _⟩ => show win0_3.index t 1 * 10000 + 1 * k.val = k.val; rw [e1]; omega

/-- The bias row as the kernel finds it: the host's reshape of the 128-vector to one 1 × 128 row. -/
theorem V_main_v0 (h : S128.ShapeCasts S1x128) :
    (V m c main_v0 : S1x128.Idx → Elt F .f32) = shapeCast S1x128 (m ((c : Thread nD τ).loc main_arg3)) h := by
  dsimp only [V, hostOps0]
  after_results
  rfl

/-- The bias window's block is that row, whose entry (0, j) is entry j of the bias vector. -/
theorem iblk2_apply (j : Fin 128) :
    (iblk m c 2 t : Vec F S1x128 .f32) (ix2 (0 : Fin 1) j) = m ((c : Thread nD τ).loc main_arg3) (ix1 j) := by
  obtain ⟨-, -, -, -, e0, e1, -⟩ := index_facts t
  unfold iblk
  rw [View.read_apply]
  show (V m c main_v0 : S1x128.Idx → Elt F .f32) (((cfg0.win 2).blk t).view.emb (ix2 (0 : Fin 1) j)) = _
  rw [V_main_v0 m c shapeCasts_S128_S1x128]
  refine shapeCast_apply _ shapeCasts_S128_S1x128 _ (ix1 j) ?_
  rw [Shape.rowMajor_val_one, Shape.rowMajor_val_two]
  show j.val = (win0_2.index t 0 * 1 + 1 * 0) * 128 + (win0_2.index t 1 * 128 + 1 * j.val)
  rw [e0, e1]
  omega

/-- The feature window's block does not depend on the grid point. -/
theorem iblk0_const (t' : Fin cfg0.N) : (iblk m c 0 t : Vec F S10000x128 .f32) = iblk m c 0 t' := by
  funext i
  obtain ⟨a, b, rfl⟩ : ∃ a b, i = ix2 a b := ⟨i 0, i 1, eq_ix2 i⟩
  rw [iblk0_apply, iblk0_apply]

/-- The weight window's block does not depend on the grid point. -/
theorem iblk1_const (t' : Fin cfg0.N) : (iblk m c 1 t : Vec F S128x128 .f32) = iblk m c 1 t' := by
  funext i
  obtain ⟨a, b, rfl⟩ : ∃ a b, i = ix2 a b := ⟨i 0, i 1, eq_ix2 i⟩
  rw [iblk1_apply, iblk1_apply]

/-- The bias window's block does not depend on the grid point. -/
theorem iblk2_const (t' : Fin cfg0.N) : (iblk m c 2 t : Vec F S1x128 .f32) = iblk m c 2 t' := by
  funext i
  obtain ⟨a, b, rfl⟩ : ∃ a b, i = ix2 a b := ⟨i 0, i 1, eq_ix2 i⟩
  obtain rfl : a = 0 := Subsingleton.elim _ _
  rw [iblk2_apply, iblk2_apply]

/-! ## The result window -/

/-- The result window stays at block (0, 0). -/
theorem index4_facts : ∀ t : Fin cfg0.N, win0_4.index t (0 : Fin 2) = 0 ∧ win0_4.index t (1 : Fin 2) = 0 :=
  (by decide +kernel : ∀ t : Fin grid0.N, _)

/-- The result window's block at any grid point, read off contents of the result array, is those contents: block
    (0, 0) of the 128 × 128 array at block size 128 × 128 is the array. -/
theorem oblk4_read (G : Buf (Elt F) ((c : Thread nD τ).loc main_v1)) :
    (((cfg0.win 4).blk t).view.read (Elt F) G : Vec F S128x128 .f32) = G := by
  obtain ⟨e0, e1⟩ := index4_facts t
  have hz' : (fun a => win0_4.index t a * main_v1.ty.shape.size a) = fun _ => 0 := funext fun a => by
    match a with
    | ⟨0, _⟩ => show win0_4.index t 0 * 128 = 0; rw [e0]
    | ⟨1, _⟩ => show win0_4.index t 1 * 128 = 0; rw [e1]
  exact Memref.read_access_unit_zero (Elt F) main_v1 hz' (fun a => by rw [congrFun hz' a]; simp) G

/-- Every index of the result array is in the result window's block, at any grid point. -/
theorem mem_blk4 (i : S128x128.Idx) : i ∈ ((cfg0.win 4).blk t).view.set := by
  obtain ⟨e0, e1⟩ := index4_facts t
  show i ∈ ((View.whole main_v1).slice (win0_4.rect t)).set
  rw [View.set_slice_whole, Rect.mem_set_unit]
  intro a
  have h0 : (i 0 : Nat) < 128 := (i 0).isLt
  have h1 : (i 1 : Nat) < 128 := (i 1).isLt
  match a with
  | ⟨0, _⟩ =>
    show win0_4.index t 0 * 128 ≤ (i 0 : Nat) ∧ (i 0 : Nat) < win0_4.index t 0 * 128 + 128
    rw [e0]; omega
  | ⟨1, _⟩ =>
    show win0_4.index t 1 * 128 ≤ (i 1 : Nat) ∧ (i 1 : Nat) < win0_4.index t 1 * 128 + 128
    rw [e1]; omega

/-- The last grid point, the one that writes the result back. -/
def tLast : Fin cfg0.N := ⟨49, by rw [show cfg0.N = 50 from N_0]; decide⟩

/-- Only the last grid point writes the result back. -/
theorem eq_tLast_of_flush (hf : (cfg0.win 4).flush t = true) : t = tLast :=
  Fin.ext (by have := (flush0_4 t).mp hf; have := t_lt t; show t.val = 49; omega)

/-- If what the last grid point writes back is `G`, the result array ends holding `G`: that point's block covers
    the array and no other point writes. -/
theorem arrAt4_eq (dat : Dat τ (Elt F) Unit ℕ (UR sig nD τ) ℕ cfg0 c) (G : Buf (Elt F) ((c : Thread nD τ).loc main_v1))
    (hG : (dat.flushed 4 tLast : Vec F S128x128 .f32) = G) : dat.arrAt 4 cfg0.N = G :=
  dat.arrAt_eq_of_cover 4 G
    (fun t hf => by
      obtain rfl : t = tLast := eq_tLast_of_flush t hf
      exact hG.trans (oblk4_read c tLast G).symm)
    (fun i => ⟨tLast, (flush0_4 tLast).mpr rfl, mem_blk4 tLast i⟩)

end Cert.Kernel.Blocks

end
-- ==== Proof.KbBody.lean ====
/-
  The frame of the program: the proof data (each input window holds its block at every point; the output window
  holds the result after the last point; between points the six scratch buffers hold what the invariant says),
  the body's triple at every grid point by the four kinds of point, and the run to the end.
-/
import Idealize.ShloMosaic.Lib.Pipeline.Value
import proofs.«179192_g15607911154264_cont_week2b_145_13_alg».proof.Proof.KbInv
import proofs.«179192_g15607911154264_cont_week2b_145_13_alg».proof.Proof.KbBlocks

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Blocks

variable (m : (ℓ : Loc nD τ sig) → Buf (Elt F) ℓ) (ρ : Dev nD → PrngReg)

theorem N50 : cfg0.N = 50 := N_0
/-- The first grid point. -/
def t0 : Fin cfg0.N := ⟨0, by rw [N50]; decide⟩

/-- The argument blocks the body sees: X, W and the bias row are the same block at every point; adjacency block n. -/
def Xb (c : Dev nD) : Vec F S10000x128 .f32 := iblk m c 0 t0
def Wb (c : Dev nD) : Vec F S128x128 .f32 := iblk m c 1 t0
def Bb (c : Dev nD) : Vec F S1x128 .f32 := iblk m c 2 t0
def Abk (c : Dev nD) (n : ℕ) : Vec F S200x10000 .f32 := if h : n < cfg0.N then iblk m c 3 ⟨n, h⟩ else iblk m c 3 t0

theorem Xb_eq (c : Dev nD) (t : Fin cfg0.N) : (iblk m c 0 t : Vec F S10000x128 .f32) = Xb m c := iblk0_const m c t t0
theorem Wb_eq (c : Dev nD) (t : Fin cfg0.N) : (iblk m c 1 t : Vec F S128x128 .f32) = Wb m c := iblk1_const m c t t0
theorem Bb_eq (c : Dev nD) (t : Fin cfg0.N) : (iblk m c 2 t : Vec F S1x128 .f32) = Bb m c := iblk2_const m c t t0
theorem Abk_eq (c : Dev nD) (t : Fin cfg0.N) : (iblk m c 3 t : Vec F S200x10000 .f32) = Abk m c t.val := by
  unfold Abk; rw [dif_pos t.isLt]

/-- Block t of the gcn buffer starts at row 200·t. -/
theorem hoff_facts : ∀ t : Fin cfg0.N, k0_off1 (grid0.coords t) 0 = 200 * t.val ∧ k0_off1 (grid0.coords t) 1 = 0 :=
  (by decide +kernel : ∀ t : Fin grid0.N, k0_off1 (grid0.coords t) 0 = 200 * t.val ∧ k0_off1 (grid0.coords t) 1 = 0)
theorem hoff (t : Fin cfg0.N) : k0_off1 (grid0.coords t) = ![200 * t.val, 0] := funext fun a => by
  match a with
  | ⟨0, _⟩ => exact (hoff_facts t).1
  | ⟨1, _⟩ => exact (hoff_facts t).2

/-- The region invariant before point n: before the first point every scratch buffer holds anything; afterwards
    the six buffers hold values satisfying the invariant after point n − 1. -/
def PhiS (c : Dev nD) : ℕ → sProp 𝕄
  | 0 => Pipeline.ΦA spec0 c
  | n + 1 => iprop(∃ s6 : Vec F S10000x128 .f32, ∃ s7 : Vec F S10000x128 .f32, ∃ s8 : Vec F S1x128 .f32, ∃ s9 : Vec F S1x128 .f32,
      ∃ s10 : Vec F S1x128 .f32, ∃ s11 : Vec F S128x128 .f32,
      ⌜Inv (Xb m c) (Wb m c) (Bb m c) (Abk m c) n (s6, s7, s8, s9, s10, s11)⌝ ∗ (owns (c : Thread nD τ) sc6 fullShare s6 ∗ owns (c : Thread nD τ) sc7 fullShare s7 ∗ owns (c : Thread nD τ) sc8 fullShare s8 ∗ owns (c : Thread nD τ) sc9 fullShare s9 ∗ owns (c : Thread nD τ) sc10 fullShare s10 ∗ owns (c : Thread nD τ) sc11 fullShare s11) ∗ (∃ r, prngReg c r))

theorem PhiS_succ (c : Dev nD) (n : ℕ) : PhiS m c (n + 1) = iprop(∃ s6 : Vec F S10000x128 .f32, ∃ s7 : Vec F S10000x128 .f32, ∃ s8 : Vec F S1x128 .f32, ∃ s9 : Vec F S1x128 .f32,
      ∃ s10 : Vec F S1x128 .f32, ∃ s11 : Vec F S128x128 .f32,
      ⌜Inv (Xb m c) (Wb m c) (Bb m c) (Abk m c) n (s6, s7, s8, s9, s10, s11)⌝ ∗ (owns (c : Thread nD τ) sc6 fullShare s6 ∗ owns (c : Thread nD τ) sc7 fullShare s7 ∗ owns (c : Thread nD τ) sc8 fullShare s8 ∗ owns (c : Thread nD τ) sc9 fullShare s9 ∗ owns (c : Thread nD τ) sc10 fullShare s10 ∗ owns (c : Thread nD τ) sc11 fullShare s11) ∗ (∃ r, prngReg c r)) := rfl

theorem PhiS_pos (c : Dev nD) (n : ℕ) (hz : n ≠ 0) : PhiS m c n = iprop(∃ s6 : Vec F S10000x128 .f32, ∃ s7 : Vec F S10000x128 .f32, ∃ s8 : Vec F S1x128 .f32, ∃ s9 : Vec F S1x128 .f32,
      ∃ s10 : Vec F S1x128 .f32, ∃ s11 : Vec F S128x128 .f32,
      ⌜Inv (Xb m c) (Wb m c) (Bb m c) (Abk m c) (n - 1) (s6, s7, s8, s9, s10, s11)⌝ ∗ (owns (c : Thread nD τ) sc6 fullShare s6 ∗ owns (c : Thread nD τ) sc7 fullShare s7 ∗ owns (c : Thread nD τ) sc8 fullShare s8 ∗ owns (c : Thread nD τ) sc9 fullShare s9 ∗ owns (c : Thread nD τ) sc10 fullShare s10 ∗ owns (c : Thread nD τ) sc11 fullShare s11) ∗ (∃ r, prngReg c r)) := by
  cases n with
  | zero => exact absurd rfl hz
  | succ n => rfl

/-- The proof data: the arrays as the region finds them; after the body each input window at its block, the output
    window at the result; between points the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OUT (Xb m c) (Wb m c) (Bb m c) (Abk m c)
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = OUT (Xb m c) (Wb m c) (Bb m c) (Abk m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  have hN : t.val < 50 := lt_of_lt_of_eq t.isLt N50
  have hx0 : (iblk m c 0 t : Vec F S10000x128 .f32) = Xb m c := Xb_eq m c t
  have hx1 : (iblk m c 1 t : Vec F S128x128 .f32) = Wb m c := Wb_eq m c t
  have hx2 : (iblk m c 2 t : Vec F S1x128 .f32) = Bb m c := Bb_eq m c t
  have hx3 : (iblk m c 3 t : Vec F S200x10000 .f32) = Abk m c t.val := Abk_eq m c t
  by_cases h49 : t.val = 49
  · -- the last point
    have hc0 : ¬cond0 (grid0.coords t) := fun h => by have := (hcond0 t).mp h; omega
    have hc1 : ¬cond48 (grid0.coords t) := fun h => by have := (hcond48 t).mp h; omega
    have hc2 : cond49 (grid0.coords t) := (hcond49 t).mpr h49
    rw [show (dats m 0 c).leavesExact 0 t = owns (c : Thread nD τ) (ms0 t) fullShare ((dats m 0 c).after 0 t) from by
      unfold Dat.leavesExact; rw [liveAt0 t], after0]
    rw [show (dats m 0 c).leavesExact 1 t = owns (c : Thread nD τ) (ms1 t) fullShare ((dats m 0 c).after 1 t) from by
      unfold Dat.leavesExact; rw [liveAt1 t], after1]
    rw [show (dats m 0 c).leavesExact 2 t = owns (c : Thread nD τ) (ms2 t) fullShare ((dats m 0 c).after 2 t) from by
      unfold Dat.leavesExact; rw [liveAt2 t], after2]
    rw [show (dats m 0 c).leavesExact 3 t = owns (c : Thread nD τ) (ms3 t) fullShare ((dats m 0 c).after 3 t) from by
      unfold Dat.leavesExact; rw [liveAt3 t], after3]
    rw [show (dats m 0 c).leavesExact 4 t = owns (c : Thread nD τ) (ms4 t) fullShare ((dats m 0 c).after 4 t) from by
      unfold Dat.leavesExact; rw [liveAt4 t hc2], after4]
    rw [PhiS_pos m c t.val (by omega)]
    iintro ⟨⟨%s6, %s7, %s8, %s9, %s10, %s11, %hI, ⟨H6, H7, H8, H9, H10, H11⟩, Hg⟩, Ho, ⟨%d0, H0⟩, ⟨%d1, H1⟩, ⟨%d2, H2⟩, ⟨%d3, H3⟩, ⟨%d4, H4⟩⟩
    have hI' : Inv (Xb m c) (Wb m c) (Bb m c) (Abk m c) 48 (s6, s7, s8, s9, s10, s11) := by rw [show (48 : ℕ) = t.val - 1 from by omega]; exact hI
    have hOD := Out_D (Xb m c) (Wb m c) (Bb m c) (Abk m c) (ms4 t) (hs4 t) sc7 hsc7 sc8 hsc8 (iblk m c 0 t) (iblk m c 2 t) (iblk m c 3 t)
      hx0 hx2 (by rw [hx3, h49]) (s6, s7, s8, s9, s10, s11) ((dats m 0 c).before 4 t d4) _ (k0_off1_inb (grid0.coords t)) (by rw [hoff t, h49]) _ _ _
      (D_L5 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) ((dats m 0 c).before 4 t d4) s6 s7 s8 s9 s10 s11)
      (D_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) ((dats m 0 c).before 4 t d4) s6 s7 s8 s9 s10 s11)
      (D_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) ((dats m 0 c).before 4 t d4) s6 s7 s8 s9 s10 s11) hI'
    iapply ((kernelRunD c (grid0.coords t) _ _ _ _ _ _ _ _ _ _ _ _ _ _ _ _ _ _ _ _ _ _ hc0 hc1 hc2 (iblk m c 0 t) (iblk m c 2 t) (iblk m c 3 t) ((dats m 0 c).before 4 t d4) s6 s7 s8 s9 s10 s11).2.2.2 Set.univ _)
    isplitl [H0]; · iexact H0
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iintro ⟨H0, H2, H3, H4, H6, H7, H8, H9, H10, H11⟩
    isplitl [H6 H7 H8 H9 H10 H11 Hg]
    · iexists s6; iexists _; iexists _; iexists s9; iexists s10; iexists s11
      isplitr
      · ipureintro; rw [show t.val = 49 from h49]; exact hOD.2
      isplitl [H6 H7 H8 H9 H10 H11]
      · isplitl [H6]; · iexact H6
        isplitl [H7]
        · unfold owns; iexists _; isplitr; swap; iexact H7; ipureintro; rfl
        isplitl [H8]
        · unfold owns; iexists _; isplitr; swap; iexact H8; ipureintro; rfl
        isplitl [H9]; · iexact H9
        isplitl [H10]; · iexact H10
        iexact H11
      iexact Hg
    isplitl [Ho]; · iexact Ho
    isplitl [H0]; · iexact H0
    isplitl [H1]; · iexact H1
    isplitl [H2]; · iexact H2
    isplitl [H3]; · iexact H3
    rw [← hOD.1]
    unfold owns; iexists _; isplitr; swap; iexact H4; ipureintro; rfl
  · have hc2 : ¬cond49 (grid0.coords t) := fun h => h49 ((hcond49 t).mp h)
    rw [show (dats m 0 c).leavesExact 0 t = owns (c : Thread nD τ) (ms0 t) fullShare ((dats m 0 c).after 0 t) from by
      unfold Dat.leavesExact; rw [liveAt0 t], after0]
    rw [show (dats m 0 c).leavesExact 1 t = owns (c : Thread nD τ) (ms1 t) fullShare ((dats m 0 c).after 1 t) from by
      unfold Dat.leavesExact; rw [liveAt1 t], after1]
    rw [show (dats m 0 c).leavesExact 2 t = owns (c : Thread nD τ) (ms2 t) fullShare ((dats m 0 c).after 2 t) from by
      unfold Dat.leavesExact; rw [liveAt2 t], after2]
    rw [show (dats m 0 c).leavesExact 3 t = owns (c : Thread nD τ) (ms3 t) fullShare ((dats m 0 c).after 3 t) from by
      unfold Dat.leavesExact; rw [liveAt3 t], after3]
    rw [Dat.leavesExact_idle (dats m 0 c) 4 t (idleAt4 t hc2) (noFlush4 t hc2)]
    by_cases h0 : t.val = 0
    · -- the first point
      have hc0 : cond0 (grid0.coords t) := (hcond0 t).mpr h0
      have hc1 : ¬cond48 (grid0.coords t) := fun h => by have := (hcond48 t).mp h; omega
      rw [show PhiS m c t.val = PhiS m c 0 from by rw [h0]]
      rw [show PhiS m c 0 = Pipeline.ΦA spec0 c from rfl, PhiA0_eq]
      iintro ⟨⟨⟨⟨%s6, H6⟩, ⟨%s7, H7⟩, ⟨%s8, H8⟩, ⟨%s9, H9⟩, ⟨%s10, H10⟩, ⟨%s11, H11⟩⟩, Hg⟩, Ho, ⟨%d0, H0⟩, ⟨%d1, H1⟩, ⟨%d2, H2⟩, ⟨%d3, H3⟩, ⟨%d4, H4⟩⟩
      have hIA := Inv_A (Xb m c) (Wb m c) (Bb m c) (Abk m c) sc6 hsc6 sc7 hsc7 sc8 hsc8 (iblk m c 0 t) (iblk m c 1 t) (iblk m c 2 t) (iblk m c 3 t)
        hx0 hx1 hx2 (by rw [hx3, h0]) s6 s7 s8 s9 s10 s11 _ (k0_off1_inb (grid0.coords t)) (by rw [hoff t, h0]) _ _ _
        (A_L6 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 1 t) (iblk m c 2 t) (iblk m c 3 t) s6 s7 s8)
        (A_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 1 t) (iblk m c 2 t) (iblk m c 3 t) s6 s7 s8)
        (A_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 1 t) (iblk m c 2 t) (iblk m c 3 t) s6 s7 s8)
      iapply ((kernelRunA c (grid0.coords t) _ _ _ _ _ _ _ _ _ _ _ _ _ _ _ _ _ _ _ _ _ _ hc0 hc1 hc2 (iblk m c 0 t) (iblk m c 1 t) (iblk m c 2 t) (iblk m c 3 t) s6 s7 s8).2.2.2 Set.univ _)
      isplitl [H0]; · iexact H0
      isplitl [H1]; · iexact H1
      isplitl [H2]; · iexact H2
      isplitl [H3]; · iexact H3
      isplitl [H6]; · iexact H6
      isplitl [H7]; · iexact H7
      isplitl [H8]; · iexact H8
      iintro ⟨H0, H1, H2, H3, H6, H7, H8⟩
      isplitl [H6 H7 H8 H9 H10 H11 Hg]
      · iexists _; iexists _; iexists _; iexists s9; iexists s10; iexists s11
        isplitr
        · ipureintro; rw [show t.val = 0 from h0]; exact hIA
        isplitl [H6 H7 H8 H9 H10 H11]
        · isplitl [H6]
          · unfold owns; iexists _; isplitr; swap; iexact H6; ipureintro; rfl
          isplitl [H7]
          · unfold owns; iexists _; isplitr; swap; iexact H7; ipureintro; rfl
          isplitl [H8]
          · unfold owns; iexists _; isplitr; swap; iexact H8; ipureintro; rfl
          isplitl [H9]; · iexact H9
          isplitl [H10]; · iexact H10
          iexact H11
        iexact Hg
      isplitl [Ho]; · iexact Ho
      isplitl [H0]; · iexact H0
      isplitl [H1]; · iexact H1
      isplitl [H2]; · iexact H2
      isplitl [H3]; · iexact H3
      iexists _; iexact H4
    · have hc0 : ¬cond0 (grid0.coords t) := fun h => h0 ((hcond0 t).mp h)
      rw [PhiS_pos m c t.val h0]
      by_cases h48 : t.val = 48
      · -- point 48
        have hc1 : cond48 (grid0.coords t) := (hcond48 t).mpr h48
        iintro ⟨⟨%s6, %s7, %s8, %s9, %s10, %s11, %hI, ⟨H6, H7, H8, H9, H10, H11⟩, Hg⟩, Ho, ⟨%d0, H0⟩, ⟨%d1, H1⟩, ⟨%d2, H2⟩, ⟨%d3, H3⟩, ⟨%d4, H4⟩⟩
        have hI' : Inv (Xb m c) (Wb m c) (Bb m c) (Abk m c) 47 (s6, s7, s8, s9, s10, s11) := by rw [show (47 : ℕ) = t.val - 1 from by omega]; exact hI
        have hIC := Inv_C (Xb m c) (Wb m c) (Bb m c) (Abk m c) sc7 hsc7 sc8 hsc8 sc9 hsc9 sc10 hsc10 sc11 hsc11 (iblk m c 0 t) (iblk m c 2 t) (iblk m c 3 t)
          hx0 hx2 (by rw [hx3, h48]) (s6, s7, s8, s9, s10, s11) _ (k0_off1_inb (grid0.coords t)) (by rw [hoff t, h48]) _ _ _ _ _
          (C_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L9 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L10 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L11 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11) hI'
        iapply ((kernelRunC c (grid0.coords t) _ _ _ _ _ _ _ _ _ _ _ _ _ _ _ _ _ _ _ _ _ _ hc0 hc1 hc2 (iblk m c 0 t) (iblk m c 2 t) (iblk m c 3 t) s6 s7 s8 s9 s10 s11).2.2.2.2.2 Set.univ _)
        isplitl [H0]; · iexact H0
        isplitl [H2]; · iexact H2
        isplitl [H3]; · iexact H3
        isplitl [H6]; · iexact H6
        isplitl [H7]; · iexact H7
        isplitl [H8]; · iexact H8
        isplitl [H9]; · iexact H9
        isplitl [H10]; · iexact H10
        isplitl [H11]; · iexact H11
        iintro ⟨H0, H2, H3, H6, H7, H8, H9, H10, H11⟩
        isplitl [H6 H7 H8 H9 H10 H11 Hg]
        · iexists s6; iexists _; iexists _; iexists _; iexists _; iexists _
          isplitr
          · ipureintro; rw [show t.val = 48 from h48]; exact hIC
          isplitl [H6 H7 H8 H9 H10 H11]
          · isplitl [H6]; · iexact H6
            isplitl [H7]
            · unfold owns; iexists _; isplitr; swap; iexact H7; ipureintro; rfl
            isplitl [H8]
            · unfold owns; iexists _; isplitr; swap; iexact H8; ipureintro; rfl
            isplitl [H9]
            · unfold owns; iexists _; isplitr; swap; iexact H9; ipureintro; rfl
            isplitl [H10]
            · unfold owns; iexists _; isplitr; swap; iexact H10; ipureintro; rfl
            unfold owns; iexists _; isplitr; swap; iexact H11; ipureintro; rfl
          iexact Hg
        isplitl [Ho]; · iexact Ho
        isplitl [H0]; · iexact H0
        isplitl [H1]; · iexact H1
        isplitl [H2]; · iexact H2
        isplitl [H3]; · iexact H3
        iexists _; iexact H4
      · -- a point strictly between the first and point 48
        have hc1 : ¬cond48 (grid0.coords t) := fun h => h48 ((hcond48 t).mp h)
        iintro ⟨⟨%s6, %s7, %s8, %s9, %s10, %s11, %hI, ⟨H6, H7, H8, H9, H10, H11⟩, Hg⟩, Ho, ⟨%d0, H0⟩, ⟨%d1, H1⟩, ⟨%d2, H2⟩, ⟨%d3, H3⟩, ⟨%d4, H4⟩⟩
        have hIB := Inv_core (Xb m c) (Wb m c) (Bb m c) (Abk m c) sc7 hsc7 sc8 hsc8 (iblk m c 2 t) (iblk m c 3 t) (s6, s7, s8, s9, s10, s11) t.val
          hx2 hx3 (by omega) h48 _ (k0_off1_inb (grid0.coords t)) (hoff t) _ _
          (B_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 2 t) (iblk m c 3 t) s6 s7 s8)
          (B_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 2 t) (iblk m c 3 t) s6 s7 s8) hI
        iapply ((kernelRunB c (grid0.coords t) _ _ _ _ _ _ _ _ _ _ _ _ _ _ _ _ _ _ _ _ _ _ hc0 hc1 hc2 (iblk m c 2 t) (iblk m c 3 t) s6 s7 s8).2.2 Set.univ _)
        isplitl [H2]; · iexact H2
        isplitl [H3]; · iexact H3
        isplitl [H6]; · iexact H6
        isplitl [H7]; · iexact H7
        isplitl [H8]; · iexact H8
        iintro ⟨H2, H3, H6, H7, H8⟩
        isplitl [H6 H7 H8 H9 H10 H11 Hg]
        · iexists s6; iexists _; iexists _; iexists s9; iexists s10; iexists s11
          isplitr
          · ipureintro; exact hIB
          isplitl [H6 H7 H8 H9 H10 H11]
          · isplitl [H6]; · iexact H6
            isplitl [H7]
            · unfold owns; iexists _; isplitr; swap; iexact H7; ipureintro; rfl
            isplitl [H8]
            · unfold owns; iexists _; isplitr; swap; iexact H8; ipureintro; rfl
            isplitl [H9]; · iexact H9
            isplitl [H10]; · iexact H10
            iexact H11
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl]
  exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, N50]; decide), PhiA0_eq]
  iintro ⟨%s6, %s7, %s8, %s9, %s10, %s11, %hI, ⟨H6, H7, H8, H9, H10, H11⟩, Hg⟩
  isplitl [H6 H7 H8 H9 H10 H11]
  · isplitl [H6]; · iexists _; iexact H6
    isplitl [H7]; · iexists _; iexact H7
    isplitl [H8]; · iexists _; iexact H8
    isplitl [H9]; · iexists _; iexact H9
    isplitl [H10]; · iexists _; iexact H10
    iexists _; iexact H11
  iexact Hg

set_option backward.isDefEq.respectTransparency.types false in
/-- Every weakly fair execution of the program terminates, and every final state has each array of the pipeline at
    what the proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KiRuns.lean ====
/-
  What the four kinds of grid point have in common: the three conditions of the body's branches in closed form over the
  grid (the first point; point 48, where all rows but the last block are flushed; point 49, the last), where the output
  window is idle, the staging memrefs the body is called with, and the scratch buffers as whole memrefs.
-/
import proofs.«179192_g15607911154264_cont_week2b_145_13_alg».proof.Proof.Gen.KernelIdeal.Frame
import proofs.«179192_g15607911154264_cont_week2b_145_13_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition: the point's coordinate is 0. -/
abbrev cond0 (i : grid0.Coords) : Prop := (Scalar.cmpi .ne (Scalar.extui (Scalar.cmpi .eq (BitVec.ofNat 32 (i 0).val) 0#32)) 0#32) = 1#1
/-- The second branch's condition: the point's coordinate is 48. -/
abbrev cond48 (i : grid0.Coords) : Prop := (Scalar.cmpi .ne (Scalar.extui (Scalar.cmpi .eq (BitVec.ofNat 32 (i 0).val) 48#32)) 0#32) = 1#1
/-- The third branch's condition: the point's coordinate is 49. -/
abbrev cond49 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond48 : ∀ t : Fin cfg0.N, cond48 (grid0.coords t) ↔ t.val = 48 :=
  (by decide +kernel : ∀ t : Fin grid0.N, cond48 (grid0.coords t) ↔ t.val = 48)
theorem hcond49 : ∀ t : Fin cfg0.N, cond49 (grid0.coords t) ↔ t.val = 49 :=
  (by decide +kernel : ∀ t : Fin grid0.N, cond49 (grid0.coords t) ↔ t.val = 49)

/-- The input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The output window is idle, and not written back, everywhere but at the last point. -/
theorem idleAt4 : ∀ t : Fin cfg0.N, ¬cond49 (grid0.coords t) → cfg0.idle 4 (grid0.coords t) = true := by decide +kernel
theorem noFlush4 : ∀ t : Fin cfg0.N, ¬cond49 (grid0.coords t) → (cfg0.win 4).flush t = false := by decide +kernel
theorem liveAt4 : ∀ t : Fin cfg0.N, cond49 (grid0.coords t) → cfg0.idle 4 (grid0.coords t) = false := by decide +kernel

/-- Each window's current staging memref at point `t`, as the body is called with it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
/-- The six scratch buffers as whole memrefs: support, the gcn rows, the running maximum, its snapshot, the partial
    sum of exponentials, the partial pooled product. -/
abbrev sc6 : Memref sig .tc .vmem S10000x128 .f32 := Memref.whole cc0_scratch0
abbrev sc7 : Memref sig .tc .vmem S10000x128 .f32 := Memref.whole cc0_scratch1
abbrev sc8 : Memref sig .tc .vmem S1x128 .f32 := Memref.whole cc0_scratch2
abbrev sc9 : Memref sig .tc .vmem S1x128 .f32 := Memref.whole cc0_scratch3
abbrev sc10 : Memref sig .tc .vmem S1x128 .f32 := Memref.whole cc0_scratch4
abbrev sc11 : Memref sig .tc .vmem S128x128 .f32 := Memref.whole cc0_scratch5
theorem hsc6 : sc6.IsWhole := Memref.isWhole_whole _
theorem hsc7 : sc7.IsWhole := Memref.isWhole_whole _
theorem hsc8 : sc8.IsWhole := Memref.isWhole_whole _
theorem hsc9 : sc9.IsWhole := Memref.isWhole_whole _
theorem hsc10 : sc10.IsWhole := Memref.isWhole_whole _
theorem hsc11 : sc11.IsWhole := Memref.isWhole_whole _

/-- What the region hands the body before the first point: every scratch buffer at some contents, and the generator
    register at some state. -/
theorem PhiA0_eq (c : Dev nD) :
    (Pipeline.ΦA spec0 c : sProp 𝕄)
      = iprop(iprop((∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc6, sc7, sc8, sc9, sc10, sc11, owns_whole]; try rfl

end Cert.KernelIdeal.Body

end
-- ==== Proof.KiRunA.lean ====
/-
  The body's run at the first point (support and the running maximum are initialised, then block 0 is processed): on whole memrefs holding the given contents the body runs to
  its end, leaving what it only reads as it was and each buffer it stores into at its old contents overwritten by
  the stores' pieces (newest first), which the run finds.
-/
import proofs.«179192_g15607911154264_cont_week2b_145_13_alg».proof.Proof.KiRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunA (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : cond0 i) (hc1 : ¬cond48 i) (hc2 : ¬cond49 i)
    (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) :
    Σ' (L6 : List (View.Piece (Elt F) S10000x128 .f32)) (L7 : List (View.Piece (Elt F) S10000x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare s6 ∗ owns (c : Thread nD τ) arg7 fullShare s7 ∗ owns (c : Thread nD τ) arg8 fullShare s8
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg6.view.loc (c : Thread nD τ) ↦[arg6.view.set]{fullShare} arg6.view.writes (Elt F) (harg6.unread s6) L6) ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__decoder_kernel_eq_skeleton]; unfold cc0__decoder_kernel_skel
    unfold owns
    iintro ⟨⟨%f1, %hf1, H1⟩, ⟨%f2, %hf2, H2⟩, ⟨%f3, %hf3, H3⟩, ⟨%f4, %hf4, H4⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]; · iexact H6
    isplitl [H7]; · iexact H7
    iexact H8

end Cert.KernelIdeal.Body

end
-- ==== Proof.KiRunB.lean ====
/-
  The body's run at a point strictly between the first and point 48 (one block of gcn rows is processed): on whole memrefs holding the given contents the body runs to
  its end, leaving what it only reads as it was and each buffer it stores into at its old contents overwritten by
  the stores' pieces (newest first), which the run finds.
-/
import proofs.«179192_g15607911154264_cont_week2b_145_13_alg».proof.Proof.KiRunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : ¬cond0 i) (hc1 : ¬cond48 i) (hc2 : ¬cond49 i)
    (x2 : Vec F S1x128 .f32) (x3 : Vec F S200x10000 .f32) (s6 : Vec F S10000x128 .f32) (s7 : Vec F S10000x128 .f32) (s8 : Vec F S1x128 .f32) :
    Σ' (L7 : List (View.Piece (Elt F) S10000x128 .f32)), { L8 : List (View.Piece (Elt F) S1x128 .f32) //
      ∀ (E : Set ℕ) (K : PUnit → sProp 𝕄),
        iprop(owns (c : Thread nD τ) arg3 fullShare x2 ∗ owns (c : Thread nD τ) arg4 fullShare x3 ∗ owns (c : Thread nD τ) arg6 fullShare s6 ∗ owns (c : Thread nD τ) arg7 fullShare s7 ∗ owns (c : Thread nD τ) arg8 fullShare s8
            ∗ (iprop(owns (c : Thread nD τ) arg3 fullShare x2 ∗ owns (c : Thread nD τ) arg4 fullShare x3 ∗ owns (c : Thread nD τ) arg6 fullShare s6 ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__decoder_kernel_eq_skeleton]; unfold cc0__decoder_kernel_skel
    unfold owns
    iintro ⟨⟨%f3, %hf3, H3⟩, ⟨%f4, %hf4, H4⟩, ⟨%f6, %hf6, H6⟩, ⟨%f7, %hf7, H7⟩, ⟨%f8, %hf8, H8⟩, Hk⟩
    obtain rfl := harg3.eq_unread hf3; obtain rfl := harg4.eq_unread hf4; obtain rfl := harg6.eq_unread hf6; obtain rfl := harg7.eq_unread hf7; obtain rfl := harg8.eq_unread hf8
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]; · iexact H7
    iexact H8

end Cert.KernelIdeal.Body

end
-- ==== Proof.KiRunC.lean ====
/-
  The body's run at point 48 (block 48 is processed, then the rows below 9800 are flushed against the running maximum): on whole memrefs holding the given contents the body runs to
  its end, leaving what it only reads as it was and each buffer it stores into at its old contents overwritten by
  the stores' pieces (newest first), which the run finds.
-/
import proofs.«179192_g15607911154264_cont_week2b_145_13_alg».proof.Proof.KiRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunC (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : ¬cond0 i) (hc1 : cond48 i) (hc2 : ¬cond49 i)
    (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) :
    Σ' (L7 : List (View.Piece (Elt F) S10000x128 .f32)) (L8 : List (View.Piece (Elt F) S1x128 .f32)) (L9 : List (View.Piece (Elt F) S1x128 .f32)) (L10 : List (View.Piece (Elt F) S1x128 .f32)), { L11 : List (View.Piece (Elt F) S128x128 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg6 fullShare s6 ∗ owns (c : Thread nD τ) arg7 fullShare s7 ∗ owns (c : Thread nD τ) arg8 fullShare s8 ∗ owns (c : Thread nD τ) arg9 fullShare s9 ∗ owns (c : Thread nD τ) arg10 fullShare s10 ∗ owns (c : Thread nD τ) arg11 fullShare s11
            ∗ (iprop(owns (c : Thread nD τ) arg1 fullShare x0 ∗ owns (c : Thread nD τ) arg3 fullShare x2 ∗ owns (c : Thread nD τ) arg4 fullShare x3 ∗ owns (c : Thread nD τ) arg6 fullShare s6 ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8) ∗ (arg9.view.loc (c : Thread nD τ) ↦[arg9.view.set]{fullShare} arg9.view.writes (Elt F) (harg9.unread s9) L9) ∗ (arg10.view.loc (c : Thread nD τ) ↦[arg10.view.set]{fullShare} arg10.view.writes (Elt F) (harg10.unread s10) L10) ∗ (arg11.view.loc (c : Thread nD τ) ↦[arg11.view.set]{fullShare} arg11.view.writes (Elt F) (harg11.unread s11) L11)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__decoder_kernel_eq_skeleton]; unfold cc0__decoder_kernel_skel
    unfold owns
    iintro ⟨⟨%f1, %hf1, H1⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf1; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]; · iexact H7
    isplitl [H8]; · iexact H8
    isplitl [H9]; · iexact H9
    isplitl [H10]; · iexact H10
    iexact H11

end Cert.KernelIdeal.Body

end
-- ==== Proof.KiRunD.lean ====
/-
  The body's run at the last point (the last block is processed, the partial sums rescaled and the result stored): on whole memrefs holding the given contents the body runs to
  its end, leaving what it only reads as it was and each buffer it stores into at its old contents overwritten by
  the stores' pieces (newest first), which the run finds.
-/
import proofs.«179192_g15607911154264_cont_week2b_145_13_alg».proof.Proof.KiRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunD (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole)
    (hc0 : ¬cond0 i) (hc1 : ¬cond48 i) (hc2 : cond49 i)
    (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) :
    Σ' (L5 : List (View.Piece (Elt F) S128x128 .f32)) (L7 : List (View.Piece (Elt F) S10000x128 .f32)), { L8 : List (View.Piece (Elt F) S1x128 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare s6 ∗ owns (c : Thread nD τ) arg7 fullShare s7 ∗ owns (c : Thread nD τ) arg8 fullShare s8 ∗ owns (c : Thread nD τ) arg9 fullShare s9 ∗ owns (c : Thread nD τ) arg10 fullShare s10 ∗ owns (c : Thread nD τ) arg11 fullShare s11
            ∗ (iprop(owns (c : Thread nD τ) arg1 fullShare x0 ∗ owns (c : Thread nD τ) arg3 fullShare x2 ∗ owns (c : Thread nD τ) arg4 fullShare x3 ∗ (arg5.view.loc (c : Thread nD τ) ↦[arg5.view.set]{fullShare} arg5.view.writes (Elt F) (harg5.unread x4) L5) ∗ owns (c : Thread nD τ) arg6 fullShare s6 ∗ (arg7.view.loc (c : Thread nD τ) ↦[arg7.view.set]{fullShare} arg7.view.writes (Elt F) (harg7.unread s7) L7) ∗ (arg8.view.loc (c : Thread nD τ) ↦[arg8.view.set]{fullShare} arg8.view.writes (Elt F) (harg8.unread s8) L8) ∗ owns (c : Thread nD τ) arg9 fullShare s9 ∗ owns (c : Thread nD τ) arg10 fullShare s10 ∗ owns (c : Thread nD τ) arg11 fullShare s11) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__decoder_kernel_eq_skeleton]; unfold cc0__decoder_kernel_skel
    unfold owns
    iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact hc0 | exact hc1 | exact hc2)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]; · iexact H5
    isplitl [H6]
    · iexists _; isplitr; · ipureintro; exact harg6.read_unread _
      iexact H6
    isplitl [H7]; · iexact H7
    isplitl [H8]; · iexact H8
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

end Cert.KernelIdeal.Body

end
-- ==== Proof.KiTerms.lean ====
/-
  The values the body keeps between grid points, as terms over the argument blocks: support = X·W; all gcn rows,
  row r taken from adjacency block r / 200; the running column maximum after each point; and the snapshot, partial
  sum and partial product flushed at point 48, with the result stored at point 49. `Inv n` says what the six scratch
  buffers hold after point n.
-/
import Idealize.ShloMosaic.Lib.Pipeline.Value
import Idealize.ShloMosaic.Lib.Pipeline.FrameBody
import Idealize.ShloMosaic.Lib.ValueIdx
import proofs.«179192_g15607911154264_cont_week2b_145_13_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The rows below 9800 of a 10000-row buffer, and its last 200 rows. -/
abbrev rect9800 : Rect S10000x128 := Rect.unit (s := S10000x128) ![0, 0] S9800x128.size inb_S10000x128_S9800x128_0_0
abbrev rect200 : Rect S10000x128 := Rect.unit (s := S10000x128) ![9800, 0] S200x128.size inb_S10000x128_S200x128_9800_0

open Idealize.ShloMosaic.ValueIdx

/-- The six scratch values: support, gcn rows, running maximum, its snapshot, the partial sum, the partial product. -/
abbrev St (F : FTy → Type) [FloatOps F] : Type :=
  Vec F S10000x128 .f32 × Vec F S10000x128 .f32 × Vec F S1x128 .f32 × Vec F S1x128 .f32 × Vec F S1x128 .f32 × Vec F S128x128 .f32

section Terms

variable (Xv : Vec F S10000x128 .f32) (Wv : Vec F S128x128 .f32) (Bv : Vec F S1x128 .f32) (Ab : ℕ → Vec F S200x10000 .f32)

/-- support = X·W, as the first point stores it. -/
def SUP : Vec F S10000x128 .f32 := k0_pay1 Xv Wv

/-- The running column maximum after point n: from −∞, the maximum with each block's column maxima in turn. -/
def MX : ℕ → Vec F S1x128 .f32
  | 0 => k0_pay5 (Ab 0) (SUP Xv Wv) Bv k0_pay2
  | n + 1 => k0_pay5 (Ab (n + 1)) (SUP Xv Wv) Bv (MX n)

/-- Row r of the whole buffer is row r mod 200 of block r / 200. -/
def rowIn (y : S10000x128.Idx) : S200x128.Idx :=
  ix2 (⟨(y 0).val % 200, Nat.mod_lt _ (by norm_num)⟩ : Fin 200) (⟨(y 1).val, (y 1).isLt⟩ : Fin 128)

/-- All gcn rows: row r comes from adjacency block r / 200. -/
def GALL (y : S10000x128.Idx) : Elt F .f32 := k0_pay4 (Ab ((y 0).val / 200)) (SUP Xv Wv) Bv (rowIn y)

/-- The rows below 9800, and the last 200 rows, of gcn and of X. -/
def G9800 : Vec F S9800x128 .f32 := View.ld (Val := Elt F) (GALL Xv Wv Bv Ab) rect9800
def X9800 : Vec F S9800x128 .f32 := View.ld (Val := Elt F) Xv rect9800
def G200 : Vec F S200x128 .f32 := View.ld (Val := Elt F) (GALL Xv Wv Bv Ab) rect200
def X200 : Vec F S200x128 .f32 := View.ld (Val := Elt F) Xv rect200

/-- The three values flushed at point 48, and the result stored at point 49. -/
def MOLD : Vec F S1x128 .f32 := k0_pay6 (MX Xv Wv Bv Ab 48)
def ZZ : Vec F S1x128 .f32 := k0_pay8 (G9800 Xv Wv Bv Ab) (MX Xv Wv Bv Ab 48)
def ACC : Vec F S128x128 .f32 := k0_pay9 (G9800 Xv Wv Bv Ab) (MX Xv Wv Bv Ab 48) (X9800 Xv)
def OUT : Vec F S128x128 .f32 :=
  k0_pay10 (G200 Xv Wv Bv Ab) (MX Xv Wv Bv Ab 49) (X200 Xv) (MOLD Xv Wv Bv Ab) (ZZ Xv Wv Bv Ab) (ACC Xv Wv Bv Ab)

/-- What the scratch buffers hold after point n. -/
def Inv (n : ℕ) (s : St F) : Prop :=
  s.1 = SUP Xv Wv
  ∧ (∀ y : S10000x128.Idx, (y 0).val < 200 * (n + 1) → s.2.1 y = GALL Xv Wv Bv Ab y)
  ∧ s.2.2.1 = MX Xv Wv Bv Ab n
  ∧ (48 ≤ n → s.2.2.2.1 = MOLD Xv Wv Bv Ab ∧ s.2.2.2.2.1 = ZZ Xv Wv Bv Ab ∧ s.2.2.2.2.2 = ACC Xv Wv Bv Ab)

end Terms

end Cert.KernelIdeal.Body

end
-- ==== Proof.KiSteps.lean ====
/-
  The pieces each kind of point leaves, spelled over the contents the body found: every whole load reads the
  buffer's contents, a load after a whole store reads the stored value, and a load of rows of the gcn buffer
  reads it as the point's own store left it.
-/
import Idealize.ShloMosaic.Lib.Pipeline.Value
import Idealize.ShloMosaic.Lib.WritesUnit
import proofs.«179192_g15607911154264_cont_week2b_145_13_alg».proof.Proof.KiRunD
import proofs.«179192_g15607911154264_cont_week2b_145_13_alg».proof.Proof.KiTerms

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first point -/
theorem A_L6 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : cond0 i) (hc1 : ¬cond48 i) (hc2 : ¬cond49 i) (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) : (kernelRunA c i arg1 harg1 arg2 harg2 arg3 harg3 arg4 harg4 arg5 harg5 arg6 harg6 arg7 harg7 arg8 harg8 arg9 harg9 arg10 harg10 arg11 harg11 hc0 hc1 hc2 x0 x1 x2 x3 s6 s7 s8).1 = [(⟨Rect.unit (s := S10000x128) ![0, 0] S10000x128.size inb_S10000x128_S10000x128_0_0, k0_pay1 x0 x1⟩ : View.Piece (Elt F) S10000x128 .f32)] := by
  unfold kernelRunA; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem A_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : cond0 i) (hc1 : ¬cond48 i) (hc2 : ¬cond49 i) (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) : (kernelRunA c i arg1 harg1 arg2 harg2 arg3 harg3 arg4 harg4 arg5 harg5 arg6 harg6 arg7 harg7 arg8 harg8 arg9 harg9 arg10 harg10 arg11 harg11 hc0 hc1 hc2 x0 x1 x2 x3 s6 s7 s8).2.1 = [(⟨Rect.unit (s := S10000x128) (k0_off1 i) S200x128.size (k0_off1_inb i), k0_pay4 x3 (k0_pay1 x0 x1) x2⟩ : View.Piece (Elt F) S10000x128 .f32)] := by
  unfold kernelRunA; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem A_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : cond0 i) (hc1 : ¬cond48 i) (hc2 : ¬cond49 i) (x0 : Vec F S10000x128 .f32) (x1 : Vec F S128x128 .f32) (x2 : Vec F S1x128 .f32) (x3 : Vec F S200x10000 .f32) (s6 : Vec F S10000x128 .f32) (s7 : Vec F S10000x128 .f32) (s8 : Vec F S1x128 .f32) : (kernelRunA c i arg1 harg1 arg2 harg2 arg3 harg3 arg4 harg4 arg5 harg5 arg6 harg6 arg7 harg7 arg8 harg8 arg9 harg9 arg10 harg10 arg11 harg11 hc0 hc1 hc2 x0 x1 x2 x3 s6 s7 s8).2.2.1 = [(⟨Rect.unit (s := S1x128) ![0, 0] S1x128.size inb_S1x128_S1x128_0_0, k0_pay5 x3 (k0_pay1 x0 x1) x2 k0_pay2⟩ : View.Piece (Elt F) S1x128 .f32), (⟨Rect.unit (s := S1x128) ![0, 0] S1x128.size inb_S1x128_S1x128_0_0, k0_pay2⟩ : View.Piece (Elt F) S1x128 .f32)] := by
  unfold kernelRunA; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

/-! ## A point between the first and point 48 -/
theorem B_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : ¬cond49 i) (x2 : Vec F S1x128 .f32) (x3 : Vec F S200x10000 .f32) (s6 : Vec F S10000x128 .f32) (s7 : Vec F S10000x128 .f32) (s8 : Vec F S1x128 .f32) : (kernelRunB c i arg1 harg1 arg2 harg2 arg3 harg3 arg4 harg4 arg5 harg5 arg6 harg6 arg7 harg7 arg8 harg8 arg9 harg9 arg10 harg10 arg11 harg11 hc0 hc1 hc2 x2 x3 s6 s7 s8).1 = [(⟨Rect.unit (s := S10000x128) (k0_off1 i) S200x128.size (k0_off1_inb i), k0_pay4 x3 s6 x2⟩ : View.Piece (Elt F) S10000x128 .f32)] := by
  unfold kernelRunB; dsimp only
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem B_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : ¬cond49 i) (x2 : Vec F S1x128 .f32) (x3 : Vec F S200x10000 .f32) (s6 : Vec F S10000x128 .f32) (s7 : Vec F S10000x128 .f32) (s8 : Vec F S1x128 .f32) : (kernelRunB c i arg1 harg1 arg2 harg2 arg3 harg3 arg4 harg4 arg5 harg5 arg6 harg6 arg7 harg7 arg8 harg8 arg9 harg9 arg10 harg10 arg11 harg11 hc0 hc1 hc2 x2 x3 s6 s7 s8).2.1 = [(⟨Rect.unit (s := S1x128) ![0, 0] S1x128.size inb_S1x128_S1x128_0_0, k0_pay5 x3 s6 x2 s8⟩ : View.Piece (Elt F) S1x128 .f32)] := by
  unfold kernelRunB; dsimp only
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

/-! ## Point 48 -/
theorem C_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).1 = [(⟨Rect.unit (s := S10000x128) (k0_off1 i) S200x128.size (k0_off1_inb i), k0_pay4 x3 s6 x2⟩ : View.Piece (Elt F) S10000x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.1 = [(⟨Rect.unit (s := S1x128) ![0, 0] S1x128.size inb_S1x128_S1x128_0_0, k0_pay5 x3 s6 x2 s8⟩ : View.Piece (Elt F) S1x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L9 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.2.1 = [(⟨Rect.unit (s := S1x128) ![0, 0] S1x128.size inb_S1x128_S1x128_0_0, k0_pay6 (k0_pay5 x3 s6 x2 s8)⟩ : View.Piece (Elt F) S1x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L10 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.2.2.1 = [(⟨Rect.unit (s := S1x128) ![0, 0] S1x128.size inb_S1x128_S1x128_0_0, k0_pay8 (View.ld (arg7.view.read (Elt F) (arg7.view.writes (Elt F) (harg7.unread s7) [(⟨Rect.unit (s := S10000x128) (k0_off1 i) S200x128.size (k0_off1_inb i), k0_pay4 x3 s6 x2⟩ : View.Piece (Elt F) S10000x128 .f32)])) rect9800) (k0_pay5 x3 s6 x2 s8)⟩ : View.Piece (Elt F) S1x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem C_L11 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : cond48 i) (hc2 : ¬cond49 i) (x0 : Vec F S10000x128 .f32) (x2 : Vec F S1x128 .f32) (x3 : Vec F S200x10000 .f32) (s6 : Vec F S10000x128 .f32) (s7 : Vec F S10000x128 .f32) (s8 : Vec F S1x128 .f32) (s9 : Vec F S1x128 .f32) (s10 : Vec F S1x128 .f32) (s11 : Vec F S128x128 .f32) : (kernelRunC c i arg1 harg1 arg2 harg2 arg3 harg3 arg4 harg4 arg5 harg5 arg6 harg6 arg7 harg7 arg8 harg8 arg9 harg9 arg10 harg10 arg11 harg11 hc0 hc1 hc2 x0 x2 x3 s6 s7 s8 s9 s10 s11).2.2.2.2.1 = [(⟨Rect.unit (s := S128x128) ![0, 0] S128x128.size inb_S128x128_S128x128_0_0, k0_pay9 (View.ld (arg7.view.read (Elt F) (arg7.view.writes (Elt F) (harg7.unread s7) [(⟨Rect.unit (s := S10000x128) (k0_off1 i) S200x128.size (k0_off1_inb i), k0_pay4 x3 s6 x2⟩ : View.Piece (Elt F) S10000x128 .f32)])) rect9800) (k0_pay5 x3 s6 x2 s8) (View.ld x0 rect9800)⟩ : View.Piece (Elt F) S128x128 .f32)] := by
  unfold kernelRunC; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

/-! ## The last point -/
theorem D_L5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : cond49 i) (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) : (kernelRunD c i arg1 harg1 arg2 harg2 arg3 harg3 arg4 harg4 arg5 harg5 arg6 harg6 arg7 harg7 arg8 harg8 arg9 harg9 arg10 harg10 arg11 harg11 hc0 hc1 hc2 x0 x2 x3 x4 s6 s7 s8 s9 s10 s11).1 = [(⟨Rect.unit (s := S128x128) ![0, 0] S128x128.size inb_S128x128_S128x128_0_0, k0_pay10 (View.ld (arg7.view.read (Elt F) (arg7.view.writes (Elt F) (harg7.unread s7) [(⟨Rect.unit (s := S10000x128) (k0_off1 i) S200x128.size (k0_off1_inb i), k0_pay4 x3 s6 x2⟩ : View.Piece (Elt F) S10000x128 .f32)])) rect200) (k0_pay5 x3 s6 x2 s8) (View.ld x0 rect200) s9 s10 s11⟩ : View.Piece (Elt F) S128x128 .f32)] := by
  unfold kernelRunD; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem D_L7 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : cond49 i) (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) : (kernelRunD c i arg1 harg1 arg2 harg2 arg3 harg3 arg4 harg4 arg5 harg5 arg6 harg6 arg7 harg7 arg8 harg8 arg9 harg9 arg10 harg10 arg11 harg11 hc0 hc1 hc2 x0 x2 x3 x4 s6 s7 s8 s9 s10 s11).2.1 = [(⟨Rect.unit (s := S10000x128) (k0_off1 i) S200x128.size (k0_off1_inb i), k0_pay4 x3 s6 x2⟩ : View.Piece (Elt F) S10000x128 .f32)] := by
  unfold kernelRunD; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]
theorem D_L8 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S128x128 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (hc0 : ¬cond0 i) (hc1 : ¬cond48 i) (hc2 : cond49 i) (x0 : Vec F S10000x128 .f32) (x2 : Vec F S1x128 .f32) (x3 : Vec F S200x10000 .f32) (x4 : Vec F S128x128 .f32) (s6 : Vec F S10000x128 .f32) (s7 : Vec F S10000x128 .f32) (s8 : Vec F S1x128 .f32) (s9 : Vec F S1x128 .f32) (s10 : Vec F S1x128 .f32) (s11 : Vec F S128x128 .f32) : (kernelRunD c i arg1 harg1 arg2 harg2 arg3 harg3 arg4 harg4 arg5 harg5 arg6 harg6 arg7 harg7 arg8 harg8 arg9 harg9 arg10 harg10 arg11 harg11 hc0 hc1 hc2 x0 x2 x3 x4 s6 s7 s8 s9 s10 s11).2.2.1 = [(⟨Rect.unit (s := S1x128) ![0, 0] S1x128.size inb_S1x128_S1x128_0_0, k0_pay5 x3 s6 x2 s8⟩ : View.Piece (Elt F) S1x128 .f32)] := by
  unfold kernelRunD; dsimp only; sl_unfold_words
  simp only [View.readAt_eq_ld, harg1.read_unread, harg2.read_unread, harg3.read_unread, harg4.read_unread, harg6.read_unread, harg8.read_unread, harg9.read_unread, harg10.read_unread, harg11.read_unread, View.ld_unit_zero (S := S10000x128) hz, View.ld_unit_zero (S := S128x128) hz, View.ld_unit_zero (S := S1x128) hz, View.ld_unit_zero (S := S200x10000) hz, View.readCov_unit_zero (S := S10000x128) _ hz, View.readCov_unit_zero (S := S1x128) _ hz]

end Cert.KernelIdeal.Body

end
-- ==== Proof.KiInv.lean ====
/-
  What the scratch buffers hold after each grid point, and why. The body keeps six values between points:
  support = X·W; the gcn rows computed so far; the running column maximum; its snapshot at point 48; the column
  sums of exp (gcn − snapshot) over the rows below 9800; and those exponentials' product with X. After point n
  the rows below 200·(n+1) of the gcn buffer are the blocks' values, the running maximum is the fold of the
  block maxima up to n, and from point 48 on the three flushed values are fixed. Each kind of point preserves this.
  Everything here is about which store a load sees; no arithmetic on the values is opened.
-/
import Idealize.ShloMosaic.Lib.Pipeline.Value
import Idealize.ShloMosaic.Lib.WritesUnit
import Idealize.ShloMosaic.Lib.ValueIdx
import proofs.«179192_g15607911154264_cont_week2b_145_13_alg».proof.Proof.KiSteps

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Which store a load sees -/

/-- A whole-buffer store, newest, is what the buffer reads. -/
theorem read_whole {S : Shape} (v : View sig .tc .vmem S .f32) (f : v.ty.Contents (Elt F)) {off : Fin S.rank → ℕ} (h : off = fun _ => 0)
    (inb : ∀ a, off a + S.size a ≤ S.size a) (w : (Rect.unit (s := S) off S.size inb).shape.Idx → Elt F .f32)
    (L : List (View.Piece (Elt F) S .f32)) :
    v.read (Elt F) (v.writes (Elt F) f ((⟨Rect.unit (s := S) off S.size inb, w⟩ : View.Piece (Elt F) S .f32) :: L)) = w := by
  subst h
  exact funext fun y => View.read_writes_cons_unit_of_mem v f inb w L y y rfl (fun a => (Nat.zero_add _).symm)

/-- After the store of block n (rows 200·n … 200·n+199) over a buffer whose rows below 200·n already agree with G,
    every row below 200·(n+1) agrees with G, provided the stored block does. -/
theorem gcn_step (arg7 : Memref sig .tc .vmem S10000x128 .f32) (harg7 : arg7.IsWhole) (s7 : Vec F S10000x128 .f32)
    (off : Fin 2 → ℕ) (inb : ∀ a : Fin 2, off a + S200x128.size a ≤ S10000x128.size a) (w : Vec F S200x128 .f32) (n : ℕ)
    (hoff : off = ![200 * n, 0]) (G : S10000x128.Idx → Elt F .f32)
    (hprev : ∀ y : S10000x128.Idx, (y 0).val < 200 * n → s7 y = G y)
    (hw : ∀ y : S10000x128.Idx, 200 * n ≤ (y 0).val → (y 0).val < 200 * n + 200 → w (rowIn y) = G y)
    (y : S10000x128.Idx) (hy : (y 0).val < 200 * (n + 1)) :
    arg7.view.read (Elt F) (arg7.view.writes (Elt F) (harg7.unread s7)
      [(⟨Rect.unit (s := S10000x128) off S200x128.size inb, w⟩ : View.Piece (Elt F) S10000x128 .f32)]) y = G y := by
  by_cases h : 200 * n ≤ (y 0).val
  · refine (View.read_writes_cons_rows_of_mem arg7.view _ inb w [] y (rowIn y) hoff ?_ rfl).trans (hw y h (by omega))
    show (y 0).val = 200 * n + (y 0).val % 200
    omega
  · refine (View.read_writes_cons_rows_of_not_mem arg7.view _ inb w [] y hoff rfl (Or.inl (by omega))).trans ?_
    show arg7.view.read (Elt F) (harg7.unread s7) y = G y
    rw [harg7.read_unread]
    exact hprev y (by omega)

/-- A load of rows of a buffer that agrees with G on those rows reads G's rows. -/
theorem ld_congr {S : Shape} (X Y : S.Idx → Elt F .f32) (r : Rect S) (h : ∀ x : r.shape.Idx, X (r.idx x) = Y (r.idx x)) :
    View.ld (Val := Elt F) X r = View.ld (Val := Elt F) Y r := funext h

theorem rect9800_row (x : rect9800.shape.Idx) : ((rect9800.idx x) 0).val < 9800 := by
  show 0 + 1 * (x 0).val < 9800
  have : (x 0).val < 9800 := (x 0).isLt
  omega
theorem rect200_row (x : rect200.shape.Idx) : ((rect200.idx x) 0).val < 10000 := ((rect200.idx x) 0).isLt

section Steps

variable (Xv : Vec F S10000x128 .f32) (Wv : Vec F S128x128 .f32) (Bv : Vec F S1x128 .f32) (Ab : ℕ → Vec F S200x10000 .f32)

/-- The stored block n agrees with GALL on its rows. -/
theorem block_agrees (n : ℕ) (y : S10000x128.Idx) (h1 : 200 * n ≤ (y 0).val) (h2 : (y 0).val < 200 * n + 200) :
    k0_pay4 (Ab n) (SUP Xv Wv) Bv (rowIn y) = GALL Xv Wv Bv Ab y := by
  unfold GALL
  rw [show (y 0).val / 200 = n from by omega]

/-- The first point: whatever the scratch held, afterwards the invariant holds at 0. -/
theorem Inv_A (arg6 : Memref sig .tc .vmem S10000x128 .f32) (harg6 : arg6.IsWhole) (arg7 : Memref sig .tc .vmem S10000x128 .f32) (harg7 : arg7.IsWhole) (arg8 : Memref sig .tc .vmem S1x128 .f32) (harg8 : arg8.IsWhole) (x0 : Vec F S10000x128 .f32) (x1 : Vec F S128x128 .f32) (x2 : Vec F S1x128 .f32) (x3 : Vec F S200x10000 .f32)
    (h0 : x0 = Xv) (h1 : x1 = Wv) (h2 : x2 = Bv) (h3 : x3 = Ab 0) (s6 s7 : Vec F S10000x128 .f32) (s8 s9 s10 : Vec F S1x128 .f32) (s11 : Vec F S128x128 .f32)
    (off : Fin 2 → ℕ) (inb7 : ∀ a : Fin 2, off a + S200x128.size a ≤ S10000x128.size a) (hoff : off = ![200 * 0, 0])
    (L6 L7 : List (View.Piece (Elt F) S10000x128 .f32)) (L8 : List (View.Piece (Elt F) S1x128 .f32))
    (hL6 : L6 = [(⟨Rect.unit (s := S10000x128) ![0, 0] S10000x128.size inb_S10000x128_S10000x128_0_0, k0_pay1 x0 x1⟩ : View.Piece (Elt F) S10000x128 .f32)])
    (hL7 : L7 = [(⟨Rect.unit (s := S10000x128) off S200x128.size inb7, k0_pay4 x3 (k0_pay1 x0 x1) x2⟩ : View.Piece (Elt F) S10000x128 .f32)])
    (hL8 : L8 = [(⟨Rect.unit (s := S1x128) ![0, 0] S1x128.size inb_S1x128_S1x128_0_0, k0_pay5 x3 (k0_pay1 x0 x1) x2 k0_pay2⟩ : View.Piece (Elt F) S1x128 .f32), (⟨Rect.unit (s := S1x128) ![0, 0] S1x128.size inb_S1x128_S1x128_0_0, k0_pay2⟩ : View.Piece (Elt F) S1x128 .f32)]) :
    Inv Xv Wv Bv Ab 0
      (arg6.view.read (Elt F) (arg6.view.writes (Elt F) (harg6.unread s6) L6),
       arg7.view.read (Elt F) (arg7.view.writes (Elt F) (harg7.unread s7) L7),
       arg8.view.read (Elt F) (arg8.view.writes (Elt F) (harg8.unread s8) L8), s9, s10, s11) := by
  subst x0 x1 x2 x3
  subst hL6 hL7 hL8
  have e6 : arg6.view.read (Elt F) (arg6.view.writes (Elt F) (harg6.unread s6) [(⟨Rect.unit (s := S10000x128) ![0, 0] S10000x128.size inb_S10000x128_S10000x128_0_0, k0_pay1 Xv Wv⟩ : View.Piece (Elt F) S10000x128 .f32)]) = SUP Xv Wv :=
    read_whole arg6.view _ hz _ _ _
  have e8 : arg8.view.read (Elt F) (arg8.view.writes (Elt F) (harg8.unread s8) [(⟨Rect.unit (s := S1x128) ![0, 0] S1x128.size inb_S1x128_S1x128_0_0, k0_pay5 (Ab 0) (k0_pay1 Xv Wv) Bv k0_pay2⟩ : View.Piece (Elt F) S1x128 .f32), (⟨Rect.unit (s := S1x128) ![0, 0] S1x128.size inb_S1x128_S1x128_0_0, k0_pay2⟩ : View.Piece (Elt F) S1x128 .f32)]) = MX Xv Wv Bv Ab 0 :=
    read_whole arg8.view _ hz _ _ _
  exact ⟨e6, fun y hy => gcn_step arg7 harg7 s7 _ _ _ 0 hoff _ (fun y hy => absurd hy (by omega))
    (fun y a b => block_agrees Xv Wv Bv Ab 0 y a b) y hy, e8, fun h => absurd h (by omega)⟩

/-- A point n strictly between the first and point 48, and likewise the last point (n = 49): from the invariant at
    n − 1 to the invariant at n. -/
theorem Inv_core (arg7 : Memref sig .tc .vmem S10000x128 .f32) (harg7 : arg7.IsWhole) (arg8 : Memref sig .tc .vmem S1x128 .f32) (harg8 : arg8.IsWhole)
    (x2 : Vec F S1x128 .f32) (x3 : Vec F S200x10000 .f32)
    (s : St F) (n : ℕ) (h2 : x2 = Bv) (h3 : x3 = Ab n) (hn : 0 < n) (hne : n ≠ 48) (off : Fin 2 → ℕ) (inb7 : ∀ a : Fin 2, off a + S200x128.size a ≤ S10000x128.size a)
    (hoff : off = ![200 * n, 0]) (L7 : List (View.Piece (Elt F) S10000x128 .f32)) (L8 : List (View.Piece (Elt F) S1x128 .f32))
    (hL7 : L7 = [(⟨Rect.unit (s := S10000x128) off S200x128.size inb7, k0_pay4 x3 s.1 x2⟩ : View.Piece (Elt F) S10000x128 .f32)])
    (hL8 : L8 = [(⟨Rect.unit (s := S1x128) ![0, 0] S1x128.size inb_S1x128_S1x128_0_0, k0_pay5 x3 s.1 x2 s.2.2.1⟩ : View.Piece (Elt F) S1x128 .f32)])
    (h : Inv Xv Wv Bv Ab (n - 1) s) :
    Inv Xv Wv Bv Ab n
      (s.1, arg7.view.read (Elt F) (arg7.view.writes (Elt F) (harg7.unread s.2.1) L7),
       arg8.view.read (Elt F) (arg8.view.writes (Elt F) (harg8.unread s.2.2.1) L8), s.2.2.2.1, s.2.2.2.2.1, s.2.2.2.2.2) := by
  subst x2 x3
  subst hL7 hL8
  obtain ⟨hs, hg, hm, hl⟩ := h
  refine ⟨hs, fun y hy => ?_, ?_, fun h48 => hl (by omega)⟩
  · rw [hs]
    exact gcn_step arg7 harg7 s.2.1 _ _ _ n hoff _ (fun y hy => hg y (by rw [Nat.sub_add_cancel hn]; exact hy))
      (fun y a b => block_agrees Xv Wv Bv Ab n y a b) y hy
  · refine (read_whole arg8.view _ hz _ _ _).trans ?_
    rw [hs, hm]
    obtain ⟨k, rfl⟩ : ∃ k, n = k + 1 := ⟨n - 1, by omega⟩
    rfl

/-- Point 48: block 48 is stored, then the snapshot, the partial sum and the partial product are flushed from the rows
    below 9800, all of which are in place. -/
theorem Inv_C (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (x0 : Vec F S10000x128 .f32) (x2 : Vec F S1x128 .f32) (x3 : Vec F S200x10000 .f32)
    (h0 : x0 = Xv) (h2 : x2 = Bv) (h3 : x3 = Ab 48) (s : St F)
    (off : Fin 2 → ℕ) (inb7 : ∀ a : Fin 2, off a + S200x128.size a ≤ S10000x128.size a) (hoff : off = ![200 * 48, 0])
    (L7 : List (View.Piece (Elt F) S10000x128 .f32)) (L8 L9 L10 : List (View.Piece (Elt F) S1x128 .f32)) (L11 : List (View.Piece (Elt F) S128x128 .f32))
    (hL7 : L7 = [(⟨Rect.unit (s := S10000x128) off S200x128.size inb7, k0_pay4 x3 s.1 x2⟩ : View.Piece (Elt F) S10000x128 .f32)])
    (hL8 : L8 = [(⟨Rect.unit (s := S1x128) ![0, 0] S1x128.size inb_S1x128_S1x128_0_0, k0_pay5 x3 s.1 x2 s.2.2.1⟩ : View.Piece (Elt F) S1x128 .f32)])
    (hL9 : L9 = [(⟨Rect.unit (s := S1x128) ![0, 0] S1x128.size inb_S1x128_S1x128_0_0, k0_pay6 (k0_pay5 x3 s.1 x2 s.2.2.1)⟩ : View.Piece (Elt F) S1x128 .f32)])
    (hL10 : L10 = [(⟨Rect.unit (s := S1x128) ![0, 0] S1x128.size inb_S1x128_S1x128_0_0, k0_pay8 (View.ld (arg7.view.read (Elt F) (arg7.view.writes (Elt F) (harg7.unread s.2.1) [(⟨Rect.unit (s := S10000x128) off S200x128.size inb7, k0_pay4 x3 s.1 x2⟩ : View.Piece (Elt F) S10000x128 .f32)])) rect9800) (k0_pay5 x3 s.1 x2 s.2.2.1)⟩ : View.Piece (Elt F) S1x128 .f32)])
    (hL11 : L11 = [(⟨Rect.unit (s := S128x128) ![0, 0] S128x128.size inb_S128x128_S128x128_0_0, k0_pay9 (View.ld (arg7.view.read (Elt F) (arg7.view.writes (Elt F) (harg7.unread s.2.1) [(⟨Rect.unit (s := S10000x128) off S200x128.size inb7, k0_pay4 x3 s.1 x2⟩ : View.Piece (Elt F) S10000x128 .f32)])) rect9800) (k0_pay5 x3 s.1 x2 s.2.2.1) (View.ld x0 rect9800)⟩ : View.Piece (Elt F) S128x128 .f32)])
    (h : Inv Xv Wv Bv Ab 47 s) :
    Inv Xv Wv Bv Ab 48
      (s.1, arg7.view.read (Elt F) (arg7.view.writes (Elt F) (harg7.unread s.2.1) L7),
       arg8.view.read (Elt F) (arg8.view.writes (Elt F) (harg8.unread s.2.2.1) L8),
       arg9.view.read (Elt F) (arg9.view.writes (Elt F) (harg9.unread s.2.2.2.1) L9),
       arg10.view.read (Elt F) (arg10.view.writes (Elt F) (harg10.unread s.2.2.2.2.1) L10),
       arg11.view.read (Elt F) (arg11.view.writes (Elt F) (harg11.unread s.2.2.2.2.2) L11)) := by
  subst x0 x2 x3
  subst hL7 hL8 hL9 hL10 hL11
  obtain ⟨hs, hg, hm, -⟩ := h
  have hgcn : ∀ y : S10000x128.Idx, (y 0).val < 200 * (48 + 1) →
      arg7.view.read (Elt F) (arg7.view.writes (Elt F) (harg7.unread s.2.1) [(⟨Rect.unit (s := S10000x128) off S200x128.size inb7, k0_pay4 (Ab 48) s.1 Bv⟩ : View.Piece (Elt F) S10000x128 .f32)]) y
        = GALL Xv Wv Bv Ab y := by
    intro y hy
    rw [hs]
    exact gcn_step arg7 harg7 s.2.1 _ _ _ 48 hoff _ (fun y hy => hg y hy) (fun y a b => block_agrees Xv Wv Bv Ab 48 y a b) y hy
  have hld : View.ld (Val := Elt F) (arg7.view.read (Elt F) (arg7.view.writes (Elt F) (harg7.unread s.2.1) [(⟨Rect.unit (s := S10000x128) off S200x128.size inb7, k0_pay4 (Ab 48) s.1 Bv⟩ : View.Piece (Elt F) S10000x128 .f32)])) rect9800
      = G9800 Xv Wv Bv Ab :=
    ld_congr _ _ _ fun x => hgcn _ (by have := rect9800_row x; omega)
  have hmx : k0_pay5 (Ab 48) s.1 Bv s.2.2.1 = MX Xv Wv Bv Ab 48 := by rw [hs, hm]; rfl
  refine ⟨hs, hgcn, (read_whole arg8.view _ hz _ _ _).trans hmx, fun _ => ⟨?_, ?_, ?_⟩⟩
  · refine (read_whole arg9.view _ hz _ _ _).trans ?_
    rw [hmx]; rfl
  · refine (read_whole arg10.view _ hz _ _ _).trans ?_
    rw [hld, hmx]; rfl
  · refine (read_whole arg11.view _ hz _ _ _).trans ?_
    rw [hld, hmx]; rfl

/-- The last point: block 49 is stored and the result is the rescaled quotient of the flushed values and the last rows. -/
theorem Out_D (arg5 : Memref sig .tc .vmem S128x128 .f32) (harg5 : arg5.IsWhole) (arg7 : Memref sig .tc .vmem S10000x128 .f32) (harg7 : arg7.IsWhole) (arg8 : Memref sig .tc .vmem S1x128 .f32) (harg8 : arg8.IsWhole) (x0 : Vec F S10000x128 .f32) (x2 : Vec F S1x128 .f32) (x3 : Vec F S200x10000 .f32)
    (h0 : x0 = Xv) (h2 : x2 = Bv) (h3 : x3 = Ab 49) (s : St F) (x4 : Vec F S128x128 .f32)
    (off : Fin 2 → ℕ) (inb7 : ∀ a : Fin 2, off a + S200x128.size a ≤ S10000x128.size a) (hoff : off = ![200 * 49, 0])
    (L5 : List (View.Piece (Elt F) S128x128 .f32)) (L7 : List (View.Piece (Elt F) S10000x128 .f32)) (L8 : List (View.Piece (Elt F) S1x128 .f32))
    (hL5 : L5 = [(⟨Rect.unit (s := S128x128) ![0, 0] S128x128.size inb_S128x128_S128x128_0_0, k0_pay10 (View.ld (arg7.view.read (Elt F) (arg7.view.writes (Elt F) (harg7.unread s.2.1) [(⟨Rect.unit (s := S10000x128) off S200x128.size inb7, k0_pay4 x3 s.1 x2⟩ : View.Piece (Elt F) S10000x128 .f32)])) rect200) (k0_pay5 x3 s.1 x2 s.2.2.1) (View.ld x0 rect200) s.2.2.2.1 s.2.2.2.2.1 s.2.2.2.2.2⟩ : View.Piece (Elt F) S128x128 .f32)])
    (hL7 : L7 = [(⟨Rect.unit (s := S10000x128) off S200x128.size inb7, k0_pay4 x3 s.1 x2⟩ : View.Piece (Elt F) S10000x128 .f32)])
    (hL8 : L8 = [(⟨Rect.unit (s := S1x128) ![0, 0] S1x128.size inb_S1x128_S1x128_0_0, k0_pay5 x3 s.1 x2 s.2.2.1⟩ : View.Piece (Elt F) S1x128 .f32)])
    (h : Inv Xv Wv Bv Ab 48 s) :
    arg5.view.read (Elt F) (arg5.view.writes (Elt F) (harg5.unread x4) L5) = OUT Xv Wv Bv Ab
    ∧ Inv Xv Wv Bv Ab 49
      (s.1, arg7.view.read (Elt F) (arg7.view.writes (Elt F) (harg7.unread s.2.1) L7),
       arg8.view.read (Elt F) (arg8.view.writes (Elt F) (harg8.unread s.2.2.1) L8), s.2.2.2.1, s.2.2.2.2.1, s.2.2.2.2.2) := by
  have hI := Inv_core Xv Wv Bv Ab arg7 harg7 arg8 harg8 x2 x3 s 49 h2 h3 (by omega) (by omega) off inb7 hoff L7 L8 hL7 hL8 h
  subst x0 x2 x3
  subst hL5 hL7 hL8
  refine ⟨(read_whole arg5.view _ hz _ _ _).trans ?_, hI⟩
  obtain ⟨hs, hg, hm, hl⟩ := h
  obtain ⟨h9, h10, h11⟩ := hl le_rfl
  have hld : View.ld (Val := Elt F) (arg7.view.read (Elt F) (arg7.view.writes (Elt F) (harg7.unread s.2.1) [(⟨Rect.unit (s := S10000x128) off S200x128.size inb7, k0_pay4 (Ab 49) s.1 Bv⟩ : View.Piece (Elt F) S10000x128 .f32)])) rect200
      = G200 Xv Wv Bv Ab :=
    ld_congr _ _ _ fun x => hI.2.1 _ (by have := rect200_row x; omega)
  have hmx : k0_pay5 (Ab 49) s.1 Bv s.2.2.1 = MX Xv Wv Bv Ab 49 := by rw [hs, hm]; rfl
  rw [hld, hmx, h9, h10, h11]; rfl

end Steps

end Cert.KernelIdeal.Body

end
-- ==== Proof.Blocks.lean ====
/-
  The kernel's input blocks read entry by entry. The pipeline hands the kernel, at grid point t of 50: the whole
  10000 × 128 feature array, the whole 128 × 128 weight array, the bias as one 1 × 128 row (the host reshapes the
  128-vector to that row before the kernel starts), and rows 200·t … 200·t + 199 of the 10000 × 10000 adjacency array.
  The result window's one block is the whole 128 × 128 result array.
-/
import proofs.«179192_g15607911154264_cont_week2b_145_13_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Rounds
open Idealize.ShloMosaic.Pipeline (Dat)

variable {F : FTy → Type} [FloatOps F]
variable (m : (ℓ : Loc nD τ sig) → Buf (Elt F) ℓ) (c : Dev nD) (t : Fin cfg0.N)

/-- The block index of each input window at each grid point: the first three windows stay at block (0, 0); the
    adjacency window is at block (t, 0). -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 50 points. -/
theorem t_lt (t : Fin cfg0.N) : t.val < 50 := t.isLt

/-- The feature window's block is the whole feature array, at every grid point. -/
theorem iblk0_apply (n : Fin 10000) (j : Fin 128) :
    (iblk m c 0 t : Vec F S10000x128 .f32) (ix2 n j) = m ((c : Thread nD τ).loc main_arg0) (ix2 n j) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t 0 * 10000 + 1 * n.val = n.val; rw [e0]; omega
  | ⟨1, _⟩ => show win0_0.index t 1 * 128 + 1 * j.val = j.val; rw [e1]; omega

/-- The weight window's block is the whole weight array, at every grid point. -/
theorem iblk1_apply (i j : Fin 128) :
    (iblk m c 1 t : Vec F S128x128 .f32) (ix2 i j) = m ((c : Thread nD τ).loc main_arg2) (ix2 i j) := by
  obtain ⟨-, -, e0, e1, -⟩ := index_facts t
  unfold iblk
  rw [View.read_apply]
  show V m c main_arg2 _ = _
  rw [V_main_arg2]
  congr 1
  funext a
  apply Fin.ext
  match a with
  | ⟨0, _⟩ => show win0_1.index t 0 * 128 + 1 * i.val = i.val; rw [e0]; omega
  | ⟨1, _⟩ => show win0_1.index t 1 * 128 + 1 * j.val = j.val; rw [e1]; omega

/-- The adjacency window's block at point t is rows 200·t … 200·t + 199 of the adjacency array, all columns. -/
theorem iblk3_apply (r : Fin 200) (k : Fin 10000) :
    (iblk m c 3 t : Vec F S200x10000 .f32) (ix2 r k)
      = m ((c : Thread nD τ).loc main_arg1)
          (ix2 (⟨200 * t.val + r.val, by have := t_lt t; have := r.isLt; omega⟩ : Fin 10000) k) := by
  obtain ⟨-, -, -, -, -, -, e0, e1⟩ := index_facts t
  unfold iblk
  rw [View.read_apply]
  show V m c main_arg1 _ = _
  rw [V_main_arg1]
  congr 1
  funext a
  apply Fin.ext
  match a with
  | ⟨0, _⟩ => show win0_3.index t 0 * 200 + 1 * r.val = 200 * t.val + r.val; rw [e0]; omega
  | ⟨1, _⟩ => show win0_3.index t 1 * 10000 + 1 * k.val = k.val; rw [e1]; omega

/-- The bias row as the kernel finds it: the host's reshape of the 128-vector to one 1 × 128 row. -/
theorem V_main_v0 (h : S128.ShapeCasts S1x128) :
    (V m c main_v0 : S1x128.Idx → Elt F .f32) = shapeCast S1x128 (m ((c : Thread nD τ).loc main_arg3)) h := by
  dsimp only [V, hostOps0]
  after_results
  rfl

/-- The bias window's block is that row, whose entry (0, j) is entry j of the bias vector. -/
theorem iblk2_apply (j : Fin 128) :
    (iblk m c 2 t : Vec F S1x128 .f32) (ix2 (0 : Fin 1) j) = m ((c : Thread nD τ).loc main_arg3) (ix1 j) := by
  obtain ⟨-, -, -, -, e0, e1, -⟩ := index_facts t
  unfold iblk
  rw [View.read_apply]
  show (V m c main_v0 : S1x128.Idx → Elt F .f32) (((cfg0.win 2).blk t).view.emb (ix2 (0 : Fin 1) j)) = _
  rw [V_main_v0 m c shapeCasts_S128_S1x128]
  refine shapeCast_apply _ shapeCasts_S128_S1x128 _ (ix1 j) ?_
  rw [Shape.rowMajor_val_one, Shape.rowMajor_val_two]
  show j.val = (win0_2.index t 0 * 1 + 1 * 0) * 128 + (win0_2.index t 1 * 128 + 1 * j.val)
  rw [e0, e1]
  omega

/-- The feature window's block does not depend on the grid point. -/
theorem iblk0_const (t' : Fin cfg0.N) : (iblk m c 0 t : Vec F S10000x128 .f32) = iblk m c 0 t' := by
  funext i
  obtain ⟨a, b, rfl⟩ : ∃ a b, i = ix2 a b := ⟨i 0, i 1, eq_ix2 i⟩
  rw [iblk0_apply, iblk0_apply]

/-- The weight window's block does not depend on the grid point. -/
theorem iblk1_const (t' : Fin cfg0.N) : (iblk m c 1 t : Vec F S128x128 .f32) = iblk m c 1 t' := by
  funext i
  obtain ⟨a, b, rfl⟩ : ∃ a b, i = ix2 a b := ⟨i 0, i 1, eq_ix2 i⟩
  rw [iblk1_apply, iblk1_apply]

/-- The bias window's block does not depend on the grid point. -/
theorem iblk2_const (t' : Fin cfg0.N) : (iblk m c 2 t : Vec F S1x128 .f32) = iblk m c 2 t' := by
  funext i
  obtain ⟨a, b, rfl⟩ : ∃ a b, i = ix2 a b := ⟨i 0, i 1, eq_ix2 i⟩
  obtain rfl : a = 0 := Subsingleton.elim _ _
  rw [iblk2_apply, iblk2_apply]

/-! ## The result window -/

/-- The result window stays at block (0, 0). -/
theorem index4_facts : ∀ t : Fin cfg0.N, win0_4.index t (0 : Fin 2) = 0 ∧ win0_4.index t (1 : Fin 2) = 0 :=
  (by decide +kernel : ∀ t : Fin grid0.N, _)

/-- The result window's block at any grid point, read off contents of the result array, is those contents: block
    (0, 0) of the 128 × 128 array at block size 128 × 128 is the array. -/
theorem oblk4_read (G : Buf (Elt F) ((c : Thread nD τ).loc main_v1)) :
    (((cfg0.win 4).blk t).view.read (Elt F) G : Vec F S128x128 .f32) = G := by
  obtain ⟨e0, e1⟩ := index4_facts t
  have hz' : (fun a => win0_4.index t a * main_v1.ty.shape.size a) = fun _ => 0 := funext fun a => by
    match a with
    | ⟨0, _⟩ => show win0_4.index t 0 * 128 = 0; rw [e0]
    | ⟨1, _⟩ => show win0_4.index t 1 * 128 = 0; rw [e1]
  exact Memref.read_access_unit_zero (Elt F) main_v1 hz' (fun a => by rw [congrFun hz' a]; simp) G

/-- Every index of the result array is in the result window's block, at any grid point. -/
theorem mem_blk4 (i : S128x128.Idx) : i ∈ ((cfg0.win 4).blk t).view.set := by
  obtain ⟨e0, e1⟩ := index4_facts t
  show i ∈ ((View.whole main_v1).slice (win0_4.rect t)).set
  rw [View.set_slice_whole, Rect.mem_set_unit]
  intro a
  have h0 : (i 0 : Nat) < 128 := (i 0).isLt
  have h1 : (i 1 : Nat) < 128 := (i 1).isLt
  match a with
  | ⟨0, _⟩ =>
    show win0_4.index t 0 * 128 ≤ (i 0 : Nat) ∧ (i 0 : Nat) < win0_4.index t 0 * 128 + 128
    rw [e0]; omega
  | ⟨1, _⟩ =>
    show win0_4.index t 1 * 128 ≤ (i 1 : Nat) ∧ (i 1 : Nat) < win0_4.index t 1 * 128 + 128
    rw [e1]; omega

/-- The last grid point, the one that writes the result back. -/
def tLast : Fin cfg0.N := ⟨49, by rw [show cfg0.N = 50 from N_0]; decide⟩

/-- Only the last grid point writes the result back. -/
theorem eq_tLast_of_flush (hf : (cfg0.win 4).flush t = true) : t = tLast :=
  Fin.ext (by have := (flush0_4 t).mp hf; have := t_lt t; show t.val = 49; omega)

/-- If what the last grid point writes back is `G`, the result array ends holding `G`: that point's block covers
    the array and no other point writes. -/
theorem arrAt4_eq (dat : Dat τ (Elt F) Unit ℕ (UR sig nD τ) ℕ cfg0 c) (G : Buf (Elt F) ((c : Thread nD τ).loc main_v1))
    (hG : (dat.flushed 4 tLast : Vec F S128x128 .f32) = G) : dat.arrAt 4 cfg0.N = G :=
  dat.arrAt_eq_of_cover 4 G
    (fun t hf => by
      obtain rfl : t = tLast := eq_tLast_of_flush t hf
      exact hG.trans (oblk4_read c tLast G).symm)
    (fun i => ⟨tLast, (flush0_4 tLast).mpr rfl, mem_blk4 tLast i⟩)

end Cert.KernelIdeal.Blocks

end
-- ==== Proof.KiBody.lean ====
/-
  The frame of the program: the proof data (each input window holds its block at every point; the output window
  holds the result after the last point; between points the six scratch buffers hold what the invariant says),
  the body's triple at every grid point by the four kinds of point, and the run to the end.
-/
import Idealize.ShloMosaic.Lib.Pipeline.Value
import proofs.«179192_g15607911154264_cont_week2b_145_13_alg».proof.Proof.KiInv
import proofs.«179192_g15607911154264_cont_week2b_145_13_alg».proof.Proof.Blocks

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Blocks

variable (m : (ℓ : Loc nD τ sig) → Buf (Elt F) ℓ) (ρ : Dev nD → PrngReg)

theorem N50 : cfg0.N = 50 := N_0
/-- The first grid point. -/
def t0 : Fin cfg0.N := ⟨0, by rw [N50]; decide⟩

/-- The argument blocks the body sees: X, W and the bias row are the same block at every point; adjacency block n. -/
def Xb (c : Dev nD) : Vec F S10000x128 .f32 := iblk m c 0 t0
def Wb (c : Dev nD) : Vec F S128x128 .f32 := iblk m c 1 t0
def Bb (c : Dev nD) : Vec F S1x128 .f32 := iblk m c 2 t0
def Abk (c : Dev nD) (n : ℕ) : Vec F S200x10000 .f32 := if h : n < cfg0.N then iblk m c 3 ⟨n, h⟩ else iblk m c 3 t0

theorem Xb_eq (c : Dev nD) (t : Fin cfg0.N) : (iblk m c 0 t : Vec F S10000x128 .f32) = Xb m c := iblk0_const m c t t0
theorem Wb_eq (c : Dev nD) (t : Fin cfg0.N) : (iblk m c 1 t : Vec F S128x128 .f32) = Wb m c := iblk1_const m c t t0
theorem Bb_eq (c : Dev nD) (t : Fin cfg0.N) : (iblk m c 2 t : Vec F S1x128 .f32) = Bb m c := iblk2_const m c t t0
theorem Abk_eq (c : Dev nD) (t : Fin cfg0.N) : (iblk m c 3 t : Vec F S200x10000 .f32) = Abk m c t.val := by
  unfold Abk; rw [dif_pos t.isLt]

/-- Block t of the gcn buffer starts at row 200·t. -/
theorem hoff_facts : ∀ t : Fin cfg0.N, k0_off1 (grid0.coords t) 0 = 200 * t.val ∧ k0_off1 (grid0.coords t) 1 = 0 :=
  (by decide +kernel : ∀ t : Fin grid0.N, k0_off1 (grid0.coords t) 0 = 200 * t.val ∧ k0_off1 (grid0.coords t) 1 = 0)
theorem hoff (t : Fin cfg0.N) : k0_off1 (grid0.coords t) = ![200 * t.val, 0] := funext fun a => by
  match a with
  | ⟨0, _⟩ => exact (hoff_facts t).1
  | ⟨1, _⟩ => exact (hoff_facts t).2

/-- The region invariant before point n: before the first point every scratch buffer holds anything; afterwards
    the six buffers hold values satisfying the invariant after point n − 1. -/
def PhiS (c : Dev nD) : ℕ → sProp 𝕄
  | 0 => Pipeline.ΦA spec0 c
  | n + 1 => iprop(∃ s6 : Vec F S10000x128 .f32, ∃ s7 : Vec F S10000x128 .f32, ∃ s8 : Vec F S1x128 .f32, ∃ s9 : Vec F S1x128 .f32,
      ∃ s10 : Vec F S1x128 .f32, ∃ s11 : Vec F S128x128 .f32,
      ⌜Inv (Xb m c) (Wb m c) (Bb m c) (Abk m c) n (s6, s7, s8, s9, s10, s11)⌝ ∗ (owns (c : Thread nD τ) sc6 fullShare s6 ∗ owns (c : Thread nD τ) sc7 fullShare s7 ∗ owns (c : Thread nD τ) sc8 fullShare s8 ∗ owns (c : Thread nD τ) sc9 fullShare s9 ∗ owns (c : Thread nD τ) sc10 fullShare s10 ∗ owns (c : Thread nD τ) sc11 fullShare s11) ∗ (∃ r, prngReg c r))

theorem PhiS_succ (c : Dev nD) (n : ℕ) : PhiS m c (n + 1) = iprop(∃ s6 : Vec F S10000x128 .f32, ∃ s7 : Vec F S10000x128 .f32, ∃ s8 : Vec F S1x128 .f32, ∃ s9 : Vec F S1x128 .f32,
      ∃ s10 : Vec F S1x128 .f32, ∃ s11 : Vec F S128x128 .f32,
      ⌜Inv (Xb m c) (Wb m c) (Bb m c) (Abk m c) n (s6, s7, s8, s9, s10, s11)⌝ ∗ (owns (c : Thread nD τ) sc6 fullShare s6 ∗ owns (c : Thread nD τ) sc7 fullShare s7 ∗ owns (c : Thread nD τ) sc8 fullShare s8 ∗ owns (c : Thread nD τ) sc9 fullShare s9 ∗ owns (c : Thread nD τ) sc10 fullShare s10 ∗ owns (c : Thread nD τ) sc11 fullShare s11) ∗ (∃ r, prngReg c r)) := rfl

theorem PhiS_pos (c : Dev nD) (n : ℕ) (hz : n ≠ 0) : PhiS m c n = iprop(∃ s6 : Vec F S10000x128 .f32, ∃ s7 : Vec F S10000x128 .f32, ∃ s8 : Vec F S1x128 .f32, ∃ s9 : Vec F S1x128 .f32,
      ∃ s10 : Vec F S1x128 .f32, ∃ s11 : Vec F S128x128 .f32,
      ⌜Inv (Xb m c) (Wb m c) (Bb m c) (Abk m c) (n - 1) (s6, s7, s8, s9, s10, s11)⌝ ∗ (owns (c : Thread nD τ) sc6 fullShare s6 ∗ owns (c : Thread nD τ) sc7 fullShare s7 ∗ owns (c : Thread nD τ) sc8 fullShare s8 ∗ owns (c : Thread nD τ) sc9 fullShare s9 ∗ owns (c : Thread nD τ) sc10 fullShare s10 ∗ owns (c : Thread nD τ) sc11 fullShare s11) ∗ (∃ r, prngReg c r)) := by
  cases n with
  | zero => exact absurd rfl hz
  | succ n => rfl

/-- The proof data: the arrays as the region finds them; after the body each input window at its block, the output
    window at the result; between points the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OUT (Xb m c) (Wb m c) (Bb m c) (Abk m c)
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = OUT (Xb m c) (Wb m c) (Bb m c) (Abk m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point, by the kind of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  have hN : t.val < 50 := lt_of_lt_of_eq t.isLt N50
  have hx0 : (iblk m c 0 t : Vec F S10000x128 .f32) = Xb m c := Xb_eq m c t
  have hx1 : (iblk m c 1 t : Vec F S128x128 .f32) = Wb m c := Wb_eq m c t
  have hx2 : (iblk m c 2 t : Vec F S1x128 .f32) = Bb m c := Bb_eq m c t
  have hx3 : (iblk m c 3 t : Vec F S200x10000 .f32) = Abk m c t.val := Abk_eq m c t
  by_cases h49 : t.val = 49
  · -- the last point
    have hc0 : ¬cond0 (grid0.coords t) := fun h => by have := (hcond0 t).mp h; omega
    have hc1 : ¬cond48 (grid0.coords t) := fun h => by have := (hcond48 t).mp h; omega
    have hc2 : cond49 (grid0.coords t) := (hcond49 t).mpr h49
    rw [show (dats m 0 c).leavesExact 0 t = owns (c : Thread nD τ) (ms0 t) fullShare ((dats m 0 c).after 0 t) from by
      unfold Dat.leavesExact; rw [liveAt0 t], after0]
    rw [show (dats m 0 c).leavesExact 1 t = owns (c : Thread nD τ) (ms1 t) fullShare ((dats m 0 c).after 1 t) from by
      unfold Dat.leavesExact; rw [liveAt1 t], after1]
    rw [show (dats m 0 c).leavesExact 2 t = owns (c : Thread nD τ) (ms2 t) fullShare ((dats m 0 c).after 2 t) from by
      unfold Dat.leavesExact; rw [liveAt2 t], after2]
    rw [show (dats m 0 c).leavesExact 3 t = owns (c : Thread nD τ) (ms3 t) fullShare ((dats m 0 c).after 3 t) from by
      unfold Dat.leavesExact; rw [liveAt3 t], after3]
    rw [show (dats m 0 c).leavesExact 4 t = owns (c : Thread nD τ) (ms4 t) fullShare ((dats m 0 c).after 4 t) from by
      unfold Dat.leavesExact; rw [liveAt4 t hc2], after4]
    rw [PhiS_pos m c t.val (by omega)]
    iintro ⟨⟨%s6, %s7, %s8, %s9, %s10, %s11, %hI, ⟨H6, H7, H8, H9, H10, H11⟩, Hg⟩, Ho, ⟨%d0, H0⟩, ⟨%d1, H1⟩, ⟨%d2, H2⟩, ⟨%d3, H3⟩, ⟨%d4, H4⟩⟩
    have hI' : Inv (Xb m c) (Wb m c) (Bb m c) (Abk m c) 48 (s6, s7, s8, s9, s10, s11) := by rw [show (48 : ℕ) = t.val - 1 from by omega]; exact hI
    have hOD := Out_D (Xb m c) (Wb m c) (Bb m c) (Abk m c) (ms4 t) (hs4 t) sc7 hsc7 sc8 hsc8 (iblk m c 0 t) (iblk m c 2 t) (iblk m c 3 t)
      hx0 hx2 (by rw [hx3, h49]) (s6, s7, s8, s9, s10, s11) ((dats m 0 c).before 4 t d4) _ (k0_off1_inb (grid0.coords t)) (by rw [hoff t, h49]) _ _ _
      (D_L5 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) ((dats m 0 c).before 4 t d4) s6 s7 s8 s9 s10 s11)
      (D_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) ((dats m 0 c).before 4 t d4) s6 s7 s8 s9 s10 s11)
      (D_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) ((dats m 0 c).before 4 t d4) s6 s7 s8 s9 s10 s11) hI'
    iapply ((kernelRunD c (grid0.coords t) _ _ _ _ _ _ _ _ _ _ _ _ _ _ _ _ _ _ _ _ _ _ hc0 hc1 hc2 (iblk m c 0 t) (iblk m c 2 t) (iblk m c 3 t) ((dats m 0 c).before 4 t d4) s6 s7 s8 s9 s10 s11).2.2.2 Set.univ _)
    isplitl [H0]; · iexact H0
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iintro ⟨H0, H2, H3, H4, H6, H7, H8, H9, H10, H11⟩
    isplitl [H6 H7 H8 H9 H10 H11 Hg]
    · iexists s6; iexists _; iexists _; iexists s9; iexists s10; iexists s11
      isplitr
      · ipureintro; rw [show t.val = 49 from h49]; exact hOD.2
      isplitl [H6 H7 H8 H9 H10 H11]
      · isplitl [H6]; · iexact H6
        isplitl [H7]
        · unfold owns; iexists _; isplitr; swap; iexact H7; ipureintro; rfl
        isplitl [H8]
        · unfold owns; iexists _; isplitr; swap; iexact H8; ipureintro; rfl
        isplitl [H9]; · iexact H9
        isplitl [H10]; · iexact H10
        iexact H11
      iexact Hg
    isplitl [Ho]; · iexact Ho
    isplitl [H0]; · iexact H0
    isplitl [H1]; · iexact H1
    isplitl [H2]; · iexact H2
    isplitl [H3]; · iexact H3
    rw [← hOD.1]
    unfold owns; iexists _; isplitr; swap; iexact H4; ipureintro; rfl
  · have hc2 : ¬cond49 (grid0.coords t) := fun h => h49 ((hcond49 t).mp h)
    rw [show (dats m 0 c).leavesExact 0 t = owns (c : Thread nD τ) (ms0 t) fullShare ((dats m 0 c).after 0 t) from by
      unfold Dat.leavesExact; rw [liveAt0 t], after0]
    rw [show (dats m 0 c).leavesExact 1 t = owns (c : Thread nD τ) (ms1 t) fullShare ((dats m 0 c).after 1 t) from by
      unfold Dat.leavesExact; rw [liveAt1 t], after1]
    rw [show (dats m 0 c).leavesExact 2 t = owns (c : Thread nD τ) (ms2 t) fullShare ((dats m 0 c).after 2 t) from by
      unfold Dat.leavesExact; rw [liveAt2 t], after2]
    rw [show (dats m 0 c).leavesExact 3 t = owns (c : Thread nD τ) (ms3 t) fullShare ((dats m 0 c).after 3 t) from by
      unfold Dat.leavesExact; rw [liveAt3 t], after3]
    rw [Dat.leavesExact_idle (dats m 0 c) 4 t (idleAt4 t hc2) (noFlush4 t hc2)]
    by_cases h0 : t.val = 0
    · -- the first point
      have hc0 : cond0 (grid0.coords t) := (hcond0 t).mpr h0
      have hc1 : ¬cond48 (grid0.coords t) := fun h => by have := (hcond48 t).mp h; omega
      rw [show PhiS m c t.val = PhiS m c 0 from by rw [h0]]
      rw [show PhiS m c 0 = Pipeline.ΦA spec0 c from rfl, PhiA0_eq]
      iintro ⟨⟨⟨⟨%s6, H6⟩, ⟨%s7, H7⟩, ⟨%s8, H8⟩, ⟨%s9, H9⟩, ⟨%s10, H10⟩, ⟨%s11, H11⟩⟩, Hg⟩, Ho, ⟨%d0, H0⟩, ⟨%d1, H1⟩, ⟨%d2, H2⟩, ⟨%d3, H3⟩, ⟨%d4, H4⟩⟩
      have hIA := Inv_A (Xb m c) (Wb m c) (Bb m c) (Abk m c) sc6 hsc6 sc7 hsc7 sc8 hsc8 (iblk m c 0 t) (iblk m c 1 t) (iblk m c 2 t) (iblk m c 3 t)
        hx0 hx1 hx2 (by rw [hx3, h0]) s6 s7 s8 s9 s10 s11 _ (k0_off1_inb (grid0.coords t)) (by rw [hoff t, h0]) _ _ _
        (A_L6 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 1 t) (iblk m c 2 t) (iblk m c 3 t) s6 s7 s8)
        (A_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 1 t) (iblk m c 2 t) (iblk m c 3 t) s6 s7 s8)
        (A_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 1 t) (iblk m c 2 t) (iblk m c 3 t) s6 s7 s8)
      iapply ((kernelRunA c (grid0.coords t) _ _ _ _ _ _ _ _ _ _ _ _ _ _ _ _ _ _ _ _ _ _ hc0 hc1 hc2 (iblk m c 0 t) (iblk m c 1 t) (iblk m c 2 t) (iblk m c 3 t) s6 s7 s8).2.2.2 Set.univ _)
      isplitl [H0]; · iexact H0
      isplitl [H1]; · iexact H1
      isplitl [H2]; · iexact H2
      isplitl [H3]; · iexact H3
      isplitl [H6]; · iexact H6
      isplitl [H7]; · iexact H7
      isplitl [H8]; · iexact H8
      iintro ⟨H0, H1, H2, H3, H6, H7, H8⟩
      isplitl [H6 H7 H8 H9 H10 H11 Hg]
      · iexists _; iexists _; iexists _; iexists s9; iexists s10; iexists s11
        isplitr
        · ipureintro; rw [show t.val = 0 from h0]; exact hIA
        isplitl [H6 H7 H8 H9 H10 H11]
        · isplitl [H6]
          · unfold owns; iexists _; isplitr; swap; iexact H6; ipureintro; rfl
          isplitl [H7]
          · unfold owns; iexists _; isplitr; swap; iexact H7; ipureintro; rfl
          isplitl [H8]
          · unfold owns; iexists _; isplitr; swap; iexact H8; ipureintro; rfl
          isplitl [H9]; · iexact H9
          isplitl [H10]; · iexact H10
          iexact H11
        iexact Hg
      isplitl [Ho]; · iexact Ho
      isplitl [H0]; · iexact H0
      isplitl [H1]; · iexact H1
      isplitl [H2]; · iexact H2
      isplitl [H3]; · iexact H3
      iexists _; iexact H4
    · have hc0 : ¬cond0 (grid0.coords t) := fun h => h0 ((hcond0 t).mp h)
      rw [PhiS_pos m c t.val h0]
      by_cases h48 : t.val = 48
      · -- point 48
        have hc1 : cond48 (grid0.coords t) := (hcond48 t).mpr h48
        iintro ⟨⟨%s6, %s7, %s8, %s9, %s10, %s11, %hI, ⟨H6, H7, H8, H9, H10, H11⟩, Hg⟩, Ho, ⟨%d0, H0⟩, ⟨%d1, H1⟩, ⟨%d2, H2⟩, ⟨%d3, H3⟩, ⟨%d4, H4⟩⟩
        have hI' : Inv (Xb m c) (Wb m c) (Bb m c) (Abk m c) 47 (s6, s7, s8, s9, s10, s11) := by rw [show (47 : ℕ) = t.val - 1 from by omega]; exact hI
        have hIC := Inv_C (Xb m c) (Wb m c) (Bb m c) (Abk m c) sc7 hsc7 sc8 hsc8 sc9 hsc9 sc10 hsc10 sc11 hsc11 (iblk m c 0 t) (iblk m c 2 t) (iblk m c 3 t)
          hx0 hx2 (by rw [hx3, h48]) (s6, s7, s8, s9, s10, s11) _ (k0_off1_inb (grid0.coords t)) (by rw [hoff t, h48]) _ _ _ _ _
          (C_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L9 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L10 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11)
          (C_L11 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 0 t) (iblk m c 2 t) (iblk m c 3 t) s6 s7 s8 s9 s10 s11) hI'
        iapply ((kernelRunC c (grid0.coords t) _ _ _ _ _ _ _ _ _ _ _ _ _ _ _ _ _ _ _ _ _ _ hc0 hc1 hc2 (iblk m c 0 t) (iblk m c 2 t) (iblk m c 3 t) s6 s7 s8 s9 s10 s11).2.2.2.2.2 Set.univ _)
        isplitl [H0]; · iexact H0
        isplitl [H2]; · iexact H2
        isplitl [H3]; · iexact H3
        isplitl [H6]; · iexact H6
        isplitl [H7]; · iexact H7
        isplitl [H8]; · iexact H8
        isplitl [H9]; · iexact H9
        isplitl [H10]; · iexact H10
        isplitl [H11]; · iexact H11
        iintro ⟨H0, H2, H3, H6, H7, H8, H9, H10, H11⟩
        isplitl [H6 H7 H8 H9 H10 H11 Hg]
        · iexists s6; iexists _; iexists _; iexists _; iexists _; iexists _
          isplitr
          · ipureintro; rw [show t.val = 48 from h48]; exact hIC
          isplitl [H6 H7 H8 H9 H10 H11]
          · isplitl [H6]; · iexact H6
            isplitl [H7]
            · unfold owns; iexists _; isplitr; swap; iexact H7; ipureintro; rfl
            isplitl [H8]
            · unfold owns; iexists _; isplitr; swap; iexact H8; ipureintro; rfl
            isplitl [H9]
            · unfold owns; iexists _; isplitr; swap; iexact H9; ipureintro; rfl
            isplitl [H10]
            · unfold owns; iexists _; isplitr; swap; iexact H10; ipureintro; rfl
            unfold owns; iexists _; isplitr; swap; iexact H11; ipureintro; rfl
          iexact Hg
        isplitl [Ho]; · iexact Ho
        isplitl [H0]; · iexact H0
        isplitl [H1]; · iexact H1
        isplitl [H2]; · iexact H2
        isplitl [H3]; · iexact H3
        iexists _; iexact H4
      · -- a point strictly between the first and point 48
        have hc1 : ¬cond48 (grid0.coords t) := fun h => h48 ((hcond48 t).mp h)
        iintro ⟨⟨%s6, %s7, %s8, %s9, %s10, %s11, %hI, ⟨H6, H7, H8, H9, H10, H11⟩, Hg⟩, Ho, ⟨%d0, H0⟩, ⟨%d1, H1⟩, ⟨%d2, H2⟩, ⟨%d3, H3⟩, ⟨%d4, H4⟩⟩
        have hIB := Inv_core (Xb m c) (Wb m c) (Bb m c) (Abk m c) sc7 hsc7 sc8 hsc8 (iblk m c 2 t) (iblk m c 3 t) (s6, s7, s8, s9, s10, s11) t.val
          hx2 hx3 (by omega) h48 _ (k0_off1_inb (grid0.coords t)) (hoff t) _ _
          (B_L7 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 2 t) (iblk m c 3 t) s6 s7 s8)
          (B_L8 c (grid0.coords t) (ms0 t) (hs0 t) (ms1 t) (hs1 t) (ms2 t) (hs2 t) (ms3 t) (hs3 t) (ms4 t) (hs4 t) sc6 hsc6 sc7 hsc7 sc8 hsc8 sc9 hsc9 sc10 hsc10 sc11 hsc11 hc0 hc1 hc2 (iblk m c 2 t) (iblk m c 3 t) s6 s7 s8) hI
        iapply ((kernelRunB c (grid0.coords t) _ _ _ _ _ _ _ _ _ _ _ _ _ _ _ _ _ _ _ _ _ _ hc0 hc1 hc2 (iblk m c 2 t) (iblk m c 3 t) s6 s7 s8).2.2 Set.univ _)
        isplitl [H2]; · iexact H2
        isplitl [H3]; · iexact H3
        isplitl [H6]; · iexact H6
        isplitl [H7]; · iexact H7
        isplitl [H8]; · iexact H8
        iintro ⟨H2, H3, H6, H7, H8⟩
        isplitl [H6 H7 H8 H9 H10 H11 Hg]
        · iexists s6; iexists _; iexists _; iexists s9; iexists s10; iexists s11
          isplitr
          · ipureintro; exact hIB
          isplitl [H6 H7 H8 H9 H10 H11]
          · isplitl [H6]; · iexact H6
            isplitl [H7]
            · unfold owns; iexists _; isplitr; swap; iexact H7; ipureintro; rfl
            isplitl [H8]
            · unfold owns; iexists _; isplitr; swap; iexact H8; ipureintro; rfl
            isplitl [H9]; · iexact H9
            isplitl [H10]; · iexact H10
            iexact H11
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl]
  exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, N50]; decide), PhiA0_eq]
  iintro ⟨%s6, %s7, %s8, %s9, %s10, %s11, %hI, ⟨H6, H7, H8, H9, H10, H11⟩, Hg⟩
  isplitl [H6 H7 H8 H9 H10 H11]
  · isplitl [H6]; · iexists _; iexact H6
    isplitl [H7]; · iexists _; iexact H7
    isplitl [H8]; · iexists _; iexact H8
    isplitl [H9]; · iexists _; iexact H9
    isplitl [H10]; · iexists _; iexact H10
    iexists _; iexact H11
  iexact Hg

set_option backward.isDefEq.respectTransparency.types false in
/-- Every weakly fair execution of the program terminates, and every final state has each array of the pipeline at
    what the proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibMatmulTN.lean ====
/-
  A matrix product contracting the rows of BOTH operands, read at an entry: for a `[K, n]` matrix and a `[K, m]`
  matrix accumulated into zero, entry `(q, c)` of the `[n, m]` result is the sum over `k` of
  `lhs (k, q) * rhs (k, c)` — the transposed left operand times the right operand — at the exact values. The
  dimension numbers enter only through four facts about where the operand indices come from (rows of both
  operands from the contraction position, the left operand's columns from the result's rows, the right operand's
  columns from the result's columns).
-/
import Idealize.ShloMosaic.Lib.ValueIdx
import Idealize.ShloMosaic.PureOps.Ideal.Laws

noncomputable section

namespace Cert.TransposedDot

open Idealize.ShloMosaic Idealize.ShloMosaic.ValueIdx

/-- Entry `(q, c)` of a product contracting the rows of both operands, into a zero accumulator, is
    `∑ k, lhs (k, q) * rhs (k, c)`. -/
theorem matmul_zero_apply {n K m : ℕ} {φ₁ φ₂ : FTy}
    (D : DotDims ⟨2, ![K, n]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (lhs : FVec Ideal ⟨2, ![K, n]⟩ φ₁) (rhs : FVec Ideal ⟨2, ![K, m]⟩ φ₂) (q : Fin n) (c : Fin m) :
    matmul D prec lhs rhs (constant ⟨2, ![n, m]⟩ .f32 0x00000000#32) (ix2 q c)
      = ∑ k : Fin K, lhs (ix2 k q) * rhs (ix2 k c) := by
  show FloatOps.matmul D prec lhs rhs (constant ⟨2, ![n, m]⟩ .f32 0x00000000#32) (ix2 q c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 q c) ((contrEquiv1 D K hr hs).symm k) = ix2 k q := funext fun a => Fin.ext (by
    match a with
    | ⟨0, _⟩ => exact (hl0 _ _).trans hk
    | ⟨1, _⟩ => exact hl1 _ _)
  have er : D.rhsIdx (ix2 q c) ((contrEquiv1 D K hr hs).symm k) = ix2 k c := funext fun a => Fin.ext (by
    match a with
    | ⟨0, _⟩ => exact (hr0 _ _).trans hk
    | ⟨1, _⟩ => exact hr1 _ _)
  rw [el, er]

end Cert.TransposedDot

end
-- ==== Proof.LibColumnSum.lean ====
/-
  A reduction along the rows of an `a × b` matrix read at an index: the index of the matrix over column `u` at
  position `k` of the reduced axis is `(k, u)`, so at the exact values a float sum along axis 0 started from the
  zero word is, at column `u`, the sum over the rows `k` of the entries `(k, u)`.
-/
import Idealize.ShloMosaic.Lib.ValueIdx
import Idealize.ShloMosaic.PureOps.Ideal.Laws

noncomputable section

namespace Cert.ColumnSum

open Idealize.ShloMosaic Idealize.ShloMosaic.ValueIdx

/-- The index of an `[a, b]` matrix over column `u` at position `k` of the reduced (row) axis is `(k, u)`. -/
theorem lift_col {a b : ℕ} (h : Shape.Reduces ⟨2, ![a, b]⟩ [0] ⟨1, ![b]⟩) (u : Fin b) (k : Fin a) :
    h.lift (ix1 u) k = ix2 k u :=
  funext fun ax => Fin.ext (by match ax with | ⟨0, _⟩ => rfl | ⟨1, _⟩ => rfl)

/-- A float sum along the rows, from the zero word, is at column `u` the sum over the rows of the entries
    `(k, u)`. -/
theorem sum_rows_apply {a b : ℕ} {φ : FTy} (w : FVec Ideal ⟨2, ![a, b]⟩ φ) (acc : BitVec φ.bits)
    (h : Shape.Reduces ⟨2, ![a, b]⟩ [0] ⟨1, ![b]⟩) (hφ : FKind.Formats φ) (hacc : acc = FKind.add.neutral φ hφ)
    (u : Fin b) :
    multiReduction .add [0] ⟨1, ![b]⟩ w acc h hφ hacc (ix1 u) = ∑ k : Fin a, w (ix2 k u) := by
  refine (Ideal.multiReduction_add_single w acc h hφ hacc (ix1 u)).trans ?_
  show ∑ k : Fin a, w (h.lift (ix1 u) k) = _
  exact Finset.sum_congr rfl fun k _ => congrArg w (lift_col h u k)

end Cert.ColumnSum

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.Payloads.lean ====
/-
  The kernel body's arithmetic read at an index, at the exact values: each payload (a pure function of the loaded
  vectors) is, at an index, the formula its operations spell — a matrix product entry as a sum of products, a
  reduction along the rows as a sum (or a maximum) over the rows, a row spread over a matrix read at the row, a
  transposed row read at the matching column, the elementwise operations at the elements.
-/
import proofs.«179192_g15607911154264_cont_week2b_145_13_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«179192_g15607911154264_cont_week2b_145_13_alg».proof.Proof.LibMatmul
import proofs.«179192_g15607911154264_cont_week2b_145_13_alg».proof.Proof.LibMatmulTN
import proofs.«179192_g15607911154264_cont_week2b_145_13_alg».proof.Proof.LibColumnSum
import proofs.«179192_g15607911154264_cont_week2b_145_13_alg».proof.Proof.LibColumns
import proofs.«179192_g15607911154264_cont_week2b_145_13_alg».proof.Proof.LibRowBroadcast

noncomputable section

namespace Cert.Payloads

open Idealize.ShloMosaic Idealize.ShloMosaic.ValueIdx Cert.KernelIdeal Cert.KernelIdeal.Gen
open Cert.KernelIdeal.Facts₀

/-- A cast to the same shape changes nothing. -/
theorem pay6_apply (v : Vec Ideal S1x128 .f32) (i : S1x128.Idx) : k0_pay6 (F := Ideal) v i = v i := by
  unfold k0_pay6
  exact congrFun (shapeCast_self v _) i

/-- The rows shifted by the row of column values and exponentiated, at an entry. -/
theorem pay7_apply (g : Vec Ideal S9800x128 .f32) (m : Vec Ideal S1x128 .f32) (r : Fin 9800) (c : Fin 128) :
    k0_pay7 (F := Ideal) g m (ix2 r c) = Ideal.exp (g (ix2 r c) - m (ix2 (0 : Fin 1) c)) := by
  unfold k0_pay7
  show Ideal.exp (g (ix2 r c) - broadcastTo S9800x128 m Facts₀.broadcasts_S1x128_S9800x128 (ix2 r c)) = _
  rw [Cert.RowBroadcast.broadcastTo_1b_ab_apply]

/-! ### Where the four matrix products read their operands -/

section DotFacts

theorem xw_l0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem xw_l1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem xw_r0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem xw_r1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

theorem as_l0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
theorem as_l1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem as_r0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem as_r1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

theorem ex_l0 (i : S128x128.Idx) (q : dot_S9800x128_S9800x128_S128x128_0_0_1_1_n_n.contr.Idx) :
    (dot_S9800x128_S9800x128_S128x128_0_0_1_1_n_n.lhsIdx i q 0).val = (q ⟨0, by decide⟩).val :=
  dot_S9800x128_S9800x128_S128x128_0_0_1_1_n_n.lhsIdx_val_of_single rfl i q
theorem ex_l1 (i : S128x128.Idx) (q : dot_S9800x128_S9800x128_S128x128_0_0_1_1_n_n.contr.Idx) :
    (dot_S9800x128_S9800x128_S128x128_0_0_1_1_n_n.lhsIdx i q 1).val = (i 0).val := by
  unfold DotDims.lhsIdx
  rw [dif_neg (show ¬(1 : Fin S9800x128.rank) ∈ dot_S9800x128_S9800x128_S128x128_0_0_1_1_n_n.lhsBatch by decide),
    dif_pos (show (1 : Fin S9800x128.rank) ∈ dot_S9800x128_S9800x128_S128x128_0_0_1_1_n_n.lhsNonContracting by decide)]
  rfl
theorem ex_r0 (i : S128x128.Idx) (q : dot_S9800x128_S9800x128_S128x128_0_0_1_1_n_n.contr.Idx) :
    (dot_S9800x128_S9800x128_S128x128_0_0_1_1_n_n.rhsIdx i q 0).val = (q ⟨0, by decide⟩).val :=
  dot_S9800x128_S9800x128_S128x128_0_0_1_1_n_n.rhsIdx_val_of_single rfl i q
theorem ex_r1 (i : S128x128.Idx) (q : dot_S9800x128_S9800x128_S128x128_0_0_1_1_n_n.contr.Idx) :
    (dot_S9800x128_S9800x128_S128x128_0_0_1_1_n_n.rhsIdx i q 1).val = (i 1).val := by
  unfold DotDims.rhsIdx
  rw [dif_neg (show ¬(1 : Fin S9800x128.rank) ∈ dot_S9800x128_S9800x128_S128x128_0_0_1_1_n_n.rhsBatch by decide),
    dif_pos (show (1 : Fin S9800x128.rank) ∈ dot_S9800x128_S9800x128_S128x128_0_0_1_1_n_n.rhsNonContracting by decide)]
  rfl

theorem lx_l0 (i : S128x128.Idx) (q : dot_S200x128_S200x128_S128x128_0_0_1_1_n_n.contr.Idx) :
    (dot_S200x128_S200x128_S128x128_0_0_1_1_n_n.lhsIdx i q 0).val = (q ⟨0, by decide⟩).val :=
  dot_S200x128_S200x128_S128x128_0_0_1_1_n_n.lhsIdx_val_of_single rfl i q
theorem lx_l1 (i : S128x128.Idx) (q : dot_S200x128_S200x128_S128x128_0_0_1_1_n_n.contr.Idx) :
    (dot_S200x128_S200x128_S128x128_0_0_1_1_n_n.lhsIdx i q 1).val = (i 0).val := by
  unfold DotDims.lhsIdx
  rw [dif_neg (show ¬(1 : Fin S200x128.rank) ∈ dot_S200x128_S200x128_S128x128_0_0_1_1_n_n.lhsBatch by decide),
    dif_pos (show (1 : Fin S200x128.rank) ∈ dot_S200x128_S200x128_S128x128_0_0_1_1_n_n.lhsNonContracting by decide)]
  rfl
theorem lx_r0 (i : S128x128.Idx) (q : dot_S200x128_S200x128_S128x128_0_0_1_1_n_n.contr.Idx) :
    (dot_S200x128_S200x128_S128x128_0_0_1_1_n_n.rhsIdx i q 0).val = (q ⟨0, by decide⟩).val :=
  dot_S200x128_S200x128_S128x128_0_0_1_1_n_n.rhsIdx_val_of_single rfl i q
theorem lx_r1 (i : S128x128.Idx) (q : dot_S200x128_S200x128_S128x128_0_0_1_1_n_n.contr.Idx) :
    (dot_S200x128_S200x128_S128x128_0_0_1_1_n_n.rhsIdx i q 1).val = (i 1).val := by
  unfold DotDims.rhsIdx
  rw [dif_neg (show ¬(1 : Fin S200x128.rank) ∈ dot_S200x128_S200x128_S128x128_0_0_1_1_n_n.rhsBatch by decide),
    dif_pos (show (1 : Fin S200x128.rank) ∈ dot_S200x128_S200x128_S128x128_0_0_1_1_n_n.rhsNonContracting by decide)]
  rfl

end DotFacts

/-! ### The payloads at an index -/

/-- X · W at an entry. -/
theorem pay1_apply (x : Vec Ideal S10000x128 .f32) (w : Vec Ideal S128x128 .f32) (n : Fin 10000) (j : Fin 128) :
    k0_pay1 (F := Ideal) x w (ix2 n j) = ∑ i : Fin 128, x (ix2 n i) * w (ix2 i j) := by
  unfold k0_pay1
  refine (congrFun (shapeCast_self _ _) _).trans ?_
  exact Cert.PlainDot.matmul_zero_apply dot_S10000x128_S128x128_S10000x128_1_0_0_1_n_n none rfl rfl
    xw_l0 xw_l1 xw_r0 xw_r1 x w n j

/-- A block of 200 rows of A · support + b at an entry. -/
theorem pay3_apply (a : Vec Ideal S200x10000 .f32) (s : Vec Ideal S10000x128 .f32) (b : Vec Ideal S1x128 .f32)
    (r : Fin 200) (c : Fin 128) :
    k0_pay3 (F := Ideal) a s b (ix2 r c) = (∑ k : Fin 10000, a (ix2 r k) * s (ix2 k c)) + b (ix2 (0 : Fin 1) c) := by
  unfold k0_pay3
  refine (addf_apply _ _ _).trans (congrArg₂ (· + ·) ?_ ?_)
  · exact Cert.PlainDot.matmul_zero_apply dot_S200x10000_S10000x128_S200x128_1_0_0_1_n_n none rfl rfl
      as_l0 as_l1 as_r0 as_r1 a s r c
  · refine (Cert.RowBroadcast.broadcastTo_1b_ab_apply _ _ r c).trans ?_
    exact congrFun (shapeCast_self b _) _

theorem pay4_apply (a : Vec Ideal S200x10000 .f32) (s : Vec Ideal S10000x128 .f32) (b : Vec Ideal S1x128 .f32)
    (r : Fin 200) (c : Fin 128) :
    k0_pay4 (F := Ideal) a s b (ix2 r c) = (∑ k : Fin 10000, a (ix2 r k) * s (ix2 k c)) + b (ix2 (0 : Fin 1) c) := by
  unfold k0_pay4
  exact (congrFun (shapeCast_self _ _) _).trans (pay3_apply a s b r c)

/-- The column sums of the exponentials of the first 9800 rows. -/
theorem pay8_apply (g : Vec Ideal S9800x128 .f32) (m : Vec Ideal S1x128 .f32) (c : Fin 128) :
    k0_pay8 (F := Ideal) g m (ix2 (0 : Fin 1) c)
      = ∑ k : Fin 9800, Ideal.exp (g (ix2 k c) - m (ix2 (0 : Fin 1) c)) := by
  unfold k0_pay8
  refine (congrFun (shapeCast_self _ _) _).trans ?_
  refine (shapeCast_a_1a_apply _ _ (0 : Fin 1) c).trans ?_
  refine (Cert.ColumnSum.sum_rows_apply _ _ _ _ _ c).trans ?_
  exact Finset.sum_congr rfl fun k _ => pay7_apply g m k c

/-- The exponentials of the first 9800 rows, transposed, times the first 9800 rows of X. -/
theorem pay9_apply (g : Vec Ideal S9800x128 .f32) (m : Vec Ideal S1x128 .f32) (x : Vec Ideal S9800x128 .f32)
    (c d : Fin 128) :
    k0_pay9 (F := Ideal) g m x (ix2 c d)
      = ∑ k : Fin 9800, Ideal.exp (g (ix2 k c) - m (ix2 (0 : Fin 1) c)) * x (ix2 k d) := by
  unfold k0_pay9
  refine (congrFun (shapeCast_self _ _) _).trans ?_
  refine (Cert.TransposedDot.matmul_zero_apply dot_S9800x128_S9800x128_S128x128_0_0_1_1_n_n none rfl rfl
    ex_l0 ex_l1 ex_r0 ex_r1 _ _ c d).trans ?_
  exact Finset.sum_congr rfl fun k _ => congrArg (· * x (ix2 k d)) (pay7_apply g m k c)

/-- The last 200 rows shifted by the row of column values and exponentiated, at an entry. -/
theorem lastExp_apply (g : Vec Ideal S200x128 .f32) (m : Vec Ideal S1x128 .f32) (k : Fin 200) (c : Fin 128) :
    exp (F := Ideal) (φ := .f32) (subf (φ := .f32) g (broadcastTo S200x128 m Facts₀.broadcasts_S1x128_S200x128)) (ix2 k c)
      = Ideal.exp (g (ix2 k c) - m (ix2 (0 : Fin 1) c)) := by
  show Ideal.exp (g (ix2 k c) - broadcastTo S200x128 m Facts₀.broadcasts_S1x128_S200x128 (ix2 k c)) = _
  rw [Cert.RowBroadcast.broadcastTo_1b_ab_apply]

/-- The final division: the partial product and partial sum of the first 9800 rows rescaled by exp (old - new),
    the last 200 rows' terms added, numerator over denominator. -/
theorem pay10_apply (g : Vec Ideal S200x128 .f32) (mN : Vec Ideal S1x128 .f32) (x : Vec Ideal S200x128 .f32)
    (mO z : Vec Ideal S1x128 .f32) (acc : Vec Ideal S128x128 .f32) (c d : Fin 128) :
    k0_pay10 (F := Ideal) g mN x mO z acc (ix2 c d)
      = Ideal.div
          (acc (ix2 c d) * Ideal.exp (mO (ix2 (0 : Fin 1) c) - mN (ix2 (0 : Fin 1) c))
            + ∑ k : Fin 200, Ideal.exp (g (ix2 k c) - mN (ix2 (0 : Fin 1) c)) * x (ix2 k d))
          (z (ix2 (0 : Fin 1) c) * Ideal.exp (mO (ix2 (0 : Fin 1) c) - mN (ix2 (0 : Fin 1) c))
            + ∑ k : Fin 200, Ideal.exp (g (ix2 k c) - mN (ix2 (0 : Fin 1) c))) := by
  unfold k0_pay10
  refine (divf_apply _ _ _).trans (congrArg₂ Ideal.div ?_ ?_)
  · refine (addf_apply _ _ _).trans (congrArg₂ (· + ·) ?_ ?_)
    · refine (mulf_apply _ _ _).trans (congrArg (acc (ix2 c d) * ·) ?_)
      refine (Cert.Columns.broadcastTo_a1_ab_apply _ _ c d).trans ?_
      refine (transpose_ix2_apply _ _ c (0 : Fin 1)).trans ?_
      rfl
    · refine (Cert.TransposedDot.matmul_zero_apply dot_S200x128_S200x128_S128x128_0_0_1_1_n_n none rfl rfl
        lx_l0 lx_l1 lx_r0 lx_r1 _ _ c d).trans ?_
      exact Finset.sum_congr rfl fun k _ => congrArg (· * x (ix2 k d)) (lastExp_apply g mN k c)
  · refine (Cert.Columns.broadcastTo_a1_ab_apply _ _ c d).trans ?_
    refine (transpose_ix2_apply _ _ c (0 : Fin 1)).trans ?_
    refine (addf_apply _ _ _).trans (congrArg₂ (· + ·) ?_ ?_)
    · rfl
    · refine (shapeCast_a_1a_apply _ _ (0 : Fin 1) c).trans ?_
      refine (Cert.ColumnSum.sum_rows_apply _ _ _ _ _ c).trans ?_
      exact Finset.sum_congr rfl fun k _ => lastExp_apply g mN k c

/-! ### The running maximum -/

/-- The word 0xFF800000 is -∞. -/
theorem ofBits_neg_inf : Ideal.ofBits .f32 0xFF800000#32 = ⊥ := by
  simp [Ideal.ofBits, Ideal.ieee]

/-- The running maximum starts at -∞. -/
theorem pay2_apply (c : Fin 128) : k0_pay2 (F := Ideal) (ix2 (0 : Fin 1) c) = ⊥ := by
  unfold k0_pay2
  refine (congrFun (shapeCast_self _ _) _).trans ?_
  exact ofBits_neg_inf

/-- The new running maximum of a column: the old value against the maximum, from -∞, of the block's 200 entries. -/
theorem pay5_apply (a : Vec Ideal S200x10000 .f32) (s : Vec Ideal S10000x128 .f32) (b m : Vec Ideal S1x128 .f32)
    (c : Fin 128) :
    k0_pay5 (F := Ideal) a s b m (ix2 (0 : Fin 1) c)
      = max (m (ix2 (0 : Fin 1) c))
          ((Finset.univ : Finset (Fin 200)).fold max ⊥ (fun r => k0_pay3 (F := Ideal) a s b (ix2 r c))) := by
  unfold k0_pay5
  refine (congrFun (shapeCast_self _ _) _).trans ?_
  refine (maximumf_apply _ _ _).trans (congrArg (max (m (ix2 (0 : Fin 1) c))) ?_)
  refine (shapeCast_a_1a_apply _ _ (0 : Fin 1) c).trans ?_
  refine (Ideal.multiReduction_maximumf_single _ _ _ _ _ (ix1 c)).trans ?_
  have e1 : FloatOps.ofBits (F := Ideal) .f32 0xFF800000#32 = ⊥ := ofBits_neg_inf
  have e2 : (k0_pay3 (F := Ideal) a s b ∘ Shape.Reduces.lift Facts₀.reduces_S200x128_S128 (ix1 c))
      = fun r : Fin 200 => k0_pay3 (F := Ideal) a s b (ix2 r c) :=
    funext fun r => congrArg (k0_pay3 (F := Ideal) a s b) (Cert.ColumnSum.lift_col _ c r)
  exact congrArg₂ (fun v f => (Finset.univ : Finset (Fin 200)).fold max v f) e1 e2

/-- The new running maximum is a real number when the old one is not +∞ and the block's entries are real. -/
theorem pay5_real (a : Vec Ideal S200x10000 .f32) (s : Vec Ideal S10000x128 .f32) (b m : Vec Ideal S1x128 .f32)
    (c : Fin 128) (hm : m (ix2 (0 : Fin 1) c) ≠ ⊤)
    (hg : ∀ r : Fin 200, k0_pay3 (F := Ideal) a s b (ix2 r c) ≠ ⊤ ∧ k0_pay3 (F := Ideal) a s b (ix2 r c) ≠ ⊥) :
    k0_pay5 (F := Ideal) a s b m (ix2 (0 : Fin 1) c) ≠ ⊤
      ∧ k0_pay5 (F := Ideal) a s b m (ix2 (0 : Fin 1) c) ≠ ⊥ := by
  rw [pay5_apply]
  constructor
  · refine ne_of_lt (max_lt (lt_top_iff_ne_top.2 hm) ?_)
    rw [Finset.fold_max_lt]
    exact ⟨bot_lt_top, fun r _ => lt_top_iff_ne_top.2 (hg r).1⟩
  · refine ne_of_gt (lt_of_lt_of_le (bot_lt_iff_ne_bot.2 (hg ⟨0, by decide⟩).2) ?_)
    refine le_trans ?_ (le_max_right _ _)
    rw [Finset.le_fold_max]
    exact Or.inr ⟨⟨0, by decide⟩, Finset.mem_univ _, le_rfl⟩

end Cert.Payloads

end
-- ==== Proof.Spec.lean ====
/-
  The decoder's result as plain formulas on the extended reals, over arrays given by their entries:
  X is 10000 × 128 (node features), A is 10000 × 10000 (adjacency), W is 128 × 128, b has 128 entries.

    support = X · W,   gcn = A · support + b,   result (c, d) = Σ_n softmax over n of gcn (n, c), times X (n, d).

  `refOut` is the textbook spelling (shift by a column value mR, exponentiate, divide by the column's sum, then
  contract with X). `kerOut` is the two-piece spelling: the rows below 9800 are shifted by mOld, summed, and
  rescaled by exp (mOld - mNew); the last 200 rows are shifted by mNew; numerator and denominator are divided at
  the end. Both are stated for ANY shifts: the softmax does not depend on the shift as long as it is a real number.
-/
import Idealize.ShloMosaic.PureOps.Ideal

noncomputable section

namespace Cert.Spec

open Idealize.ShloMosaic

/-- Row `k < 9800` as a row of the whole matrix. -/
def lo (k : Fin 9800) : Fin 10000 := ⟨k.val, by have := k.isLt; omega⟩
/-- Row `9800 + k`, `k < 200`, as a row of the whole matrix. -/
def hi (k : Fin 200) : Fin 10000 := ⟨9800 + k.val, by have := k.isLt; omega⟩

/-- support = X · W. -/
def support (X : Fin 10000 → Fin 128 → EReal) (W : Fin 128 → Fin 128 → EReal) (k : Fin 10000) (j : Fin 128) : EReal :=
  ∑ i : Fin 128, X k i * W i j

/-- gcn = A · support + b. -/
def gcn (X : Fin 10000 → Fin 128 → EReal) (A : Fin 10000 → Fin 10000 → EReal) (W : Fin 128 → Fin 128 → EReal)
    (b : Fin 128 → EReal) (n : Fin 10000) (c : Fin 128) : EReal :=
  (∑ k : Fin 10000, A n k * support X W k c) + b c

/-- The textbook spelling: softmax of column `c` of `g` (shifted by `mR c`) contracted with column `d` of `X`. -/
def refOut (g X : Fin 10000 → Fin 128 → EReal) (mR : Fin 128 → EReal) (c d : Fin 128) : EReal :=
  ∑ n : Fin 10000, Ideal.div (Ideal.exp (g n c - mR c)) (∑ n' : Fin 10000, Ideal.exp (g n' c - mR c)) * X n d

/-- The two-piece spelling: rows below 9800 against the shift `mOld`, rescaled; the last 200 rows against `mNew`. -/
def kerOut (g X : Fin 10000 → Fin 128 → EReal) (mOld mNew : Fin 128 → EReal) (c d : Fin 128) : EReal :=
  Ideal.div
    ((∑ k : Fin 9800, Ideal.exp (g (lo k) c - mOld c) * X (lo k) d) * Ideal.exp (mOld c - mNew c)
      + ∑ k : Fin 200, Ideal.exp (g (hi k) c - mNew c) * X (hi k) d)
    ((∑ k : Fin 9800, Ideal.exp (g (lo k) c - mOld c)) * Ideal.exp (mOld c - mNew c)
      + ∑ k : Fin 200, Ideal.exp (g (hi k) c - mNew c))

/-- An extended real that is a real number. -/
def IsReal (x : EReal) : Prop := x ≠ ⊤ ∧ x ≠ ⊥

end Cert.Spec

end
-- ==== Proof.LibRealSum.lean ====
/-
  Real numbers inside the extended reals, and moving a factor across a finite sum.

  The extended reals are not a semiring: `(1 + -1) * ⊤ = 0` while `1 * ⊤ + -1 * ⊤ = ⊥`, so a factor does not move
  across a sum in general. It does when every term and the factor are real numbers. Here: arrays that hold real
  numbers only (`AllReal`), the inclusion of the reals commuting with finite sums (`coe_sum`), and the two laws
  `(∑ k, a k * w k) * s = ∑ k, a k * (w k * s)` and `s * (∑ k, a k * w k) = ∑ k, (s * a k) * w k` for real `a`, `w`, `s`
  — what joins "multiply, then scale the result" to "scale an operand, then multiply".
-/
import Mathlib.Data.EReal.Operations
import Mathlib.Algebra.BigOperators.Ring.Finset

noncomputable section

namespace Cert.RealSum

/-- An array of extended reals that holds real numbers only. -/
def AllReal {ι : Type} (a : ι → EReal) : Prop := ∀ i, a i ≠ ⊤ ∧ a i ≠ ⊥

/-- The inclusion of the reals commutes with finite sums. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- Among real numbers a right factor moves across a sum of products. -/
theorem sum_mul_coe {ι : Type} [Fintype ι] (a w : ι → ℝ) (s : ℝ) :
    (∑ k, (a k : EReal) * (w k : EReal)) * (s : EReal) = ∑ k, (a k : EReal) * ((w k : EReal) * (s : EReal)) := by
  simp only [← EReal.coe_mul, ← coe_sum]
  congr 1
  rw [Finset.sum_mul]
  exact Finset.sum_congr rfl fun k _ => mul_assoc _ _ _

/-- A real right factor moves across a sum of products of real extended reals, onto the second factor of each term. -/
theorem sum_mul_of_real {ι : Type} [Fintype ι] (a w : ι → EReal) (s : EReal) (ha : AllReal a) (hw : AllReal w)
    (hs : s ≠ ⊤ ∧ s ≠ ⊥) : (∑ k, a k * w k) * s = ∑ k, a k * (w k * s) := by
  have ea : a = fun k => ((a k).toReal : EReal) := funext fun k => (EReal.coe_toReal (ha k).1 (ha k).2).symm
  have ew : w = fun k => ((w k).toReal : EReal) := funext fun k => (EReal.coe_toReal (hw k).1 (hw k).2).symm
  have es : s = (s.toReal : EReal) := (EReal.coe_toReal hs.1 hs.2).symm
  rw [ea, ew, es]
  exact sum_mul_coe _ _ _

/-- Among real numbers a left factor moves across a sum of products. -/
theorem mul_sum_coe {ι : Type} [Fintype ι] (a w : ι → ℝ) (s : ℝ) :
    (s : EReal) * (∑ k, (a k : EReal) * (w k : EReal)) = ∑ k, ((s : EReal) * (a k : EReal)) * (w k : EReal) := by
  simp only [← EReal.coe_mul, ← coe_sum]
  congr 1
  rw [Finset.mul_sum]
  exact Finset.sum_congr rfl fun k _ => (mul_assoc _ _ _).symm

/-- A real left factor moves across a sum of products of real extended reals, onto the first factor of each term. -/
theorem mul_sum_of_real {ι : Type} [Fintype ι] (a w : ι → EReal) (s : EReal) (ha : AllReal a) (hw : AllReal w)
    (hs : s ≠ ⊤ ∧ s ≠ ⊥) : s * (∑ k, a k * w k) = ∑ k, (s * a k) * w k := by
  have ea : a = fun k => ((a k).toReal : EReal) := funext fun k => (EReal.coe_toReal (ha k).1 (ha k).2).symm
  have ew : w = fun k => ((w k).toReal : EReal) := funext fun k => (EReal.coe_toReal (hw k).1 (hw k).2).symm
  have es : s = (s.toReal : EReal) := (EReal.coe_toReal hs.1 hs.2).symm
  rw [ea, ew, es]
  exact mul_sum_coe _ _ _

end Cert.RealSum

end
-- ==== Proof.Softmax.lean ====
/-
  The two spellings of the decoder's softmax agree on real inputs.

  Finite sums and products of real numbers are real numbers, so the graph-convolution output holds real numbers.
  On real numbers both spellings are coercions of expressions over ℝ, and there the identity is elementary:
  exp (g - a) * exp (a - b) = exp (g - b), a sum over all 10000 rows is the sum over the first 9800 plus the sum
  over the last 200, exp (g - b) = exp (g - r) * exp (r - b) with the common factor exp (r - b) > 0 cancelled from
  numerator and denominator, and (Σ e_n x_n) / S = Σ (e_n / S) x_n.
-/
import proofs.«179192_g15607911154264_cont_week2b_145_13_alg».proof.Proof.Spec
import proofs.«179192_g15607911154264_cont_week2b_145_13_alg».proof.Proof.LibRealSum

noncomputable section

namespace Cert.Softmax

open Idealize.ShloMosaic Cert.Spec

/-! ### Real numbers inside the extended reals -/

theorem isReal_coe (r : ℝ) : IsReal (r : EReal) := ⟨EReal.coe_ne_top r, EReal.coe_ne_bot r⟩

theorem isReal_iff (x : EReal) : IsReal x ↔ ∃ r : ℝ, x = (r : EReal) := by
  constructor
  · rintro ⟨h1, h2⟩
    exact ⟨x.toReal, (EReal.coe_toReal h1 h2).symm⟩
  · rintro ⟨r, rfl⟩
    exact isReal_coe r

theorem isReal_add {x y : EReal} (hx : IsReal x) (hy : IsReal y) : IsReal (x + y) := by
  obtain ⟨a, rfl⟩ := (isReal_iff x).1 hx
  obtain ⟨b, rfl⟩ := (isReal_iff y).1 hy
  rw [← EReal.coe_add]
  exact isReal_coe _

theorem isReal_mul {x y : EReal} (hx : IsReal x) (hy : IsReal y) : IsReal (x * y) := by
  obtain ⟨a, rfl⟩ := (isReal_iff x).1 hx
  obtain ⟨b, rfl⟩ := (isReal_iff y).1 hy
  rw [← EReal.coe_mul]
  exact isReal_coe _

theorem isReal_sum {ι : Type} (t : Finset ι) (f : ι → EReal) (h : ∀ i ∈ t, IsReal (f i)) :
    IsReal (∑ i ∈ t, f i) := by
  classical
  induction t using Finset.induction_on with
  | empty => simpa using isReal_coe 0
  | insert a t ha ih =>
    rw [Finset.sum_insert ha]
    exact isReal_add (h a (Finset.mem_insert_self a t)) (ih fun i hi => h i (Finset.mem_insert_of_mem hi))

/-- The graph-convolution output of real inputs holds real numbers. -/
theorem gcn_real (X : Fin 10000 → Fin 128 → EReal) (A : Fin 10000 → Fin 10000 → EReal)
    (W : Fin 128 → Fin 128 → EReal) (b : Fin 128 → EReal)
    (hX : ∀ n i, IsReal (X n i)) (hA : ∀ n k, IsReal (A n k)) (hW : ∀ i j, IsReal (W i j))
    (hb : ∀ c, IsReal (b c)) : ∀ n c, IsReal (gcn X A W b n c) := by
  intro n c
  unfold gcn
  refine isReal_add (isReal_sum _ _ fun k _ => isReal_mul (hA n k) ?_) (hb c)
  unfold support
  exact isReal_sum _ _ fun i _ => isReal_mul (hX k i) (hW i c)

/-! ### The identity over the real numbers -/

/-- A sum over the 10000 rows is the sum over the first 9800 plus the sum over the last 200. -/
theorem sum_split (f : Fin 10000 → ℝ) :
    ∑ n, f n = ∑ k : Fin 9800, f (lo k) + ∑ k : Fin 200, f (hi k) := by
  have h := Fin.sum_univ_add (a := 9800) (b := 200) f
  exact h

/-- The two-piece spelling over ℝ. -/
def kerR (g x : Fin 10000 → ℝ) (a b : ℝ) : ℝ :=
  ((∑ k : Fin 9800, Real.exp (g (lo k) - a) * x (lo k)) * Real.exp (a - b)
      + ∑ k : Fin 200, Real.exp (g (hi k) - b) * x (hi k))
    * (1 / ((∑ k : Fin 9800, Real.exp (g (lo k) - a)) * Real.exp (a - b)
      + ∑ k : Fin 200, Real.exp (g (hi k) - b)))

/-- The textbook spelling over ℝ. -/
def refR (g x : Fin 10000 → ℝ) (r : ℝ) : ℝ :=
  ∑ n, Real.exp (g n - r) * (1 / ∑ n', Real.exp (g n' - r)) * x n

/-- Rescaling the first piece by exp (a - b) turns its shift a into b, and the two pieces join. -/
theorem pieces_join (g w : Fin 10000 → ℝ) (a b : ℝ) :
    (∑ k : Fin 9800, Real.exp (g (lo k) - a) * w (lo k)) * Real.exp (a - b)
      + ∑ k : Fin 200, Real.exp (g (hi k) - b) * w (hi k)
    = ∑ n, Real.exp (g n - b) * w n := by
  rw [sum_split (fun n => Real.exp (g n - b) * w n), Finset.sum_mul]
  congr 1
  refine Finset.sum_congr rfl fun k _ => ?_
  have e : g (lo k) - b = (g (lo k) - a) + (a - b) := by ring
  rw [e, Real.exp_add]
  ring

/-- The shift b is traded for the shift r at the price of the common factor exp (r - b). -/
theorem shift_out (g w : Fin 10000 → ℝ) (b r : ℝ) :
    ∑ n, Real.exp (g n - b) * w n = Real.exp (r - b) * ∑ n, Real.exp (g n - r) * w n := by
  rw [Finset.mul_sum]
  refine Finset.sum_congr rfl fun n _ => ?_
  have e : g n - b = (g n - r) + (r - b) := by ring
  rw [e, Real.exp_add]
  ring

theorem sum_exp_pos {ι : Type} [Fintype ι] [Nonempty ι] (h : ι → ℝ) : 0 < ∑ n, Real.exp (h n) :=
  Finset.sum_pos (fun i _ => Real.exp_pos _) Finset.univ_nonempty

theorem kerR_eq_refR (g x : Fin 10000 → ℝ) (a b r : ℝ) : kerR g x a b = refR g x r := by
  unfold kerR refR
  have hn := pieces_join g x a b
  have hd := pieces_join g (fun _ => 1) a b
  simp only [mul_one] at hd
  rw [hn, hd, shift_out g x b r]
  have hd2 := shift_out g (fun _ => 1) b r
  simp only [mul_one] at hd2
  rw [hd2]
  have hE : Real.exp (r - b) ≠ 0 := (Real.exp_pos _).ne'
  have hS : (∑ n, Real.exp (g n - r)) ≠ 0 := (sum_exp_pos fun n => g n - r).ne'
  have hT : ∑ n, Real.exp (g n - r) * (1 / ∑ n', Real.exp (g n' - r)) * x n
      = (1 / ∑ n', Real.exp (g n' - r)) * ∑ n, Real.exp (g n - r) * x n := by
    rw [Finset.mul_sum]
    exact Finset.sum_congr rfl fun n _ => by ring
  rw [hT]
  field_simp

/-! ### Both spellings on real inputs are coercions of the real expressions -/

theorem div_coe_coe (x y : ℝ) (hy : y ≠ 0) :
    Ideal.div (x : EReal) (y : EReal) = ((x * (1 / y) : ℝ) : EReal) := by
  rw [Ideal.div_coe hy, ← EReal.coe_mul]

theorem kerOut_coe (G X : Fin 10000 → Fin 128 → ℝ) (a b : Fin 128 → ℝ) (c d : Fin 128) :
    kerOut (fun n c => (G n c : EReal)) (fun n d => (X n d : EReal)) (fun c => (a c : EReal))
      (fun c => (b c : EReal)) c d
    = ((kerR (fun n => G n c) (fun n => X n d) (a c) (b c) : ℝ) : EReal) := by
  have hD : ((∑ k : Fin 9800, Real.exp (G (lo k) c - a c)) * Real.exp (a c - b c)
      + ∑ k : Fin 200, Real.exp (G (hi k) c - b c)) ≠ 0 :=
    (add_pos (mul_pos (sum_exp_pos _) (Real.exp_pos _)) (sum_exp_pos _)).ne'
  unfold kerOut kerR
  simp only [← EReal.coe_sub, Ideal.exp_coe, ← EReal.coe_mul, ← Cert.RealSum.coe_sum, ← EReal.coe_add]
  exact div_coe_coe _ _ hD

theorem refOut_coe (G X : Fin 10000 → Fin 128 → ℝ) (r : Fin 128 → ℝ) (c d : Fin 128) :
    refOut (fun n c => (G n c : EReal)) (fun n d => (X n d : EReal)) (fun c => (r c : EReal)) c d
    = ((refR (fun n => G n c) (fun n => X n d) (r c) : ℝ) : EReal) := by
  have hS : (∑ n', Real.exp (G n' c - r c)) ≠ 0 := (sum_exp_pos _).ne'
  unfold refOut refR
  simp only [← EReal.coe_sub, Ideal.exp_coe, ← Cert.RealSum.coe_sum, div_coe_coe _ _ hS, ← EReal.coe_mul]

/-- An array of real extended reals is the coercion of an array of reals. -/
theorem exists_real2 {ι κ : Type} (g : ι → κ → EReal) (hg : ∀ n c, IsReal (g n c)) :
    ∃ G : ι → κ → ℝ, g = fun n c => (G n c : EReal) :=
  ⟨fun n c => (g n c).toReal, funext fun n => funext fun c => (EReal.coe_toReal (hg n c).1 (hg n c).2).symm⟩

theorem exists_real1 {κ : Type} (m : κ → EReal) (hm : ∀ c, IsReal (m c)) :
    ∃ M : κ → ℝ, m = fun c => (M c : EReal) :=
  ⟨fun c => (m c).toReal, funext fun c => (EReal.coe_toReal (hm c).1 (hm c).2).symm⟩

/-- On real inputs and real shifts the two-piece spelling equals the textbook spelling, whatever the shifts. -/
theorem kerOut_eq_refOut (g X : Fin 10000 → Fin 128 → EReal) (mOld mNew mR : Fin 128 → EReal)
    (hg : ∀ n c, IsReal (g n c)) (hX : ∀ n d, IsReal (X n d)) (hOld : ∀ c, IsReal (mOld c))
    (hNew : ∀ c, IsReal (mNew c)) (hR : ∀ c, IsReal (mR c)) (c d : Fin 128) :
    kerOut g X mOld mNew c d = refOut g X mR c d := by
  obtain ⟨G, rfl⟩ := exists_real2 g hg
  obtain ⟨Y, rfl⟩ := exists_real2 X hX
  obtain ⟨a, rfl⟩ := exists_real1 mOld hOld
  obtain ⟨b, rfl⟩ := exists_real1 mNew hNew
  obtain ⟨r, rfl⟩ := exists_real1 mR hR
  rw [kerOut_coe, refOut_coe, kerR_eq_refR _ _ _ _ (r c)]

end Cert.Softmax

end
-- ==== Proof.KernelValue.lean ====
/-
  The kernel's result read at an index, at the exact values, in the words of the specification. With the argument
  blocks read as the arrays X, A, W, b: the stored support is X · W; every row of the gcn buffer is the
  specification's gcn row (row n is row n mod 200 of adjacency block n / 200, and 200 * (n / 200) + n mod 200 = n);
  the running column maximum is a real number after every grid point; and the stored result is the two-piece
  spelling of the softmax contraction with the shifts the maxima after points 48 and 49 — hence, by shift
  invariance, the textbook spelling with any real shift.
-/
import proofs.«179192_g15607911154264_cont_week2b_145_13_alg».proof.Proof.KiTerms
import proofs.«179192_g15607911154264_cont_week2b_145_13_alg».proof.Proof.Payloads
import proofs.«179192_g15607911154264_cont_week2b_145_13_alg».proof.Proof.Softmax
import proofs.«179192_g15607911154264_cont_week2b_145_13_alg».proof.Proof.Spec

noncomputable section

namespace Cert.KernelValue

open Idealize.ShloMosaic Idealize.ShloMosaic.ValueIdx Cert.KernelIdeal Cert.KernelIdeal.Gen Cert.KernelIdeal.Body
open Cert.Spec Cert.Payloads Cert.Softmax

variable (Xv : Vec Ideal S10000x128 .f32) (Wv : Vec Ideal S128x128 .f32) (Bv : Vec Ideal S1x128 .f32)
  (Ab : ℕ → Vec Ideal S200x10000 .f32)
  (X : Fin 10000 → Fin 128 → EReal) (A : Fin 10000 → Fin 10000 → EReal) (W : Fin 128 → Fin 128 → EReal)
  (b : Fin 128 → EReal)

/-- The cast to the same shape in front of the stored block changes nothing. -/
theorem pay4_eq_pay3 (a : Vec Ideal S200x10000 .f32) (s : Vec Ideal S10000x128 .f32) (v : Vec Ideal S1x128 .f32)
    (i : S200x128.Idx) : k0_pay4 (F := Ideal) a s v i = k0_pay3 (F := Ideal) a s v i := by
  unfold k0_pay4
  exact congrFun (shapeCast_self _ _) i

section Values

variable (hX : ∀ n j, Xv (ix2 n j) = X n j) (hW : ∀ i j, Wv (ix2 i j) = W i j)
  (hB : ∀ j, Bv (ix2 (0 : Fin 1) j) = b j)
  (hA : ∀ (t : ℕ) (ht : t < 50) (r : Fin 200) (k : Fin 10000), Ab t (ix2 r k) = A ⟨200 * t + r.val, by omega⟩ k)

include hX hW in
/-- The stored support is X · W. -/
theorem SUP_apply (n : Fin 10000) (j : Fin 128) : SUP (F := Ideal) Xv Wv (ix2 n j) = support X W n j := by
  unfold SUP support
  rw [pay1_apply]
  exact Finset.sum_congr rfl fun i _ => by rw [hX, hW]

include hX hW hB hA in
/-- Row r of block t is gcn row 200 t + r. -/
theorem block_apply (t : ℕ) (ht : t < 50) (r : Fin 200) (c : Fin 128) :
    k0_pay3 (F := Ideal) (Ab t) (SUP (F := Ideal) Xv Wv) Bv (ix2 r c)
      = gcn X A W b ⟨200 * t + r.val, by omega⟩ c := by
  rw [pay3_apply]
  unfold gcn
  rw [hB]
  refine congrArg (· + b c) ?_
  exact Finset.sum_congr rfl fun k _ => by rw [hA t ht r k, SUP_apply Xv Wv X W hX hW k c]

include hX hW hB hA in
/-- Every row of the gcn buffer is the specification's gcn row. -/
theorem GALL_apply (n : Fin 10000) (c : Fin 128) :
    GALL (F := Ideal) Xv Wv Bv Ab (ix2 n c) = gcn X A W b n c := by
  have ht : n.val / 200 < 50 := by have := n.isLt; omega
  unfold GALL
  show k0_pay4 (F := Ideal) (Ab (n.val / 200)) (SUP (F := Ideal) Xv Wv) Bv
      (ix2 (⟨n.val % 200, Nat.mod_lt _ (by norm_num)⟩ : Fin 200) c) = _
  rw [pay4_eq_pay3, block_apply Xv Wv Bv Ab X A W b hX hW hB hA (n.val / 200) ht]
  exact congrArg (fun m => gcn X A W b m c) (Fin.ext (Nat.div_add_mod n.val 200))

/-- Row k of the first 9800 rows is row k of the whole buffer. -/
theorem rect9800_idx (k : Fin 9800) (c : Fin 128) :
    (rect9800.idx (ix2 k c) : S10000x128.Idx) = ix2 (lo k) c :=
  funext fun a => Fin.ext (by
    match a with
    | ⟨0, _⟩ => show 0 + 1 * k.val = k.val; omega
    | ⟨1, _⟩ => show 0 + 1 * c.val = c.val; omega)

/-- Row k of the last 200 rows is row 9800 + k of the whole buffer. -/
theorem rect200_idx (k : Fin 200) (c : Fin 128) :
    (rect200.idx (ix2 k c) : S10000x128.Idx) = ix2 (hi k) c :=
  funext fun a => Fin.ext (by
    match a with
    | ⟨0, _⟩ => show 9800 + 1 * k.val = 9800 + k.val; omega
    | ⟨1, _⟩ => show 0 + 1 * c.val = c.val; omega)

include hX hW hB hA in
theorem G9800_apply (k : Fin 9800) (c : Fin 128) :
    G9800 (F := Ideal) Xv Wv Bv Ab (ix2 k c) = gcn X A W b (lo k) c := by
  unfold G9800
  show GALL (F := Ideal) Xv Wv Bv Ab (rect9800.idx (ix2 k c)) = _
  rw [rect9800_idx]
  exact GALL_apply Xv Wv Bv Ab X A W b hX hW hB hA (lo k) c

include hX hW hB hA in
theorem G200_apply (k : Fin 200) (c : Fin 128) :
    G200 (F := Ideal) Xv Wv Bv Ab (ix2 k c) = gcn X A W b (hi k) c := by
  unfold G200
  show GALL (F := Ideal) Xv Wv Bv Ab (rect200.idx (ix2 k c)) = _
  rw [rect200_idx]
  exact GALL_apply Xv Wv Bv Ab X A W b hX hW hB hA (hi k) c

include hX in
theorem X9800_apply (k : Fin 9800) (d : Fin 128) : X9800 (F := Ideal) Xv (ix2 k d) = X (lo k) d := by
  unfold X9800
  show Xv (rect9800.idx (ix2 k d)) = _
  rw [rect9800_idx, hX]

include hX in
theorem X200_apply (k : Fin 200) (d : Fin 128) : X200 (F := Ideal) Xv (ix2 k d) = X (hi k) d := by
  unfold X200
  show Xv (rect200.idx (ix2 k d)) = _
  rw [rect200_idx, hX]

include hX hW hB hA in
/-- The stored result is the two-piece spelling, with the maxima after points 48 and 49 as the shifts. -/
theorem OUT_apply (c d : Fin 128) :
    OUT (F := Ideal) Xv Wv Bv Ab (ix2 c d)
      = kerOut (gcn X A W b) X (fun c => MX (F := Ideal) Xv Wv Bv Ab 48 (ix2 (0 : Fin 1) c))
          (fun c => MX (F := Ideal) Xv Wv Bv Ab 49 (ix2 (0 : Fin 1) c)) c d := by
  have hM : MOLD (F := Ideal) Xv Wv Bv Ab (ix2 (0 : Fin 1) c) = MX (F := Ideal) Xv Wv Bv Ab 48 (ix2 (0 : Fin 1) c) := by
    unfold MOLD
    exact pay6_apply _ _
  have hAcc : ACC (F := Ideal) Xv Wv Bv Ab (ix2 c d)
      = ∑ k : Fin 9800, Ideal.exp (gcn X A W b (lo k) c - MX (F := Ideal) Xv Wv Bv Ab 48 (ix2 (0 : Fin 1) c)) * X (lo k) d := by
    unfold ACC
    rw [pay9_apply]
    exact Finset.sum_congr rfl fun k _ => by
      rw [G9800_apply Xv Wv Bv Ab X A W b hX hW hB hA k c, X9800_apply Xv X hX k d]
  have hZ : ZZ (F := Ideal) Xv Wv Bv Ab (ix2 (0 : Fin 1) c)
      = ∑ k : Fin 9800, Ideal.exp (gcn X A W b (lo k) c - MX (F := Ideal) Xv Wv Bv Ab 48 (ix2 (0 : Fin 1) c)) := by
    unfold ZZ
    rw [pay8_apply]
    exact Finset.sum_congr rfl fun k _ => by rw [G9800_apply Xv Wv Bv Ab X A W b hX hW hB hA k c]
  unfold OUT kerOut
  rw [pay10_apply, hM, hAcc, hZ]
  refine congrArg₂ Ideal.div (congrArg₂ (· + ·) rfl ?_) (congrArg₂ (· + ·) rfl ?_)
  · exact Finset.sum_congr rfl fun k _ => by
      rw [G200_apply Xv Wv Bv Ab X A W b hX hW hB hA k c, X200_apply Xv X hX k d]
  · exact Finset.sum_congr rfl fun k _ => by rw [G200_apply Xv Wv Bv Ab X A W b hX hW hB hA k c]

section Real

variable (hXr : ∀ n j, IsReal (X n j)) (hAr : ∀ n k, IsReal (A n k)) (hWr : ∀ i j, IsReal (W i j))
  (hbr : ∀ c, IsReal (b c))

include hX hW hB hA hXr hAr hWr hbr in
/-- Every entry of every stored block is a real number. -/
theorem block_real (t : ℕ) (ht : t < 50) (r : Fin 200) (c : Fin 128) :
    IsReal (k0_pay3 (F := Ideal) (Ab t) (SUP (F := Ideal) Xv Wv) Bv (ix2 r c)) := by
  rw [block_apply Xv Wv Bv Ab X A W b hX hW hB hA t ht r c]
  exact gcn_real X A W b hXr hAr hWr hbr _ c

include hX hW hB hA hXr hAr hWr hbr in
/-- The running column maximum is a real number after every grid point. -/
theorem MX_real : ∀ n, n < 50 → ∀ c : Fin 128, IsReal (MX (F := Ideal) Xv Wv Bv Ab n (ix2 (0 : Fin 1) c))
  | 0, h, c => by
    show IsReal (k0_pay5 (F := Ideal) (Ab 0) (SUP (F := Ideal) Xv Wv) Bv (k0_pay2 (F := Ideal)) (ix2 (0 : Fin 1) c))
    exact pay5_real _ _ _ _ c (by rw [pay2_apply]; exact bot_ne_top)
      (fun r => block_real Xv Wv Bv Ab X A W b hX hW hB hA hXr hAr hWr hbr 0 h r c)
  | n + 1, h, c => by
    show IsReal (k0_pay5 (F := Ideal) (Ab (n + 1)) (SUP (F := Ideal) Xv Wv) Bv (MX (F := Ideal) Xv Wv Bv Ab n)
      (ix2 (0 : Fin 1) c))
    exact pay5_real _ _ _ _ c (MX_real n (by omega) c).1
      (fun r => block_real Xv Wv Bv Ab X A W b hX hW hB hA hXr hAr hWr hbr (n + 1) h r c)

include hX hW hB hA hXr hAr hWr hbr in
/-- The stored result is the textbook softmax contraction, with any real shift. -/
theorem OUT_eq_refOut (mR : Fin 128 → EReal) (hR : ∀ c, IsReal (mR c)) (c d : Fin 128) :
    OUT (F := Ideal) Xv Wv Bv Ab (ix2 c d) = refOut (gcn X A W b) X mR c d := by
  rw [OUT_apply Xv Wv Bv Ab X A W b hX hW hB hA c d]
  exact kerOut_eq_refOut (gcn X A W b) X _ _ mR (gcn_real X A W b hXr hAr hWr hbr) hXr
    (fun c => MX_real Xv Wv Bv Ab X A W b hX hW hB hA hXr hAr hWr hbr 48 (by norm_num) c)
    (fun c => MX_real Xv Wv Bv Ab X A W b hX hW hB hA hXr hAr hWr hbr 49 (by norm_num) c) hR c d

end Real

end Values

end Cert.KernelValue

end
-- ==== Proof.LibHostColumns.lean ====
/-
  Host operations on an `[a, b]` matrix read at an index, at `Ideal`: the sum along axis 0 (each column's sum,
  the initial value added), the transpose, one column cut out as an `[a, 1]` matrix, and the leading columns cut
  out as an `[a, n]` matrix.
-/
import Idealize.ShloMosaic.Lib.Pipeline.Value
import Idealize.ShloMosaic.Lib.ValueIdx
import Idealize.ShloMosaic.PureOps.Ideal.Laws

noncomputable section

namespace Cert.HostColumns

open Idealize.ShloMosaic Idealize.ShloMosaic.ValueIdx

/-- Reducing axis 0 of an `[a, b]` matrix into a `[b]` vector leaves a vector: the rank is positive. -/
theorem reduces_of_reducesTo {a b : ℕ} (h' : Shape.ReducesTo ⟨2, ![a, b]⟩ [0] ⟨1, ![b]⟩) :
    Shape.Reduces ⟨2, ![a, b]⟩ [0] ⟨1, ![b]⟩ := by
  obtain ⟨hr, hs⟩ := h'
  exact ⟨hr, Nat.one_pos, hs⟩

/-- The index of an `[a, b]` matrix over column `q` at position `k` of the reduced axis 0 is `(k, q)`. -/
theorem lift_col {a b : ℕ} (h : Shape.Reduces ⟨2, ![a, b]⟩ [0] ⟨1, ![b]⟩) (q : Fin b) (k : Fin a) :
    h.lift (ix1 q) k = ix2 k q :=
  funext fun ax => Fin.ext (by match ax with | ⟨0, _⟩ => rfl | ⟨1, _⟩ => rfl)

/-- The host's sum along axis 0, at column `q`: the initial value plus the sum of the column. -/
theorem colSum_apply {a b : ℕ} {u : Shape} (y : (⟨2, ![a, b]⟩ : Shape).Idx → EReal) (init : u.Idx → EReal)
    (h' : Shape.ReducesTo ⟨2, ![a, b]⟩ [0] ⟨1, ![b]⟩) (hu : 0 < u.numel) (q : Fin b) :
    Host.reduceAdd (F := Ideal) (φ := .f32) y init h' hu (ix1 q) = init (Shape.Idx.first hu) + ∑ k : Fin a, y (ix2 k q) := by
  simp only [Host.reduceAdd, Ideal.hostReduceAdd_def]
  rw [Ideal.hostReduceAdd_single h' (reduces_of_reducesTo h')]
  exact congrArg (_ + ·) (Finset.sum_congr rfl fun k _ => congrArg y (lift_col _ q k))

/-- The transpose of an `[a, b]` matrix at `(q, p)` is the matrix at `(p, q)`. -/
theorem transpose2_apply {α : Type} {a b : ℕ} (h : Shape.Transposes ⟨2, ![a, b]⟩ [1, 0] ⟨2, ![b, a]⟩)
    (x : (⟨2, ![a, b]⟩ : Shape).Idx → α) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- Column `c` of an `[a, b]` matrix cut out as an `[a, 1]` matrix, at `(p, u)`: the matrix at `(p, c)`. -/
theorem sliceCol_apply {α : Type} {a b c : ℕ} (hc : c < b) (h : Shape.Slices ⟨2, ![a, b]⟩ ![0, c] ⟨2, ![a, 1]⟩)
    (x : (⟨2, ![a, b]⟩ : Shape).Idx → α) (p : Fin a) (u : Fin 1) :
    extractStridedSlice ⟨2, ![a, 1]⟩ ![0, c] x h (ix2 p u) = x (ix2 p ⟨c, hc⟩) :=
  extractStridedSlice_apply ![0, c] x h (ix2 p u) (ix2 p ⟨c, hc⟩) fun ax => by
    match ax with
    | ⟨0, _⟩ => show p.val = 0 + p.val; omega
    | ⟨1, _⟩ => show c = c + u.val; have := u.isLt; omega

/-- The first `n` columns of an `[a, b]` matrix cut out as an `[a, n]` matrix, at `(p, q)`: the matrix at `(p, q)`. -/
theorem sliceLead_apply {α : Type} {a b n : ℕ} (hn : n ≤ b) (h : Shape.Slices ⟨2, ![a, b]⟩ ![0, 0] ⟨2, ![a, n]⟩)
    (x : (⟨2, ![a, b]⟩ : Shape).Idx → α) (p : Fin a) (q : Fin n) :
    extractStridedSlice ⟨2, ![a, n]⟩ ![0, 0] x h (ix2 p q) = x (ix2 p ⟨q.val, lt_of_lt_of_le q.isLt hn⟩) :=
  extractStridedSlice_apply ![0, 0] x h (ix2 p q) (ix2 p ⟨q.val, lt_of_lt_of_le q.isLt hn⟩) fun ax => by
    match ax with
    | ⟨0, _⟩ => show p.val = 0 + p.val; omega
    | ⟨1, _⟩ => show q.val = 0 + q.val; omega

end Cert.HostColumns

end
-- ==== Proof.RefSide.lean ====
/-
  The reference program read entry by entry, at the extended reals.

  With X the 10000 × 128 features, A the 10000 × 10000 adjacency, W the 128 × 128 weights and b the 128 biases, the
  reference computes g = A · (X · W) + b, takes for each column c the maximum m c of the column's entries (started
  from −∞), exponentiates g − m, divides each column by its sum and contracts the result's transpose with X:
  entry (c, d) of its result is  Σ_n  exp (g n c − m c) / (Σ_n' exp (g n' c − m c)) · X n d.
  When every entry of column c of g is a real number, so is m c.
-/
import proofs.«179192_g15607911154264_cont_week2b_145_13_alg».proof.Proof.Spec
import proofs.«179192_g15607911154264_cont_week2b_145_13_alg».proof.Proof.Gen.ReferenceIdeal.Read
import proofs.«179192_g15607911154264_cont_week2b_145_13_alg».proof.Proof.LibHostColumns
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))

/-- g = A · (X · W) + b of the reference's four arguments, read as arrays of their entries. -/
abbrev gcnOf : Fin 10000 → Fin 128 → EReal :=
  Cert.Spec.gcn (fun n i => x0 (ix2 n i)) (fun n k => x1 (ix2 n k)) (fun i j => x2 (ix2 i j)) (fun j => x3 (ix1 j))

/-- The reference's shift for column `c`: the maximum of −∞ and the running maximum of the column from −∞. -/
def refMax (c : Fin 128) : EReal := val_main_v7 (F := Ideal) x0 x1 x2 x3 (ix1 c)

/-- X · W at (k, j). -/
theorem v0_apply (k : Fin 10000) (j : Fin 128) :
    val_main_v0 (F := Ideal) x0 x2 (ix2 k j)
      = Cert.Spec.support (fun n i => x0 (ix2 n i)) (fun i j => x2 (ix2 i j)) k j := by
  rw [val_main_v0_apply]
  unfold Cert.Spec.support
  refine Finset.sum_congr rfl fun i _ => ?_
  have el : lidx_main_v0 (ix2 k j) i = ix2 k i :=
    funext fun a => by match a with | ⟨0, _⟩ => rfl | ⟨1, _⟩ => rfl
  have er : ridx_main_v0 (ix2 k j) i = ix2 i j :=
    funext fun a => by match a with | ⟨0, _⟩ => rfl | ⟨1, _⟩ => rfl
  rw [el, er]

/-- A · (X · W) + b at (n, c). -/
theorem v4_apply (n : Fin 10000) (c : Fin 128) :
    val_main_v4 (F := Ideal) x0 x1 x2 x3 (ix2 n c) = gcnOf x0 x1 x2 x3 n c := by
  rw [val_main_v4_apply, val_main_v1_apply, val_main_v3_apply, val_main_v2_apply, Ideal.addf_def]
  unfold gcnOf Cert.Spec.gcn
  have eb : idx_main_v2 (idx_main_v3 (ix2 n c)) = ix1 c :=
    funext fun a => by match a with | ⟨0, _⟩ => rfl
  rw [eb]
  refine congrArg (· + x3 (ix1 c)) (Finset.sum_congr rfl fun k _ => ?_)
  have el : lidx_main_v1 (ix2 n c) k = ix2 n k :=
    funext fun a => by match a with | ⟨0, _⟩ => rfl | ⟨1, _⟩ => rfl
  have er : ridx_main_v1 (ix2 n c) k = ix2 k c :=
    funext fun a => by match a with | ⟨0, _⟩ => rfl | ⟨1, _⟩ => rfl
  rw [el, er, v0_apply]

/-- Reducing axis 0 of a 10000 × 128 matrix leaves its 128 columns. -/
theorem reduces_d0 : S10000x128.Reduces [0] S128 :=
  Cert.HostColumns.reduces_of_reducesTo reducesTo_S10000x128_S128_d0

/-- The word 0xFF800000 is −∞. -/
theorem ofBits_neg_inf : Ideal.ofBits .f32 0xFF800000#32 = (⊥ : EReal) := by simp [Ideal.ofBits, Ideal.ieee]

/-- The running maximum of column `c` of g, started from −∞. -/
theorem v5_apply (c : Fin 128) :
    val_main_v5 (F := Ideal) x0 x1 x2 x3 (ix1 c)
      = (Finset.univ : Finset (Fin 10000)).fold max (⊥ : EReal) (fun n => gcnOf x0 x1 x2 x3 n c) := by
  unfold val_main_v5
  rw [Host.reduce_eq_fold_single FloatOps.maximumf _ _ _ reduces_d0 h_S_]
  have hf : (val_main_v4 (F := Ideal) x0 x1 x2 x3 ∘ reduces_d0.lift (ix1 c))
      = fun n : Fin 10000 => gcnOf x0 x1 x2 x3 n c :=
    funext fun n : Fin 10000 =>
      (congrArg (val_main_v4 (F := Ideal) x0 x1 x2 x3) (Cert.HostColumns.lift_col reduces_d0 c n)).trans
        (v4_apply x0 x1 x2 x3 n c)
  have hi : (val_main_cst (F := Ideal)) (Shape.Idx.first h_S_) = (⊥ : EReal) := by
    rw [val_main_cst_apply, Ideal.ofBits_def, ofBits_neg_inf]
  rw [hf, hi]
  rfl

/-- The reference's shift is that running maximum. -/
theorem refMax_eq_fold (c : Fin 128) :
    refMax x0 x1 x2 x3 c
      = (Finset.univ : Finset (Fin 10000)).fold max (⊥ : EReal) (fun n => gcnOf x0 x1 x2 x3 n c) := by
  unfold refMax
  rw [val_main_v7_apply, val_main_v6_apply, val_main_cst_0_apply, Ideal.maximumf_def, Ideal.ofBits_def, ofBits_neg_inf,
    v5_apply]
  exact max_bot_left _

/-- A column of real numbers has a real maximum: the maximum is below +∞ because −∞ and every entry are, and above
    −∞ because the first entry is. -/
theorem refMax_real (c : Fin 128)
    (h : ∀ n : Fin 10000, Cert.Spec.IsReal (Cert.Spec.gcn (fun n i => x0 (ix2 n i)) (fun n k => x1 (ix2 n k))
      (fun i j => x2 (ix2 i j)) (fun j => x3 (ix1 j)) n c)) :
    Cert.Spec.IsReal (refMax x0 x1 x2 x3 c) := by
  rw [refMax_eq_fold]
  constructor
  · apply ne_of_lt
    rw [Finset.fold_max_lt]
    exact ⟨bot_lt_top, fun n _ => lt_top_iff_ne_top.2 (h n).1⟩
  · apply ne_of_gt
    rw [Finset.lt_fold_max]
    exact Or.inr ⟨(0 : Fin 10000), Finset.mem_univ _, bot_lt_iff_ne_bot.2 (h 0).2⟩

/-- The shift spread over the matrix: entry (n, c) is the shift of column `c`. -/
theorem v9_apply (n : Fin 10000) (c : Fin 128) :
    val_main_v9 (F := Ideal) x0 x1 x2 x3 (ix2 n c) = refMax x0 x1 x2 x3 c := by
  rw [val_main_v9_apply, val_main_v8_apply]
  have e : idx_main_v8 (idx_main_v9 (ix2 n c)) = ix1 c := funext fun a => by match a with | ⟨0, _⟩ => rfl
  rw [e]
  rfl

/-- exp (g − m) at (n, c). -/
theorem v11_apply (n : Fin 10000) (c : Fin 128) :
    val_main_v11 (F := Ideal) x0 x1 x2 x3 (ix2 n c)
      = Ideal.exp (gcnOf x0 x1 x2 x3 n c - refMax x0 x1 x2 x3 c) := by
  rw [val_main_v11_apply, val_main_v10_apply, Ideal.hostUnary_exp_def, Ideal.subf_def, v4_apply, v9_apply]

/-- The column sums of exp (g − m), spread over the matrix: entry (n, c) is the sum of column `c`. -/
theorem v14_apply (n : Fin 10000) (c : Fin 128) :
    val_main_v14 (F := Ideal) x0 x1 x2 x3 (ix2 n c)
      = ∑ k : Fin 10000, Ideal.exp (gcnOf x0 x1 x2 x3 k c - refMax x0 x1 x2 x3 c) := by
  rw [val_main_v14_apply, val_main_v13_apply]
  have e : idx_main_v13 (idx_main_v14 (ix2 n c)) = ix1 c := funext fun a => by match a with | ⟨0, _⟩ => rfl
  rw [e, val_main_v12_apply, val_main_cst_1_apply, Ideal.ofBits_def, Ideal.ofBits_zero_f32, zero_add]
  refine Finset.sum_congr rfl fun k _ => ?_
  have ek : idx_main_v12 (ix1 c) k = ix2 k c :=
    funext fun a => by match a with | ⟨0, _⟩ => rfl | ⟨1, _⟩ => rfl
  rw [ek, v11_apply]

/-- Entry (c, d) of the reference's result is the textbook formula at the reference's own shift. -/
theorem ref_result_apply (c d : Fin 128) :
    Cert.ReferenceIdeal.Read.val_main_v17 (F := Ideal) x0 x1 x2 x3 (ix2 c d)
      = Cert.Spec.refOut
          (Cert.Spec.gcn (fun n i => x0 (ix2 n i)) (fun n k => x1 (ix2 n k)) (fun i j => x2 (ix2 i j))
            (fun j => x3 (ix1 j)))
          (fun n i => x0 (ix2 n i)) (refMax x0 x1 x2 x3) c d := by
  rw [val_main_v17_apply]
  unfold Cert.Spec.refOut
  refine Finset.sum_congr rfl fun n _ => ?_
  have el : lidx_main_v17 (ix2 c d) n = ix2 c n :=
    funext fun a => by match a with | ⟨0, _⟩ => rfl | ⟨1, _⟩ => rfl
  have er : ridx_main_v17 (ix2 c d) n = ix2 n d :=
    funext fun a => by match a with | ⟨0, _⟩ => rfl | ⟨1, _⟩ => rfl
  have et : idx_main_v16 (ix2 c n) = ix2 n c :=
    funext fun a => by match a with | ⟨0, _⟩ => rfl | ⟨1, _⟩ => rfl
  rw [el, er, val_main_v16_apply, et, val_main_v15_apply, Ideal.hostDivf_def, v11_apply, v14_apply]

end Cert.RefSide

end
-- ==== Proof.Finite.lean ====
/-
  The precondition read back: when the printed predicate "every entry of each of the four arrays has absolute value
  below +∞" holds, every entry of each array is a real number (neither +∞ nor −∞).

  The predicate is the conjunction of four "all entries" tests; each test that came out true was true at every entry,
  and at one entry it says max (x, −x) < +∞, which rules out x = +∞ (then x itself is +∞) and x = −∞ (then −x is +∞).
-/
import proofs.«179192_g15607911154264_cont_week2b_145_13_alg».proof.Pre_finite_inputs
import proofs.«179192_g15607911154264_cont_week2b_145_13_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The scalar shape has one index. -/
instance : Subsingleton Cert.Pre_finite_inputs.S_.Idx := ⟨fun _ _ => funext fun d => d.elim0⟩

/-- The word 0x7F800000 is +∞. -/
theorem ofBits_pos_inf : Ideal.ofBits .f32 0x7F800000#32 = (⊤ : EReal) := by simp [Ideal.ofBits, Ideal.ieee]

/-- max (x, −x) < +∞ says that x is a real number. -/
theorem isReal_of_abs_lt (x : EReal)
    (h : Ideal.cmp .olt (max x (-x)) (Ideal.ofBits .f32 0x7F800000#32) = 1#1) : Cert.Spec.IsReal x := by
  rw [ofBits_pos_inf] at h
  have hlt : max x (-x) < ⊤ := by
    by_contra hn
    simp [Ideal.cmp, hn] at h
  rw [max_lt_iff] at hlt
  refine ⟨ne_of_lt hlt.1, fun hb => ?_⟩
  rw [hb] at hlt
  exact absurd hlt.2 (by simp)

/-- One entry of the test |x| < +∞ of an array of any shape: where it is true the entry is a real number. -/
theorem isReal_of_test {s : Shape}
    (hb : Cert.Pre_finite_inputs.S_.BroadcastsInDim s (![] : Fin 0 → Fin s.rank)) (x : FVec Ideal s .f32) (i : s.Idx)
    (e : cmpf .olt (Host.absf x)
      (broadcastInDim s ![] hb (constant (F := Ideal) Cert.Pre_finite_inputs.S_ .f32 0x7F800000#32)) i = 1#1) :
    Cert.Spec.IsReal (x i) :=
  isReal_of_abs_lt (x i) e

/-- Under the precondition every entry of the four arrays is a real number. -/
theorem inputs_real [hPre_finite_inputs : Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x128 .f32) (x3 : FVec Ideal Cert.Pre_finite_inputs.S128 .f32)
    (h : Cert.Pre_finite_inputs.fn (F := Ideal) x0 x1 x2 x3 = (fun _ => 1#1)) :
    (∀ i, Cert.Spec.IsReal (x0 i)) ∧ (∀ i, Cert.Spec.IsReal (x1 i)) ∧ (∀ i, Cert.Spec.IsReal (x2 i))
      ∧ (∀ i, Cert.Spec.IsReal (x3 i)) := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => isReal_of_test _ x0 i (Host.reduce_andi_all _ _ _ _ _ e0 i),
    fun i => isReal_of_test _ x1 i (Host.reduce_andi_all _ _ _ _ _ e1 i),
    fun i => isReal_of_test _ x2 i (Host.reduce_andi_all _ _ _ _ _ e2 i),
    fun i => isReal_of_test _ x3 i (Host.reduce_andi_all _ _ _ _ _ e3 i)⟩

end Cert.Finite

end
-- ==== Proof.KiValue.lean ====
/-
  The idealized kernel's run, read: the result array ends holding the decoder's result as a term over the argument
  blocks, and that term, entry by entry on the extended reals, is the reference's result when every input is finite.
  The output window's one block is the whole result array and is written back once, after the last point.
-/
import Idealize.ShloMosaic.Lib.Pipeline.Value
import Idealize.ShloMosaic.Lib.ValueIdx
import proofs.«179192_g15607911154264_cont_week2b_145_13_alg».proof.Proof.KiBody
import proofs.«179192_g15607911154264_cont_week2b_145_13_alg».proof.Proof.KernelValue
import proofs.«179192_g15607911154264_cont_week2b_145_13_alg».proof.Proof.RefSide
import proofs.«179192_g15607911154264_cont_week2b_145_13_alg».proof.Proof.Finite

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Blocks Idealize.ShloMosaic.ValueIdx

variable (m : (ℓ : Loc nD τ sig) → Buf (Elt F) ℓ) (ρ : Dev nD → PrngReg)

/-- The result array's final contents. -/
def result (c : Dev nD) : Buf (Elt F) ((c : Thread nD τ).loc main_v1) := OUT (Xb m c) (Wb m c) (Bb m c) (Abk m c)

/-- The one write-back, after the last point, writes the result; its block is the whole array. -/
theorem final4 (c : Dev nD) : (dats m 0 c).arrAt 4 cfg0.N = result m c :=
  arrAt4_eq c (dats m 0 c) (result m c) (by
    show (cfg0.win 4).cut (grid0.coords tLast) ((dats m 0 c).after 4 tLast) = _
    rw [after4]; rfl)

/-- The run, read: the result array at `result`, the arguments unchanged. -/
theorem run_value : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)

end Cert.KernelIdeal.Body

namespace Cert.KernelIdeal.Body

open Idealize.ShloMosaic Idealize.ShloMosaic.TcCoe Idealize.SL.Sem Idealize.ShloMosaic.ValueIdx
open Cert.KernelIdeal Cert.KernelIdeal.Gen Cert.KernelIdeal.Blocks

/-- With finite inputs the result is, entry by entry, the reference's: softmax over the nodes of
    A·(X·W) + b, contracted with X. -/
theorem result_eq [Cert.Pre_finite_inputs.Facts] (m : (ℓ : Loc nD τ sig) → Buf (Elt Ideal) ℓ) (c : Dev nD)
    (hp : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = (fun _ => 1#1)) :
    Cert.ReferenceIdeal.Read.val_main_v17 (F := Ideal) (m ((c.tc : Thread nD τ).loc main_arg0)) (m ((c.tc : Thread nD τ).loc main_arg1))
      (m ((c.tc : Thread nD τ).loc main_arg2)) (m ((c.tc : Thread nD τ).loc main_arg3)) = result (F := Ideal) m c := by
  obtain ⟨r0, r1, r2, r3⟩ := Cert.Finite.inputs_real _ _ _ _ hp
  funext i
  obtain ⟨cc, d, rfl⟩ : ∃ (cc d : Fin 128), i = ix2 cc d := ⟨i 0, i 1, eq_ix2 i⟩
  rw [Cert.RefSide.ref_result_apply]
  refine (Cert.KernelValue.OUT_eq_refOut (Xb m c) (Wb m c) (Bb m c) (Abk m c) _ _ _ _
    (fun n j => iblk0_apply m c t0 n j) (fun i j => iblk1_apply m c t0 i j) (fun j => iblk2_apply m c t0 j)
    (fun t ht r k => ?_) (fun n j => r0 _) (fun n k => r1 _) (fun i j => r2 _) (fun j => r3 _) _
    (fun c' => Cert.RefSide.refMax_real _ _ _ _ c' (fun n => Cert.Softmax.gcn_real _ _ _ _ (fun n j => r0 _) (fun n k => r1 _) (fun i j => r2 _) (fun j => r3 _) n c')) cc d).symm
  unfold Abk
  rw [dif_pos (show t < cfg0.N from by rw [N50]; exact ht)]
  exact iblk3_apply m c ⟨t, _⟩ r k

end Cert.KernelIdeal.Body

end
-- ==== Proof.lean ====
/-
  The decoder kernel against its reference: X is 10000 × 128, A is 10000 × 10000, W is 128 × 128, b has 128 entries;
  both programs compute  softmax over the nodes of (A·(X·W) + b), transposed, times X.

  The kernel streams A in 50 row blocks. It keeps support = X·W, the gcn rows computed so far and the running column
  maximum in scratch; at point 48 it flushes the rows below 9800 against the maximum so far (snapshot, column sums of
  the exponentials, their product with X), and at point 49 it treats the last 200 rows against the final maximum,
  rescales the flushed values by exp (snapshot − final maximum) and divides. The frame of each kernel program is the
  run over the four kinds of grid point, with an invariant saying what the six scratch buffers hold after each point.

  On the extended reals the two results agree when every input is finite: then every gcn entry and every maximum is
  a real number, exp (g − a)·exp (a − b) = exp (g − b), the rescaled two-piece numerator and denominator are
  the whole column's, and a softmax does not depend on the real number it is shifted by, so the reference's shift by
  its own column maximum gives the same quotient. The idealization rewrote nothing, so its ledger is empty.
-/
import proofs.«179192_g15607911154264_cont_week2b_145_13_alg».proof.Defs
import proofs.«179192_g15607911154264_cont_week2b_145_13_alg».proof.Proof.Gen.Kernel
import proofs.«179192_g15607911154264_cont_week2b_145_13_alg».proof.Proof.Gen.Kernel.Skeleton
import proofs.«179192_g15607911154264_cont_week2b_145_13_alg».proof.Proof.Gen.Kernel.Launch
import proofs.«179192_g15607911154264_cont_week2b_145_13_alg».proof.Proof.Gen.Kernel.Points
import proofs.«179192_g15607911154264_cont_week2b_145_13_alg».proof.Proof.Gen.Kernel.Frame
import proofs.«179192_g15607911154264_cont_week2b_145_13_alg».proof.Proof.Gen.KernelIdeal
import proofs.«179192_g15607911154264_cont_week2b_145_13_alg».proof.Proof.Gen.KernelIdeal.Skeleton
import proofs.«179192_g15607911154264_cont_week2b_145_13_alg».proof.Proof.Gen.KernelIdeal.Launch
import proofs.«179192_g15607911154264_cont_week2b_145_13_alg».proof.Proof.Gen.KernelIdeal.Points
import proofs.«179192_g15607911154264_cont_week2b_145_13_alg».proof.Proof.Gen.KernelIdeal.Frame
import proofs.«179192_g15607911154264_cont_week2b_145_13_alg».proof.Proof.Gen.ReferenceIdeal
import proofs.«179192_g15607911154264_cont_week2b_145_13_alg».proof.Proof.Gen.Pre_finite_inputs
import proofs.«179192_g15607911154264_cont_week2b_145_13_alg».proof.Proof.Gen.ReferenceIdeal.Run
import proofs.«179192_g15607911154264_cont_week2b_145_13_alg».proof.Proof.Gen.ReferenceIdeal.Read
import proofs.«179192_g15607911154264_cont_week2b_145_13_alg».proof.Proof.KbBody
import proofs.«179192_g15607911154264_cont_week2b_145_13_alg».proof.Proof.KiValue
import Idealize.ShloMosaic.Adequacy
import Idealize.ShloMosaic.Init

noncomputable section

namespace Cert.Proof

open Idealize.ShloMosaic Idealize.SL.Sem

section Claims

variable [Cert.Kernel.Facts] [Cert.KernelIdeal.Facts] [Cert.ReferenceIdeal.Facts] [Cert.Pre_finite_inputs.Facts]

theorem frame_p : Cert.frame_Kernel := fun m ρ _ => Cert.Kernel.Body.frame m ρ
theorem frame_pi : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, both idealized programs end with the same result array. -/
theorem algebraic : Cert.algebraic_KernelIdeal_ReferenceIdeal := by
  intro m ρ m' ρ' hpre hagree
  refine ⟨fun c => Cert.KernelIdeal.Body.result (F := Ideal) m c, Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.KernelIdeal.Body.result_eq m c (hpre c)

end Claims

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
